-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5_0)) (v1 : (c : Dev Cert.KernelIdeal.nD) → Buf (Elt Ideal) ((c.tc : Thread Cert.KernelIdeal.nD Cert.KernelIdeal.τ).loc Cert.KernelIdeal.main_v5_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5_0) = v0 c
          ∧ r.2.mem ((c.tc : Thread Cert.KernelIdeal.nD Cert.KernelIdeal.τ).loc Cert.KernelIdeal.main_v5_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v94) = v0 c
          ∧ r.2.mem ((c.tc : Thread Cert.ReferenceIdeal.nD Cert.ReferenceIdeal.τ).loc Cert.ReferenceIdeal.main_v92) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S1024x1024 : Shape := ⟨2, ![1024, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_

variable [Facts]

def fn_part1 {F : FTy → Type} [FloatOps F] (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  main_v18

def fn {F : FTy → Type} [FloatOps F] (main_arg0 : FVec F S4096x1024 .f32) (main_arg1 : FVec F S1024x1024 .f32) (main_arg2 : FVec F S1024x1024 .f32) (main_arg3 : FVec F S1024x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_v13 main_v16
-- ==== Kernel.lean ====
abbrev S4096x1024 : Shape := ⟨2, ![4096, 1024]⟩
abbrev S1024x1024 : Shape := ⟨2, ![1024, 1024]⟩
abbrev S3072x1024 : Shape := ⟨2, ![3072, 1024]⟩
abbrev S1024x3072 : Shape := ⟨2, ![1024, 3072]⟩
abbrev S4096x3072 : Shape := ⟨2, ![4096, 3072]⟩
abbrev S4096x4096 : Shape := ⟨2, ![4096, 4096]⟩
abbrev S256x1024 : Shape := ⟨2, ![256, 1024]⟩
abbrev S256x4096 : Shape := ⟨2, ![256, 4096]⟩
abbrev S256x256 : Shape := ⟨2, ![256, 256]⟩
abbrev S4096x256 : Shape := ⟨2, ![4096, 256]⟩
abbrev S256 : Shape := ⟨1, ![256]⟩
abbrev S256x1 : Shape := ⟨2, ![256, 1]⟩

abbrev nBuf : Space → Nat
  | .hbm => 11
  | .vmem => 14
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S3072x1024, .f32⟩
  | .hbm, ⟨5, _⟩ => ⟨S1024x3072, .f32⟩
  | .hbm, ⟨6, _⟩ => ⟨S1024x3072, .bf16⟩
  | .hbm, ⟨7, _⟩ => ⟨S4096x1024, .bf16⟩
  | .hbm, ⟨8, _⟩ => ⟨S4096x3072, .bf16⟩
  | .hbm, ⟨9, _⟩ => ⟨S4096x1024, .f32⟩
  | .hbm, ⟨10, _⟩ => ⟨S4096x4096, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S256x1024, .bf16⟩
  | .local _ .vmem, ⟨7, _⟩ => ⟨S256x1024, .bf16⟩
  | .local _ .vmem, ⟨8, _⟩ => ⟨S4096x1024, .bf16⟩
  | .local _ .vmem, ⟨9, _⟩ => ⟨S4096x1024, .bf16⟩
  | .local _ .vmem, ⟨10, _⟩ => ⟨S256x1024, .f32⟩
  | .local _ .vmem, ⟨11, _⟩ => ⟨S256x1024, .f32⟩
  | .local _ .vmem, ⟨12, _⟩ => ⟨S256x4096, .f32⟩
  | .local _ .vmem, ⟨13, _⟩ => ⟨S256x4096, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc1_stg4_0 : Ref sig .tc := ⟨.vmem, 12, rfl⟩
abbrev cc1_stg4_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc1_sem4_0 : DmaSem sig := 12
abbrev cc1_sem4_1 : DmaSem sig := 13

abbrev nD : Nat := 1
abbrev τ : Topo := Topo.v7x

variable {F : FTy → Type} [FloatOps F]

abbrev grid0 : Pipeline.Grid := ⟨2, ![4, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc1_transform_2 (i : grid1.Coords) : Fin 2 → Nat :=
  let arg0 : BitVec 32 := BitVec.ofNat 32 (i 0).val
  let c0_i32 : BitVec 32 := 0#32
  let c2_i32 : BitVec 32 := 2#32
  let c0_i32_0 : BitVec 32 := 0#32
  ![c0_i32.toNat, c2_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S4096x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S4096x1024 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S256x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S256x4096 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  concatenates_S1024x1024_S1024x1024_S1024x1024_S3072x1024_d0 : Shape.Concatenates [S1024x1024, S1024x1024, S1024x1024] S3072x1024 0
  transposes_S3072x1024_S1024x3072_1_0 : S3072x1024.Transposes [1, 0] S1024x3072
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  packedbf16_S1024x1024_S1024x1024_0_0 : (Rect.unit (s := S1024x1024) ![0, 0] S1024x1024.size inb_S1024x1024_S1024x1024_0_0).PackedRows (EltTy.packing .bf16)
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S4096x1024_S4096x1024_0_0 : ∀ a, (![0, 0] : Fin 2 → Nat) a + S4096x1024.size a ≤ S4096x1024.size a
  h_S4096x1024 : 0 < S4096x1024.numel
  shapeCasts_S4096x1024_S4096x1024 : S4096x1024.ShapeCasts S4096x1024
  slices_S256x1024_o0_0_S256x256 : S256x1024.Slices ![0, 0] S256x256
  slices_S256x1024_o0_256_S256x256 : S256x1024.Slices ![0, 256] S256x256
  slices_S256x1024_o0_512_S256x256 : S256x1024.Slices ![0, 512] S256x256
  slices_S256x1024_o0_768_S256x256 : S256x1024.Slices ![0, 768] S256x256
  slices_S4096x1024_o0_0_S4096x256 : S4096x1024.Slices ![0, 0] S4096x256
  slices_S4096x1024_o0_256_S4096x256 : S4096x1024.Slices ![0, 256] S4096x256
  slices_S4096x1024_o0_512_S4096x256 : S4096x1024.Slices ![0, 512] S4096x256
  slices_S4096x1024_o0_768_S4096x256 : S4096x1024.Slices ![0, 768] S4096x256
  reduces_S256x4096_S256 : S256x4096.Reduces [1] S256
  shapeCasts_S256_S256x1 : S256.ShapeCasts S256x1
  broadcasts_S256x1_S256x4096 : S256x1.Broadcasts S256x4096
  inb_S256x1024_S256x256_0_0 : ∀ a, (![0, 0] : Fin 2 → Nat) a + S256x256.size a ≤ S256x1024.size a
  h_S256x256 : 0 < S256x256.numel
  inb_S256x1024_S256x256_0_256 : ∀ a, (![0, 256] : Fin 2 → Nat) a + S256x256.size a ≤ S256x1024.size a
  inb_S256x1024_S256x256_0_512 : ∀ a, (![0, 512] : Fin 2 → Nat) a + S256x256.size a ≤ S256x1024.size a
  inb_S256x1024_S256x256_0_768 : ∀ a, (![0, 768] : Fin 2 → Nat) a + S256x256.size a ≤ S256x1024.size a
  inb_S256x4096_S256x4096_0_0 : ∀ a, (![0, 0] : Fin 2 → Nat) a + S256x4096.size a ≤ S256x4096.size a
  h_S256x4096 : 0 < S256x4096.numel
  dot_S1024x1024_S1024x1024_S1024x1024_1_0_0_1_n_n_wf : DotDims.WF S1024x1024 S1024x1024 S1024x1024 [1] [0] [0] [1] [] []
  dot_S256x256_S4096x256_S256x4096_1_1_0_0_n_n_wf : DotDims.WF S256x256 S4096x256 S256x4096 [1] [1] [0] [0] [] []
  dot_S256x4096_S4096x256_S256x256_1_0_0_1_n_n_wf : DotDims.WF S256x4096 S4096x256 S256x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S4096x1024.size a
  hwx0_0 : ∀ i : grid0.Coords, EltTy.bits .bf16 = 32 ∨ (Rect.block (s := S4096x1024) S1024x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x3072.size a
  hwx0_1 : ∀ i : grid0.Coords, EltTy.bits .bf16 = 32 ∨ (Rect.block (s := S1024x3072) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S4096x3072.size a
  hwx0_2 : ∀ i : grid0.Coords, EltTy.bits .bf16 = 32 ∨ (Rect.block (s := S4096x3072) S1024x1024.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x1024.size a ≤ S4096x3072.size a
  hwx1_0 : ∀ i : grid1.Coords, EltTy.bits .bf16 = 32 ∨ (Rect.block (s := S4096x3072) S256x1024.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S4096x1024.size a ≤ S4096x3072.size a
  hwx1_1 : ∀ i : grid1.Coords, EltTy.bits .bf16 = 32 ∨ (Rect.block (s := S4096x3072) S4096x1024.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S4096x1024.size a ≤ S4096x3072.size a
  hwx1_2 : ∀ i : grid1.Coords, EltTy.bits .bf16 = 32 ∨ (Rect.block (s := S4096x3072) S4096x1024.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S256x1024.size a ≤ S4096x1024.size a
  hwx1_3 : ∀ i : grid1.Coords, EltTy.bits .f32 = 32 ∨ (Rect.block (s := S4096x1024) S256x1024.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S256x4096.size a ≤ S4096x4096.size a
  hwx1_4 : ∀ i : grid1.Coords, EltTy.bits .f32 = 32 ∨ (Rect.block (s := S4096x4096) S256x4096.size (cc1_transform_4 i) (hinb1_4 i)).WholeWords (EltTy.packing .f32)

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf
def dot_S256x256_S4096x256_S256x4096_1_1_0_0_n_n : DotDims S256x256 S4096x256 S256x4096 where
  lhsContracting := [1]
  rhsContracting := [1]
  lhsNonContracting := [0]
  rhsNonContracting := [0]
  lhsBatch := []
  rhsBatch := []
  wf := dot_S256x256_S4096x256_S256x4096_1_1_0_0_n_n_wf
def dot_S256x4096_S4096x256_S256x256_1_0_0_1_n_n : DotDims S256x4096 S4096x256 S256x256 where
  lhsContracting := [1]
  rhsContracting := [0]
  lhsNonContracting := [0]
  rhsNonContracting := [1]
  lhsBatch := []
  rhsBatch := []
  wf := dot_S256x4096_S4096x256_S256x256_1_0_0_1_n_n_wf

abbrev win0_0 : Pipeline.Window sig grid0 :=
  Pipeline.Window.ofSpec (Memref.whole main_v3) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v4) S256x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4) S4096x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v4) S4096x1024.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v5_0) S256x1024.size cc1_transform_3 reads1_3 true false 2 stage1_3 sem1_3
    hrank1 hreads1_3 hinb1_3 nbuf1_3 (Memref.isWhole_whole _) hwx1_3 hstage1_3

abbrev win1_4 : Pipeline.Window sig grid1 :=
  Pipeline.Window.ofSpec (Memref.whole main_v5_1) S256x4096.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S4096x1024 : Shape := ⟨2, ![4096, 1024]⟩
abbrev S1024x1024 : Shape := ⟨2, ![1024, 1024]⟩
abbrev S4096x256 : Shape := ⟨2, ![4096, 256]⟩
abbrev S4096x4096 : Shape := ⟨2, ![4096, 4096]⟩
abbrev S_ : Shape := ⟨0, ![]⟩
abbrev S4096 : Shape := ⟨1, ![4096]⟩
abbrev S4096x1 : Shape := ⟨2, ![4096, 1]⟩

abbrev nBuf : Space → Nat
  | .hbm => 111
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S4096x1024, .f32⟩
  | .hbm, ⟨6, _⟩ => ⟨S1024x1024, .f32⟩
  | .hbm, ⟨7, _⟩ => ⟨S4096x1024, .f32⟩
  | .hbm, ⟨8, _⟩ => ⟨S1024x1024, .f32⟩
  | .hbm, ⟨9, _⟩ => ⟨S4096x1024, .f32⟩
  | .hbm, ⟨10, _⟩ => ⟨S4096x256, .f32⟩
  | .hbm, ⟨11, _⟩ => ⟨S4096x256, .f32⟩
  | .hbm, ⟨12, _⟩ => ⟨S4096x256, .f32⟩
  | .hbm, ⟨13, _⟩ => ⟨S4096x256, .f32⟩
  | .hbm, ⟨14, _⟩ => ⟨S4096x256, .f32⟩
  | .hbm, ⟨15, _⟩ => ⟨S4096x256, .f32⟩
  | .hbm, ⟨16, _⟩ => ⟨S4096x256, .f32⟩
  | .hbm, ⟨17, _⟩ => ⟨S4096x256, .f32⟩
  | .hbm, ⟨18, _⟩ => ⟨S4096x256, .f32⟩
  | .hbm, ⟨19, _⟩ => ⟨S4096x256, .f32⟩
  | .hbm, ⟨20, _⟩ => ⟨S4096x256, .f32⟩
  | .hbm, ⟨21, _⟩ => ⟨S4096x256, .f32⟩
  | .hbm, ⟨22, _⟩ => ⟨S4096x4096, .f32⟩
  | .hbm, ⟨23, _⟩ => ⟨S4096x4096, .f32⟩
  | .hbm, ⟨24, _⟩ => ⟨S4096x4096, .f32⟩
  | .hbm, ⟨25, _⟩ => ⟨S4096x4096, .f32⟩
  | .hbm, ⟨26, _⟩ => ⟨S4096x4096, .f32⟩
  | .hbm, ⟨27, _⟩ => ⟨S4096x4096, .f32⟩
  | .hbm, ⟨28, _⟩ => ⟨S4096x4096, .f32⟩
  | .hbm, ⟨29, _⟩ => ⟨S4096x4096, .f32⟩
  | .hbm, ⟨30, _⟩ => ⟨S4096x4096, .f32⟩
  | .hbm, ⟨31, _⟩ => ⟨S4096x4096, .f32⟩
  | .hbm, ⟨32, _⟩ => ⟨S4096x4096, .f32⟩
  | .hbm, ⟨33, _⟩ => ⟨S4096x4096, .f32⟩
  | .hbm, ⟨34, _⟩ => ⟨S4096x4096, .f32⟩
  | .hbm, ⟨35, _⟩ => ⟨S4096x4096, .f32⟩
  | .hbm, ⟨36, _⟩ => ⟨S4096x4096, .f32⟩
  | .hbm, ⟨37, _⟩ => ⟨S4096x4096, .f32⟩
  | .hbm, ⟨38, _⟩ => ⟨S4096x4096, .f32⟩
  | .hbm, ⟨39, _⟩ => ⟨S4096x4096, .f32⟩
  | .hbm, ⟨40, _⟩ => ⟨S4096x4096, .f32⟩
  | .hbm, ⟨41, _⟩ => ⟨S4096x4096, .f32⟩
  | .hbm, ⟨42, _⟩ => ⟨S4096x4096, .f32⟩
  | .hbm, ⟨43, _⟩ => ⟨S4096x4096, .f32⟩
  | .hbm, ⟨44, _⟩ => ⟨S4096x4096, .f32⟩
  | .hbm, ⟨45, _⟩ => ⟨S4096x4096, .f32⟩
  | .hbm, ⟨46, _⟩ => ⟨S4096x4096, .f32⟩
  | .hbm, ⟨47, _⟩ => ⟨S4096x4096, .f32⟩
  | .hbm, ⟨48, _⟩ => ⟨S4096x4096, .f32⟩
  | .hbm, ⟨49, _⟩ => ⟨S4096x4096, .f32⟩
  | .hbm, ⟨50, _⟩ => ⟨S_, .f32⟩
  | .hbm, ⟨51, _⟩ => ⟨S4096, .f32⟩
  | .hbm, ⟨52, _⟩ => ⟨S_, .f32⟩
  | .hbm, ⟨53, _⟩ => ⟨S4096, .f32⟩
  | .hbm, ⟨54, _⟩ => ⟨S4096, .f32⟩
  | .hbm, ⟨55, _⟩ => ⟨S4096x1, .f32⟩
  | .hbm, ⟨56, _⟩ => ⟨S4096x4096, .f32⟩
  | .hbm, ⟨57, _⟩ => ⟨S4096x4096, .f32⟩
  | .hbm, ⟨58, _⟩ => ⟨S4096x4096, .f32⟩
  | .hbm, ⟨59, _⟩ => ⟨S_, .f32⟩
  | .hbm, ⟨60, _⟩ => ⟨S4096, .f32⟩
  | .hbm, ⟨61, _⟩ => ⟨S4096x1, .f32⟩
  | .hbm, ⟨62, _⟩ => ⟨S4096x4096, .f32⟩
  | .hbm, ⟨63, _⟩ => ⟨S4096x4096, .f32⟩
  | .hbm, ⟨64, _⟩ => ⟨S4096x256, .f32⟩
  | .hbm, ⟨65, _⟩ => ⟨S_, .f32⟩
  | .hbm, ⟨66, _⟩ => ⟨S4096, .f32⟩
  | .hbm, ⟨67, _⟩ => ⟨S_, .f32⟩
  | .hbm, ⟨68, _⟩ => ⟨S4096, .f32⟩
  | .hbm, ⟨69, _⟩ => ⟨S4096, .f32⟩
  | .hbm, ⟨70, _⟩ => ⟨S4096x1, .f32⟩
  | .hbm, ⟨71, _⟩ => ⟨S4096x4096, .f32⟩
  | .hbm, ⟨72, _⟩ => ⟨S4096x4096, .f32⟩
  | .hbm, ⟨73, _⟩ => ⟨S4096x4096, .f32⟩
  | .hbm, ⟨74, _⟩ => ⟨S_, .f32⟩
  | .hbm, ⟨75, _⟩ => ⟨S4096, .f32⟩
  | .hbm, ⟨76, _⟩ => ⟨S4096x1, .f32⟩
  | .hbm, ⟨77, _⟩ => ⟨S4096x4096, .f32⟩
  | .hbm, ⟨78, _⟩ => ⟨S4096x4096, .f32⟩
  | .hbm, ⟨79, _⟩ => ⟨S4096x256, .f32⟩
  | .hbm, ⟨80, _⟩ => ⟨S_, .f32⟩
  | .hbm, ⟨81, _⟩ => ⟨S4096, .f32⟩
  | .hbm, ⟨82, _⟩ => ⟨S_, .f32⟩
  | .hbm, ⟨83, _⟩ => ⟨S4096, .f32⟩
  | .hbm, ⟨84, _⟩ => ⟨S4096, .f32⟩
  | .hbm, ⟨85, _⟩ => ⟨S4096x1, .f32⟩
  | .hbm, ⟨86, _⟩ => ⟨S4096x4096, .f32⟩
  | .hbm, ⟨87, _⟩ => ⟨S4096x4096, .f32⟩
  | .hbm, ⟨88, _⟩ => ⟨S4096x4096, .f32⟩
  | .hbm, ⟨89, _⟩ => ⟨S_, .f32⟩
  | .hbm, ⟨90, _⟩ => ⟨S4096, .f32⟩
  | .hbm, ⟨91, _⟩ => ⟨S4096x1, .f32⟩
  | .hbm, ⟨92, _⟩ => ⟨S4096x4096, .f32⟩
  | .hbm, ⟨93, _⟩ => ⟨S4096x4096, .f32⟩
  | .hbm, ⟨94, _⟩ => ⟨S4096x256, .f32⟩
  | .hbm, ⟨95, _⟩ => ⟨S_, .f32⟩
  | .hbm, ⟨96, _⟩ => ⟨S4096, .f32⟩
  | .hbm, ⟨97, _⟩ => ⟨S_, .f32⟩
  | .hbm, ⟨98, _⟩ => ⟨S4096, .f32⟩
  | .hbm, ⟨99, _⟩ => ⟨S4096, .f32⟩
  | .hbm, ⟨100, _⟩ => ⟨S4096x1, .f32⟩
  | .hbm, ⟨101, _⟩ => ⟨S4096x4096, .f32⟩
  | .hbm, ⟨102, _⟩ => ⟨S4096x4096, .f32⟩
  | .hbm, ⟨103, _⟩ => ⟨S4096x4096, .f32⟩
  | .hbm, ⟨104, _⟩ => ⟨S_, .f32⟩
  | .hbm, ⟨105, _⟩ => ⟨S4096, .f32⟩
  | .hbm, ⟨106, _⟩ => ⟨S4096x1, .f32⟩
  | .hbm, ⟨107, _⟩ => ⟨S4096x4096, .f32⟩
  | .hbm, ⟨108, _⟩ => ⟨S4096x4096, .f32⟩
  | .hbm, ⟨109, _⟩ => ⟨S4096x256, .f32⟩
  | .hbm, ⟨110, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev main_v39 : Ref sig .tc := ⟨.hbm, 43, rfl⟩
abbrev main_v40 : Ref sig .tc := ⟨.hbm, 44, rfl⟩
abbrev main_v41 : Ref sig .tc := ⟨.hbm, 45, rfl⟩
abbrev main_v42 : Ref sig .tc := ⟨.hbm, 46, rfl⟩
abbrev main_v43 : Ref sig .tc := ⟨.hbm, 47, rfl⟩
abbrev main_v44 : Ref sig .tc := ⟨.hbm, 48, rfl⟩
abbrev main_v45 : Ref sig .tc := ⟨.hbm, 49, rfl⟩
abbrev main_cst : Ref sig .tc := ⟨.hbm, 50, rfl⟩
abbrev main_v46 : Ref sig .tc := ⟨.hbm, 51, rfl⟩
abbrev main_cst_0 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_v50 : Ref sig .tc := ⟨.hbm, 56, rfl⟩
abbrev main_v51 : Ref sig .tc := ⟨.hbm, 57, rfl⟩
abbrev main_v52 : Ref sig .tc := ⟨.hbm, 58, rfl⟩
abbrev main_cst_1 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_v56 : Ref sig .tc := ⟨.hbm, 63, rfl⟩
abbrev main_v57 : Ref sig .tc := ⟨.hbm, 64, rfl⟩
abbrev main_cst_2 : Ref sig .tc := ⟨.hbm, 65, rfl⟩
abbrev main_v58 : Ref sig .tc := ⟨.hbm, 66, rfl⟩
abbrev main_cst_3 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_cst_4 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_cst_5 : Ref sig .tc := ⟨.hbm, 80, rfl⟩
abbrev main_v70 : Ref sig .tc := ⟨.hbm, 81, rfl⟩
abbrev main_cst_6 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_v76 : Ref sig .tc := ⟨.hbm, 88, rfl⟩
abbrev main_cst_7 : Ref sig .tc := ⟨.hbm, 89, rfl⟩
abbrev main_v77 : Ref sig .tc := ⟨.hbm, 90, rfl⟩
abbrev main_v78 : Ref sig .tc := ⟨.hbm, 91, rfl⟩
abbrev main_v79 : Ref sig .tc := ⟨.hbm, 92, rfl⟩
abbrev main_v80 : Ref sig .tc := ⟨.hbm, 93, rfl⟩
abbrev main_v81 : Ref sig .tc := ⟨.hbm, 94, rfl⟩
abbrev main_cst_8 : Ref sig .tc := ⟨.hbm, 95, rfl⟩
abbrev main_v82 : Ref sig .tc := ⟨.hbm, 96, rfl⟩
abbrev main_cst_9 : Ref sig .tc := ⟨.hbm, 97, rfl⟩
abbrev main_v83 : Ref sig .tc := ⟨.hbm, 98, rfl⟩
abbrev main_v84 : Ref sig .tc := ⟨.hbm, 99, rfl⟩
abbrev main_v85 : Ref sig .tc := ⟨.hbm, 100, rfl⟩
abbrev main_v86 : Ref sig .tc := ⟨.hbm, 101, rfl⟩
abbrev main_v87 : Ref sig .tc := ⟨.hbm, 102, rfl⟩
abbrev main_v88 : Ref sig .tc := ⟨.hbm, 103, rfl⟩
abbrev main_cst_10 : Ref sig .tc := ⟨.hbm, 104, rfl⟩
abbrev main_v89 : Ref sig .tc := ⟨.hbm, 105, rfl⟩
abbrev main_v90 : Ref sig .tc := ⟨.hbm, 106, rfl⟩
abbrev main_v91 : Ref sig .tc := ⟨.hbm, 107, rfl⟩
abbrev main_v92 : Ref sig .tc := ⟨.hbm, 108, rfl⟩
abbrev main_v93 : Ref sig .tc := ⟨.hbm, 109, rfl⟩
abbrev main_v94 : Ref sig .tc := ⟨.hbm, 110, rfl⟩

abbrev nD : Nat := 1
abbrev τ : Topo := Topo.v7x

variable {F : FTy → Type} [FloatOps F]

class Facts₀ : Prop where
  transposes_S1024x1024_S1024x1024_1_0 : S1024x1024.Transposes [1, 0] S1024x1024
  slices_S4096x1024_S4096x256_0_0 : S4096x1024.Slices ![0, 0] S4096x256
  slices_S4096x1024_S4096x256_0_256 : S4096x1024.Slices ![0, 256] S4096x256
  slices_S4096x1024_S4096x256_0_512 : S4096x1024.Slices ![0, 512] S4096x256
  slices_S4096x1024_S4096x256_0_768 : S4096x1024.Slices ![0, 768] S4096x256
  reducesTo_S4096x4096_S4096_d1 : S4096x4096.ReducesTo [1] S4096
  h_S_ : 0 < S_.numel
  bcast_S_S4096 : S_.BroadcastsInDim S4096 (![] : Fin 0 → Fin S4096.rank)
  bcast_S4096_S4096x1_0 : S4096.BroadcastsInDim S4096x1 (![0] : Fin 1 → Fin S4096x1.rank)
  bcast_S4096x1_S4096x4096_0_1 : S4096x1.BroadcastsInDim S4096x4096 (![0, 1] : Fin 2 → Fin S4096x4096.rank)
  concatenates_S4096x256_S4096x256_S4096x256_S4096x256_S4096x1024_d1 : Shape.Concatenates [S4096x256, S4096x256, S4096x256, S4096x256] S4096x1024 1
  dot_S4096x1024_S1024x1024_S4096x1024_1_0_0_1_n_n_wf : DotDims.WF S4096x1024 S1024x1024 S4096x1024 [1] [0] [0] [1] [] []
  dot_S4096x256_S4096x256_S4096x4096_1_1_0_0_n_n_wf : DotDims.WF S4096x256 S4096x256 S4096x4096 [1] [1] [0] [0] [] []
  dot_S4096x4096_S4096x256_S4096x256_1_0_0_1_n_n_wf : DotDims.WF S4096x4096 S4096x256 S4096x256 [1] [0] [0] [1] [] []

variable [Facts₀]

def dot_S4096x1024_S1024x1024_S4096x1024_1_0_0_1_n_n : DotDims S4096x1024 S1024x1024 S4096x1024 where
  lhsContracting := [1]
  rhsContracting := [0]
  lhsNonContracting := [0]
  rhsNonContracting := [1]
  lhsBatch := []
  rhsBatch := []
  wf := dot_S4096x1024_S1024x1024_S4096x1024_1_0_0_1_n_n_wf
def dot_S4096x256_S4096x256_S4096x4096_1_1_0_0_n_n : DotDims S4096x256 S4096x256 S4096x4096 where
  lhsContracting := [1]
  rhsContracting := [1]
  lhsNonContracting := [0]
  rhsNonContracting := [0]
  lhsBatch := []
  rhsBatch := []
  wf := dot_S4096x256_S4096x256_S4096x4096_1_1_0_0_n_n_wf
def dot_S4096x4096_S4096x256_S4096x256_1_0_0_1_n_n : DotDims S4096x4096 S4096x256 S4096x256 where
  lhsContracting := [1]
  rhsContracting := [0]
  lhsNonContracting := [0]
  rhsNonContracting := [1]
  lhsBatch := []
  rhsBatch := []
  wf := dot_S4096x4096_S4096x256_S4096x256_1_0_0_1_n_n_wf

class Facts : Prop extends Facts₀ where

variable [Facts]
-- ==== Proof.ProjRegionB.lean ====
/-
  The first region of the program: the fused projection, one block of the product per grid point.

  The grid has 4 × 3 points. At a point the body is handed a block of 1024 rows of the (narrowed) input, a block of
  1024 columns of the transposed stacked weights, and the staging buffer of the 1024 × 1024 block of the product it
  is to fill. It loads the two input blocks whole, multiplies them into a zero accumulator, narrows, and stores the
  result over the whole output block. So after the body the two input buffers hold what they held and the output
  buffer holds the body's one stored value, a function of the two input blocks alone; the input buffers hold the
  blocks of their arrays at every point, whether that point fetched them or the index had not moved since the fetch.
  Stated for any interpretation of the floats.
-/
import proofs.«113951_j57140244906512_2_alg».proof.Proof.Gen.Kernel.Launch
import proofs.«113951_j57140244906512_2_alg».proof.Proof.Gen.Kernel.Skeleton
import proofs.«113951_j57140244906512_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Regions

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the core's buffers when the region is entered
variable (V : (c : Dev nD) → (b : Ref sig .tc) → Buf (Elt F) ((c : Thread nD τ).loc b))

/-- Window `w`'s block of its array at point `t`, the array as the region finds it. -/
def projBlk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point: where the point fetched it, by the fetch;
    where it did not, the block's index has not moved since the point that did. For any proof data over the region's
    entry contents whose body leaves the input in place. -/
theorem projIn0 {c : Dev nD} (dat : Dat τ (Elt F) Unit ℕ (UR sig nD τ) ℕ cfg0 c) (hA : dat.A 0 = V c (Pipeline.arrRef spec0 0))
    (hafter : ∀ t, dat.after 0 t = projBlk V c 0 t) (t : Fin cfg0.N) (d) : dat.before 0 t d = projBlk V c 0 t :=
  (dat.before_in_eq_fetched 0 rfl (fun _ => rfl) (fun _ _ _ => rfl) (fun t => by rw [hafter]; unfold Dat.blockOf projBlk; rw [hA]; try rfl) t d).trans
    (by unfold Dat.fetched Dat.blockOf projBlk; rw [hA]; try rfl)
theorem projIn1 {c : Dev nD} (dat : Dat τ (Elt F) Unit ℕ (UR sig nD τ) ℕ cfg0 c) (hA : dat.A 1 = V c (Pipeline.arrRef spec0 1))
    (hafter : ∀ t, dat.after 1 t = projBlk V c 1 t) (t : Fin cfg0.N) (d) : dat.before 1 t d = projBlk V c 1 t :=
  (dat.before_in_eq_fetched 1 rfl (fun _ => rfl) (fun _ _ _ => rfl) (fun t => by rw [hafter]; unfold Dat.blockOf projBlk; rw [hA]; try rfl) t d).trans
    (by unfold Dat.fetched Dat.blockOf projBlk; rw [hA]; try rfl)

/-- The whole 1024 × 1024 block, the one rectangle the body loads and stores through. -/
abbrev projRect : Rect S1024x1024 := Rect.unit (s := S1024x1024) ![0, 0] S1024x1024.size inb_S1024x1024_S1024x1024_0_0

/-- What the body leaves in the output block's buffer: its one store, over the whole block, of the narrowed product of
    the two input blocks. -/
def projOut (x0 x1 : Vec F S1024x1024 .bf16) : Vec F S1024x1024 .bf16 :=
  View.canon [⟨projRect, k0_pay1 (View.ld x0 projRect) (View.ld x1 projRect)⟩]

/-- The one store covers the block. -/
theorem projCover (p0 : Vec F S1024x1024 .bf16) (y : S1024x1024.Idx) :
    ∃ pc ∈ ([⟨projRect, p0⟩] : List (View.Piece (Elt F) S1024x1024 .bf16)), y ∈ pc.1.set :=
  View.cover_of_tiled [⟨projRect, p0⟩] S1024x1024.size (by rfl) y

set_option maxHeartbeats 1000000 in
/-- The body on whole staging buffers, the inputs' at known contents and the output's at any: it runs to its
    continuation with the inputs' buffers as they were and the output's at `projOut` of the inputs. -/
theorem projBody (c : Dev nD) (E : Set ℕ) (i : grid0.Coords)
    (arg2 : Memref sig .tc .vmem S1024x1024 .bf16) (harg2 : arg2.IsWhole) (arg3 : Memref sig .tc .vmem S1024x1024 .bf16) (harg3 : arg3.IsWhole)
    (arg4 : Memref sig .tc .vmem S1024x1024 .bf16) (harg4 : arg4.IsWhole)
    (x0 x1 : Vec F S1024x1024 .bf16) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (projOut x0 x1)) -∗ K ⟨⟩))
      ⊢ wp frame (wpE (defs₀ (F := F)) Variants.none c none) E (cc0__qkv_kernel i arg2 harg2 arg3 harg3 arg4 harg4) K := by
  simp only [cc0__qkv_kernel_eq_skeleton]; unfold cc0__qkv_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (projCover _)

/-- The region's proof data on core `c`: the arrays as the region finds them; after the body each input's buffer at its
    block and the output's at `projOut` of the input blocks; the invariant the untouched scoped rest and the generator
    register; nothing owed; every array at the full share. -/
def projDat (c : Dev nD) : Dat τ (Elt F) Unit ℕ (UR sig nD τ) ℕ cfg0 c where
  A w := V c (Pipeline.arrRef spec0 w)
  after w t := match w with
    | ⟨0, _⟩ => projBlk V c 0 t
    | ⟨1, _⟩ => projBlk V c 1 t
    | ⟨2, _⟩ => projOut (projBlk V c 0 t) (projBlk V c 1 t)
  Φ _ := Pipeline.ΦA spec0 c
  q _ := fullShare
  owed _ := 0

theorem projDat_A (c : Dev nD) (w : Fin cfg0.W) : (projDat V c).A w = V c (Pipeline.arrRef spec0 w) := by
  dsimp only [projDat]
theorem projDat_after0 (c : Dev nD) (t : Fin cfg0.N) : (projDat V c).after 0 t = projBlk V c 0 t := by dsimp only [projDat]
theorem projDat_after1 (c : Dev nD) (t : Fin cfg0.N) : (projDat V c).after 1 t = projBlk V c 1 t := by dsimp only [projDat]
theorem projDat_after2 (c : Dev nD) (t : Fin cfg0.N) :
    (projDat V c).after 2 t = projOut (projBlk V c 0 t) (projBlk V c 1 t) := by dsimp only [projDat]

theorem projDat_before0 (c : Dev nD) (t : Fin cfg0.N) (d) : (projDat V c).before 0 t d = projBlk V c 0 t :=
  projIn0 V (projDat V c) (projDat_A V c 0) (projDat_after0 V c) t d
theorem projDat_before1 (c : Dev nD) (t : Fin cfg0.N) (d) : (projDat V c).before 1 t d = projBlk V c 1 t :=
  projIn1 V (projDat V c) (projDat_A V c 1) (projDat_after1 V c) t d

/-- What the body is called with at point `t`, window by window, -/
def projPre (c : Dev nD) (t : Fin cfg0.N) : sProp 𝕄 :=
  iprop((projDat V c).Φ t.castSucc ∗ (projDat V c).owesAt () t.castSucc
    ∗ (∃ d, owns (c : Thread nD τ) (st0_0 t) fullShare ((projDat V c).before 0 t d))
    ∗ (∃ d, owns (c : Thread nD τ) (st0_1 t) fullShare ((projDat V c).before 1 t d))
    ∗ (∃ d, owns (c : Thread nD τ) (st0_2 t) fullShare ((projDat V c).before 2 t d)))

/-- and what it returns. -/
def projPost (c : Dev nD) (t : Fin cfg0.N) : sProp 𝕄 :=
  iprop((projDat V c).Φ t.succ ∗ (projDat V c).owesAt () t.succ
    ∗ owns (c : Thread nD τ) (st0_0 t) fullShare ((projDat V c).after 0 t)
    ∗ owns (c : Thread nD τ) (st0_1 t) fullShare ((projDat V c).after 1 t)
    ∗ owns (c : Thread nD τ) (st0_2 t) fullShare ((projDat V c).after 2 t))

/-- The body at any point: the inputs' buffers hold their blocks, so `projBody` applies; the invariant and what the core
    owes pass through unread. -/
theorem projAt (c : Dev nD) (t : Fin cfg0.N) :
    projPre V c t ⊢ wp frame (wpE (defs₀ (F := F)) Variants.none c none) Set.univ (bodyAt0 t) (fun _ => projPost V c t) := by
  unfold projPre projPost bodyAt0
  simp only [projDat_before0, projDat_before1]
  rw [show (projDat V c).Φ t.succ = (projDat V c).Φ t.castSucc from rfl,
    show (projDat V c).owesAt () t.succ = (projDat V c).owesAt () t.castSucc from rfl,
    projDat_after0, projDat_after1, projDat_after2]
  iintro ⟨HΦ, Ho, ⟨%d0, H0⟩, ⟨%d1, H1⟩, ⟨%d2, H2⟩⟩
  iapply (projBody c Set.univ _ _ _ _ _ _ _ (projBlk V c 0 t) (projBlk V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation at every point. -/
theorem projObligation (c : Dev nD) : BodyObligation (projDat (F := F) V c) (defs₀ (F := F)) Variants.none () Set.univ := fun t => by
  rw [bigSep_W0, bigSep_W0]
  exact projAt V c t

end Cert.Kernel.Regions

end
-- ==== Proof.LibSharedFrame.lean ====
/-
  The frame run of a one-region pipeline program whose INPUT windows may window ONE array several times
  (a kernel handed one tensor through several `in_specs`, each reading a different block of it).

  When every window has an array of its own, each array is held whole at the full share and the pipeline's
  `arrays` is the buffers behind them, one for one. When two input windows sit on one array that buffer
  is ONE points-to, and the full share has to be dealt between the windows on it; how is the proof's to say
  (`hsplit`). Everything else is as for distinct arrays: no semaphore of the kernel's own, the region's
  invariant entered from the core's scoped rest and returned to it, the unscoped buffers that are no window's
  array bypassing the region and read back at the end. The conclusion is the library's `FramePost`: every
  window's array at `Dat.arrAt w N` (windows on one array end holding the same contents), every other
  unscoped buffer at its region-entry contents.

  `split_two` is the one fact about shares that is needed: a buffer whole at the full share is the same
  buffer held twice, at the two halves of the full share.
-/
import Idealize.ShloMosaic.Lib.Pipeline.Frame

noncomputable section

namespace Idealize.ShloMosaic

open Idealize.SL
open Idealize.SL.BI (sProp bigSep bigSep_map)
open scoped Idealize.SL.BI
open Idealize.SL.BI.BIBase Idealize.SL.BI.Laws Idealize.SL.Sem Idealize.SL.ProofMode
open Idealize.SL.RA
open TcCoe

namespace Pipeline

open Idealize.ShloMosaic.Rounds

variable {nD : Nat} {τ : Topo} {sig : RefSig} {Val : EltTy → Type}
variable {Λ₀ : SL.Sem.Labels} {P : Type} [Fintype P] [DecidableEq P] [∀ e, Nonempty (Val e)]

local notation "𝕄" => MT nD τ sig Unit Val ℕ (UR sig nD τ) ℕ

/-- A location held whole at the full share is held at its left half and at its right half, at the same
    contents: the two halves compose to the full share. -/
theorem split_two {ℓ : Loc nD τ sig} (f : Buf Val ℓ) :
    (ℓ ↦{fullShare} f : sProp 𝕄) ⊢ iprop((ℓ ↦{fullShare.left} f) ∗ ℓ ↦{fullShare.right} f) :=
  (pointsTo_share (PosShare.mem_left_op_right fullShare)).1

/-- The buffers behind the windows' arrays, listed without repetition: `arrBufs` as the list's `∗`-chain. -/
theorem arrBufs_eq_of_list {gr : Nat} {W : Nat} (win : Fin W → WinSpec sig gr) (c : Dev nD)
    (V : (b : Ref sig .tc) → Buf Val ((c.tc : Thread nD τ).loc b)) (l : List (Ref sig .tc))
    (h : Finset.univ.image (arrRef win) = l.toFinset) (hl : l.Nodup) :
    (arrBufs (Ix := Unit) (Name := ℕ) (U := UR sig nD τ) (Lvl := ℕ) win c V : sProp 𝕄)
      = BI.bigSepL l fun b => ((c.tc : Thread nD τ).loc b) ↦{fullShare} V b := by
  unfold arrBufs; exact BI.bigSep_eq_bigSepL_of_eq l h hl _

variable (cfgs : P → Cfg sig Λ₀)
  (dats : (p : P) → (c : Dev nD) → Dat τ Val Unit ℕ (UR sig nD τ) ℕ (cfgs p) c) (p : P)
  (hinj : Function.Injective (cellOf (nD := nD) (τ := τ) cfgs)) (hw : WinFacts₀ (cfgs p).spec)
  (defs₀ : Defs nD τ sig Val Λ₀) (𝒱₀ : Variants)

local notation "cfg" => cfgs p
local notation "𝔻" => Pipeline.defs (fun q => Cfg.toPCfg (Val := Val) (cfgs q)) defs₀

include hinj hw in
/-- THE FRAME RUN for windows that may share arrays. As `θ_run_frame_track`, with the layout facts by name
    (the windows' arrays need not be distinct, so there is no bundle of them) and with `hsplit`: the buffers
    behind the arrays, each whole at the full share at the region-entry contents `V`, make the proof data's
    arrays at entry, each at the share the data give it. The invariant is entered from the scoped rest and
    returned to it. -/
theorem θ_run_frame_sharing
    (m : (ℓ : Loc nD τ sig) → Buf Val ℓ) (g : Dev nD → PrngReg)
    (main : Dev nD → Prog (TpuEff nD τ sig Val (Sig Λ₀ P fun p => ((cfgs p).toPCfg (Val := Val)).Adm) .tc) PUnit)
    (hbody : ∀ c, BodyObligationLoose (dats p c) defs₀ 𝒱₀ () Set.univ)
    (hne : ∀ w : Fin (cfg).W, 0 < ((cfg).spec w).block.numel)
    (harr : ∀ w, ((cfg).spec w).arr.IsWhole) (hstage : ∀ w s, (((cfg).spec w).stage s).IsWhole)
    (howed : ∀ c t, (dats p c).owed t = 0)
    (V : (c : Dev nD) → (b : Ref sig .tc) → Buf Val ((c.tc : Thread nD τ).loc b))
    (hmain : HMain (Ix := Unit) (Name := ℕ) (U := UR sig nD τ) (Lvl := ℕ) cfgs p defs₀ 𝒱₀ m main V)
    (hsplit : ∀ c, (arrBufs (cfg).spec c (V c) : sProp 𝕄) ⊢ (dats p c).arrays ((dats p c).arrAt · 0))
    (hin : ∀ c, (scopedRest (cfg).spec c : sProp 𝕄) ⊢ (dats p c).Φ 0)
    (hout : ∀ c, (dats p c).Φ (Fin.last (cfg).N) ⊢ (scopedRest (cfg).spec c : sProp 𝕄)) :
    θ_run 𝔻 (onTc main) (s₀ m g) (FramePost cfgs dats p V) := by
  classical
  exact θ_run_region_noSem_shared cfgs dats () hinj p hw emb₁ defs₀ 𝒱₀ m g main hbody hne harr hstage howed
    (u₀ := initOf (cells cfgs hinj) (launchToks cfgs hinj)) (hu₀ := .rfl)
    (V := V) (hmain := hmain) (hsplit := hsplit)
    (X := fun _ => iprop(emp)) (Y := fun _ => iprop(emp))
    (Z := fun c => unscopedRest (Ix := Unit) (Name := ℕ) (U := UR sig nD τ) (Lvl := ℕ) (cfg).spec c (V c))
    (hX := fun c => by iintro H; isplitr; · iempintro
                       iexact H)
    (hin := fun c => (show _ ⊢ (scopedRest (cfg).spec c : sProp 𝕄) from by iintro ⟨-, H⟩; iexact H).trans (hin c))
    (hout := fun c => (hout c).trans (by iintro H; isplitr; · iempintro
                                         iexact H))
    (QY := fun c s => ∀ b ∈ restRefs sig (cfg).spec, s.mem ((c.tc : Thread nD τ).loc b) = V c b)
    (hY := fun c s' => by
      iintro ⟨-, HU, HSI⟩
      unfold unscopedRest
      imodintro
      iapply (pointsTo_read_all (restRefs sig (cfg).spec) (fun b => (c.tc : Thread nD τ).loc b) (V c) s')
      isplitl [HU] <;> iassumption)
    (hQ := fun s h c => ⟨(h c).1, (h c).2⟩)

end Pipeline

end Idealize.ShloMosaic

end
-- ==== Proof.AttnRegionB.lean ====
/-
  The second region of the program: quaternion attention, one block of 256 query rows per grid point.

  The grid has 16 points. At a point the body is handed three blocks of ONE array, the projected rows: 256 query rows
  (columns 0 to 1023), all 4096 key rows (columns 1024 to 2047) and all 4096 value rows (columns 2048 to 3071); and
  the staging buffers of two output blocks, 256 rows of the mixed values and 256 rows of the last component's weights.
  It loads the three input blocks whole, and stores four 256 × 256 pieces side by side into the first output block,
  one per quaternion component, and one whole 256 × 4096 piece into the second; before each store it also loads the
  piece of the output buffer it is about to overwrite, a value it never uses. So after the body the input buffers
  hold what they held, the first output buffer holds the four stored pieces, which tile it, and the second its one
  piece; every stored value is a function of the three input blocks alone. The input buffers hold the blocks of the
  array at every point: the query block is fetched at every point, the key and value blocks at the first point only,
  their index never moving after. Stated for any interpretation of the floats.
-/
import proofs.«113951_j57140244906512_2_alg».proof.Proof.Gen.Kernel.Launch
import proofs.«113951_j57140244906512_2_alg».proof.Proof.Gen.Kernel.Skeleton
import proofs.«113951_j57140244906512_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«113951_j57140244906512_2_alg».proof.Proof.LibSharedFrame

set_option maxRecDepth 16384

noncomputable section

namespace Cert.Kernel.Regions

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the core's buffers when the region is entered
variable (V : (c : Dev nD) → (b : Ref sig .tc) → Buf (Elt F) ((c : Thread nD τ).loc b))

/-- Window `w`'s block of its array at point `t`, the array as the region finds it. -/
def attnBlk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not. -/
theorem attnIn0 {c : Dev nD} (dat : Dat τ (Elt F) Unit ℕ (UR sig nD τ) ℕ cfg1 c) (hA : dat.A 0 = V c (Pipeline.arrRef spec1 0))
    (hafter : ∀ t, dat.after 0 t = attnBlk V c 0 t) (t : Fin cfg1.N) (d) : dat.before 0 t d = attnBlk V c 0 t :=
  (dat.before_in_eq_fetched 0 rfl (fun _ => rfl) (fun _ _ _ => rfl) (fun t => by rw [hafter]; unfold Dat.blockOf attnBlk; rw [hA]; try rfl) t d).trans
    (by unfold Dat.fetched Dat.blockOf attnBlk; rw [hA]; try rfl)
theorem attnIn1 {c : Dev nD} (dat : Dat τ (Elt F) Unit ℕ (UR sig nD τ) ℕ cfg1 c) (hA : dat.A 1 = V c (Pipeline.arrRef spec1 1))
    (hafter : ∀ t, dat.after 1 t = attnBlk V c 1 t) (t : Fin cfg1.N) (d) : dat.before 1 t d = attnBlk V c 1 t :=
  (dat.before_in_eq_fetched 1 rfl (fun _ => rfl) (fun _ _ _ => rfl) (fun t => by rw [hafter]; unfold Dat.blockOf attnBlk; rw [hA]; try rfl) t d).trans
    (by unfold Dat.fetched Dat.blockOf attnBlk; rw [hA]; try rfl)
theorem attnIn2 {c : Dev nD} (dat : Dat τ (Elt F) Unit ℕ (UR sig nD τ) ℕ cfg1 c) (hA : dat.A 2 = V c (Pipeline.arrRef spec1 2))
    (hafter : ∀ t, dat.after 2 t = attnBlk V c 2 t) (t : Fin cfg1.N) (d) : dat.before 2 t d = attnBlk V c 2 t :=
  (dat.before_in_eq_fetched 2 rfl (fun _ => rfl) (fun _ _ _ => rfl) (fun t => by rw [hafter]; unfold Dat.blockOf attnBlk; rw [hA]; try rfl) t d).trans
    (by unfold Dat.fetched Dat.blockOf attnBlk; rw [hA]; try rfl)

/-- The rectangles the body loads and stores through: the whole query block, the whole key (value) block, the four
    column pieces of the first output block, the whole second output block. -/
abbrev rectQ : Rect S256x1024 := Rect.unit (s := S256x1024) ![0, 0] S256x1024.size inb_S256x1024_S256x1024_0_0
abbrev rectKV : Rect S4096x1024 := Rect.unit (s := S4096x1024) ![0, 0] S4096x1024.size inb_S4096x1024_S4096x1024_0_0
abbrev rectY0 : Rect S256x1024 := Rect.unit (s := S256x1024) ![0, 0] S256x256.size inb_S256x1024_S256x256_0_0
abbrev rectY1 : Rect S256x1024 := Rect.unit (s := S256x1024) ![0, 256] S256x256.size inb_S256x1024_S256x256_0_256
abbrev rectY2 : Rect S256x1024 := Rect.unit (s := S256x1024) ![0, 512] S256x256.size inb_S256x1024_S256x256_0_512
abbrev rectY3 : Rect S256x1024 := Rect.unit (s := S256x1024) ![0, 768] S256x256.size inb_S256x1024_S256x256_0_768
abbrev rectW : Rect S256x4096 := Rect.unit (s := S256x4096) ![0, 0] S256x4096.size inb_S256x4096_S256x4096_0_0

/-- The last component's logits less the last contraction, as the body carries them between its parts. -/
def attnCarry (q : Vec F S256x1024 .bf16) (k : Vec F S4096x1024 .bf16) : FVec F S256x4096 .f32 :=
  k1_pay21 (k1_pay6 q) (k1_pay7 q) (k1_pay8 q) (k1_pay11 k) (k1_pay12 k) (k1_pay13 k)

/-- What the body leaves in the first output block's buffer: its four stores, the last first, each over one column
    piece, of the four components' mixed values. -/
def attnOutY (x0 : Vec F S256x1024 .bf16) (x1 x2 : Vec F S4096x1024 .bf16) : Vec F S256x1024 .f32 :=
  View.canon [
    ⟨rectY3, k1_pay2 (k1_pay9 (View.ld x0 rectQ)) (k1_pay10 (View.ld x1 rectKV)) (k1_pay16 (View.ld x2 rectKV)) (attnCarry (View.ld x0 rectQ) (View.ld x1 rectKV))⟩,
    ⟨rectY2, k1_pay20 (k1_pay6 (View.ld x0 rectQ)) (k1_pay7 (View.ld x0 rectQ)) (k1_pay8 (View.ld x0 rectQ)) (k1_pay9 (View.ld x0 rectQ))
        (k1_pay10 (View.ld x1 rectKV)) (k1_pay11 (View.ld x1 rectKV)) (k1_pay12 (View.ld x1 rectKV)) (k1_pay13 (View.ld x1 rectKV)) (k1_pay15 (View.ld x2 rectKV))⟩,
    ⟨rectY1, k1_pay19 (k1_pay8 (View.ld x0 rectQ)) (k1_pay9 (View.ld x0 rectQ)) (k1_pay12 (View.ld x1 rectKV)) (k1_pay13 (View.ld x1 rectKV)) (k1_pay14 (View.ld x2 rectKV))
        (k1_pay18 (View.ld x0 rectQ) (View.ld x1 rectKV)) (constant S256x4096 .f32 0x00000000#32)⟩,
    ⟨rectY0, k1_pay17 (View.ld x0 rectQ) (View.ld x1 rectKV) (View.ld x2 rectKV)⟩]

/-- What it leaves in the second output block's buffer: its one store, over the whole block, of the last component's
    weights. -/
def attnOutW (x0 : Vec F S256x1024 .bf16) (x1 : Vec F S4096x1024 .bf16) : Vec F S256x4096 .f32 :=
  View.canon [⟨rectW, k1_pay1 (k1_pay9 (View.ld x0 rectQ)) (k1_pay10 (View.ld x1 rectKV)) (attnCarry (View.ld x0 rectQ) (View.ld x1 rectKV))⟩]

/-- The four column pieces tile the first output block, so they cover it; -/
theorem attnCoverY (p3 p2 p1 p0 : Vec F S256x256 .f32) (y : S256x1024.Idx) :
    ∃ pc ∈ ([⟨rectY3, p3⟩, ⟨rectY2, p2⟩, ⟨rectY1, p1⟩, ⟨rectY0, p0⟩] : List (View.Piece (Elt F) S256x1024 .f32)), y ∈ pc.1.set :=
  View.cover_of_tiled [⟨rectY3, p3⟩, ⟨rectY2, p2⟩, ⟨rectY1, p1⟩, ⟨rectY0, p0⟩] S256x256.size (by rfl) y

/-- the one piece covers the second. -/
theorem attnCoverW (p0 : Vec F S256x4096 .f32) (y : S256x4096.Idx) :
    ∃ pc ∈ ([⟨rectW, p0⟩] : List (View.Piece (Elt F) S256x4096 .f32)), y ∈ pc.1.set :=
  View.cover_of_tiled [⟨rectW, p0⟩] S256x4096.size (by rfl) y

set_option maxHeartbeats 4000000 in
/-- The body on whole staging buffers, the inputs' at known contents and the outputs' at any: it runs to its
    continuation with the inputs' buffers as they were and the outputs' at `attnOutY` and `attnOutW` of the inputs. -/
theorem attnBody (c : Dev nD) (E : Set ℕ) (i : grid1.Coords)
    (arg1 : Memref sig .tc .vmem S256x1024 .bf16) (harg1 : arg1.IsWhole) (arg2 : Memref sig .tc .vmem S4096x1024 .bf16) (harg2 : arg2.IsWhole)
    (arg3 : Memref sig .tc .vmem S4096x1024 .bf16) (harg3 : arg3.IsWhole) (arg4 : Memref sig .tc .vmem S256x1024 .f32) (harg4 : arg4.IsWhole)
    (arg5 : Memref sig .tc .vmem S256x4096 .f32) (harg5 : arg5.IsWhole)
    (x0 : Vec F S256x1024 .bf16) (x1 x2 : Vec F S4096x1024 .bf16) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (attnOutY x0 x1 x2) ∗ owns (c : Thread nD τ) arg5 fullShare (attnOutW x0 x1)) -∗ K ⟨⟩))
      ⊢ wp frame (wpE (defs₀ (F := F)) Variants.none c none) E (cc1__attn_kernel i arg1 harg1 arg2 harg2 arg3 harg3 arg4 harg4 arg5 harg5) K := by
  simp only [cc1__attn_kernel_eq_skeleton]; unfold cc1__attn_kernel_skel
  simp only [k1_part1_eq_skeleton, k1_part2_eq_skeleton]; unfold k1_part1_skel k1_part2_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (attnCoverY _ _ _ _)
  iexists _; isplitr
  swap; · iexact H4
  ipureintro
  exact View.read_writes_eq_canon _ _ _ (attnCoverW _)

/-- The region's proof data on core `c`: the arrays as the region finds them; after the body each input's buffer at its
    block and each output's at what the body leaves of the input blocks; the invariant the untouched scoped rest and the
    generator register; nothing owed. The three input windows sit on ONE array: its full share is dealt to them as the
    left half, and the two halves of the right half. -/
def attnDat (c : Dev nD) : Dat τ (Elt F) Unit ℕ (UR sig nD τ) ℕ cfg1 c where
  A w := V c (Pipeline.arrRef spec1 w)
  after w t := match w with
    | ⟨0, _⟩ => attnBlk V c 0 t
    | ⟨1, _⟩ => attnBlk V c 1 t
    | ⟨2, _⟩ => attnBlk V c 2 t
    | ⟨3, _⟩ => attnOutY (attnBlk V c 0 t) (attnBlk V c 1 t) (attnBlk V c 2 t)
    | ⟨4, _⟩ => attnOutW (attnBlk V c 0 t) (attnBlk V c 1 t)
  Φ _ := Pipeline.ΦA spec1 c
  q w := match w with
    | ⟨0, _⟩ => fullShare.left
    | ⟨1, _⟩ => fullShare.right.left
    | ⟨2, _⟩ => fullShare.right.right
    | ⟨3, _⟩ => fullShare
    | ⟨4, _⟩ => fullShare
  owed _ := 0

theorem attnDat_A (c : Dev nD) (w : Fin cfg1.W) : (attnDat V c).A w = V c (Pipeline.arrRef spec1 w) := by
  dsimp only [attnDat]
theorem attnDat_after0 (c : Dev nD) (t : Fin cfg1.N) : (attnDat V c).after 0 t = attnBlk V c 0 t := by dsimp only [attnDat]
theorem attnDat_after1 (c : Dev nD) (t : Fin cfg1.N) : (attnDat V c).after 1 t = attnBlk V c 1 t := by dsimp only [attnDat]
theorem attnDat_after2 (c : Dev nD) (t : Fin cfg1.N) : (attnDat V c).after 2 t = attnBlk V c 2 t := by dsimp only [attnDat]
theorem attnDat_after3 (c : Dev nD) (t : Fin cfg1.N) :
    (attnDat V c).after 3 t = attnOutY (attnBlk V c 0 t) (attnBlk V c 1 t) (attnBlk V c 2 t) := by dsimp only [attnDat]
theorem attnDat_after4 (c : Dev nD) (t : Fin cfg1.N) :
    (attnDat V c).after 4 t = attnOutW (attnBlk V c 0 t) (attnBlk V c 1 t) := by dsimp only [attnDat]

theorem attnDat_before0 (c : Dev nD) (t : Fin cfg1.N) (d) : (attnDat V c).before 0 t d = attnBlk V c 0 t :=
  attnIn0 V (attnDat V c) (attnDat_A V c 0) (attnDat_after0 V c) t d
theorem attnDat_before1 (c : Dev nD) (t : Fin cfg1.N) (d) : (attnDat V c).before 1 t d = attnBlk V c 1 t :=
  attnIn1 V (attnDat V c) (attnDat_A V c 1) (attnDat_after1 V c) t d
theorem attnDat_before2 (c : Dev nD) (t : Fin cfg1.N) (d) : (attnDat V c).before 2 t d = attnBlk V c 2 t :=
  attnIn2 V (attnDat V c) (attnDat_A V c 2) (attnDat_after2 V c) t d

/-- What the body is called with at point `t`, window by window, -/
def attnPre (c : Dev nD) (t : Fin cfg1.N) : sProp 𝕄 :=
  iprop((attnDat V c).Φ t.castSucc ∗ (attnDat V c).owesAt () t.castSucc
    ∗ (∃ d, owns (c : Thread nD τ) (st1_0 t) fullShare ((attnDat V c).before 0 t d))
    ∗ (∃ d, owns (c : Thread nD τ) (st1_1 t) fullShare ((attnDat V c).before 1 t d))
    ∗ (∃ d, owns (c : Thread nD τ) (st1_2 t) fullShare ((attnDat V c).before 2 t d))
    ∗ (∃ d, owns (c : Thread nD τ) (st1_3 t) fullShare ((attnDat V c).before 3 t d))
    ∗ (∃ d, owns (c : Thread nD τ) (st1_4 t) fullShare ((attnDat V c).before 4 t d)))

/-- and what it returns. -/
def attnPost (c : Dev nD) (t : Fin cfg1.N) : sProp 𝕄 :=
  iprop((attnDat V c).Φ t.succ ∗ (attnDat V c).owesAt () t.succ
    ∗ owns (c : Thread nD τ) (st1_0 t) fullShare ((attnDat V c).after 0 t)
    ∗ owns (c : Thread nD τ) (st1_1 t) fullShare ((attnDat V c).after 1 t)
    ∗ owns (c : Thread nD τ) (st1_2 t) fullShare ((attnDat V c).after 2 t)
    ∗ owns (c : Thread nD τ) (st1_3 t) fullShare ((attnDat V c).after 3 t)
    ∗ owns (c : Thread nD τ) (st1_4 t) fullShare ((attnDat V c).after 4 t))

/-- The body at any point: the inputs' buffers hold their blocks, so `attnBody` applies; the invariant and what the core
    owes pass through unread. -/
theorem attnAt (c : Dev nD) (t : Fin cfg1.N) :
    attnPre V c t ⊢ wp frame (wpE (defs₀ (F := F)) Variants.none c none) Set.univ (bodyAt1 t) (fun _ => attnPost V c t) := by
  unfold attnPre attnPost bodyAt1
  simp only [attnDat_before0, attnDat_before1, attnDat_before2]
  rw [show (attnDat V c).Φ t.succ = (attnDat V c).Φ t.castSucc from rfl,
    show (attnDat V c).owesAt () t.succ = (attnDat V c).owesAt () t.castSucc from rfl,
    attnDat_after0, attnDat_after1, attnDat_after2, attnDat_after3, attnDat_after4]
  iintro ⟨HΦ, Ho, ⟨%d0, H0⟩, ⟨%d1, H1⟩, ⟨%d2, H2⟩, ⟨%d3, H3⟩, ⟨%d4, H4⟩⟩
  iapply (attnBody c Set.univ _ _ _ _ _ _ _ _ _ _ _ (attnBlk V c 0 t) (attnBlk V c 1 t) (attnBlk V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation at every point. -/
theorem attnObligation (c : Dev nD) : BodyObligation (attnDat (F := F) V c) (defs₀ (F := F)) Variants.none () Set.univ := fun t => by
  rw [bigSep_W1, bigSep_W1]
  exact attnAt V c t

/-! ## One array under three windows -/

/-- The pipeline's arrays at contents `G`, window by window: the three input windows hold the projected rows' buffer at
    the three parts of its full share, the two output windows hold their arrays whole. -/
theorem attnArrays (c : Dev nD) (G : (w : Fin cfg1.W) → Buf (Elt F) ((cfg1.win w).arr.view.loc (c.tc : Thread nD τ))) :
    ((attnDat V c).arrays G : sProp 𝕄)
      = iprop((((c : Thread nD τ).loc main_v4) ↦{fullShare.left} G 0) ∗ (((c : Thread nD τ).loc main_v4) ↦{fullShare.right.left} G 1)
          ∗ (((c : Thread nD τ).loc main_v4) ↦{fullShare.right.right} G 2)
          ∗ (((c : Thread nD τ).loc main_v5_0) ↦{fullShare} G 3) ∗ (((c : Thread nD τ).loc main_v5_1) ↦{fullShare} G 4)) := by
  unfold Dat.arrays
  rw [bigSep_W1, (arr_whole1 0).set_eq_univ, (arr_whole1 3).set_eq_univ, (arr_whole1 4).set_eq_univ]
  rfl

/-- The buffers behind the region's arrays: the projected rows' and the two results', each once. -/
theorem attnBufs (c : Dev nD) (X : (b : Ref sig .tc) → Buf (Elt F) ((c : Thread nD τ).loc b)) :
    (Pipeline.arrBufs (Ix := Unit) (Name := ℕ) (U := UR sig nD τ) (Lvl := ℕ) spec1 c X : sProp 𝕄)
      = iprop((((c : Thread nD τ).loc main_v4) ↦{fullShare} X main_v4) ∗ (((c : Thread nD τ).loc main_v5_0) ↦{fullShare} X main_v5_0)
          ∗ (((c : Thread nD τ).loc main_v5_1) ↦{fullShare} X main_v5_1)) :=
  Pipeline.arrBufs_eq_of_list spec1 c X [main_v4, main_v5_0, main_v5_1] (by decide) (by decide)

/-- A buffer held at a share is held at the share's two halves, at the same contents, and conversely. -/
theorem halveShare {ℓ : Loc nD τ sig} (q : PosShare TreeShare) (f : Buf (Elt F) ℓ) :
    (ℓ ↦{q} f : sProp 𝕄) ⊢ iprop((ℓ ↦{q.left} f) ∗ ℓ ↦{q.right} f) :=
  (pointsTo_share (PosShare.mem_left_op_right q)).1
theorem joinShare {ℓ : Loc nD τ sig} (q : PosShare TreeShare) (f : Buf (Elt F) ℓ) :
    iprop((ℓ ↦{q.left} f) ∗ ℓ ↦{q.right} f) ⊢ (ℓ ↦{q} f : sProp 𝕄) :=
  (pointsTo_share (PosShare.mem_left_op_right q)).2

/-- The core's unscoped buffers are the buffers behind the region's arrays and the rest. -/
theorem attnSplit (c : Dev nD) (X : (b : Ref sig .tc) → Buf (Elt F) ((c : Thread nD τ).loc b)) :
    (unscopedBufs c X : sProp 𝕄) = iprop(Pipeline.arrBufs spec1 c X ∗ Pipeline.unscopedRest spec1 c X) :=
  Pipeline.unscopedBufs_split₀ cfgs 1 winFacts₀1.arr_unscoped c X

/-- ENTRY. The core's unscoped buffers at the entry contents are the region's arrays at those contents, the projected
    rows' buffer dealt to its three windows by halving the full share twice, beside the buffers the region does not
    window. -/
theorem attnEntry (c : Dev nD) :
    (unscopedBufs c (V c) : sProp 𝕄) ⊢ iprop((attnDat V c).arrays (attnDat V c).A ∗ Pipeline.unscopedRest spec1 c (V c)) := by
  rw [attnSplit, attnArrays, attnBufs]
  iintro ⟨⟨H4, H50, H51⟩, Hrest⟩
  have hs1 := halveShare (F := F) (ℓ := (c : Thread nD τ).loc main_v4) fullShare (V c main_v4)
  have hs2 := halveShare (F := F) (ℓ := (c : Thread nD τ).loc main_v4) fullShare.right (V c main_v4)
  ihave H4' := hs1 $$ H4
  icases H4' with ⟨Hl, Hr⟩
  ihave Hr' := hs2 $$ Hr
  icases Hr' with ⟨Hrl, Hrr⟩
  isplitr [Hrest]
  · isplitl [Hl]; · iexact Hl
    isplitl [Hrl]; · iexact Hrl
    isplitl [Hrr]; · iexact Hrr
    isplitl [H50]; · iexact H50
    iexact H51
  iexact Hrest

/-- EXIT. The region's arrays after every write-back, the input windows' three parts of the projected rows' buffer
    still at its entry contents, beside the buffers the region does not window, are the core's unscoped buffers at
    any contents `X` that agree with the entry contents off the two results and have the results as written back. -/
theorem attnExit (c : Dev nD) (X : (b : Ref sig .tc) → Buf (Elt F) ((c : Thread nD τ).loc b))
    (h4 : X main_v4 = V c main_v4)
    (h50 : X main_v5_0 = (attnDat V c).arrAt 3 cfg1.N) (h51 : X main_v5_1 = (attnDat V c).arrAt 4 cfg1.N)
    (hrest : ∀ b, b ∉ Finset.univ.image (Pipeline.arrRef spec1) → X b = V c b) :
    iprop((attnDat V c).arrays ((attnDat V c).arrAt · cfg1.N) ∗ Pipeline.unscopedRest spec1 c (V c)) ⊢ (unscopedBufs c X : sProp 𝕄) := by
  have e0 : (attnDat V c).arrAt 0 cfg1.N = V c main_v4 := ((attnDat V c).arrAt_in 0 rfl _).trans (attnDat_A V c 0)
  have e1 : (attnDat V c).arrAt 1 cfg1.N = V c main_v4 := ((attnDat V c).arrAt_in 1 rfl _).trans (attnDat_A V c 1)
  have e2 : (attnDat V c).arrAt 2 cfg1.N = V c main_v4 := ((attnDat V c).arrAt_in 2 rfl _).trans (attnDat_A V c 2)
  have hr : (Pipeline.unscopedRest (Ix := Unit) (Name := ℕ) (U := UR sig nD τ) (Lvl := ℕ) spec1 c X : sProp 𝕄) = Pipeline.unscopedRest spec1 c (V c) := by
    unfold Pipeline.unscopedRest
    exact bigSep_congr fun b hb => by rw [hrest b (Finset.mem_sdiff.mp hb).2]
  rw [attnSplit, attnArrays, attnBufs, hr, e0, e1, e2, h4, h50, h51]
  iintro ⟨⟨Hl, Hrl, Hrr, H50, H51⟩, Hrest⟩
  isplitr [Hrest]
  · isplitl [Hl Hrl Hrr]
    · iapply (joinShare fullShare (V c main_v4))
      isplitl [Hl]; · iexact Hl
      iapply (joinShare fullShare.right (V c main_v4))
      isplitl [Hrl]; · iexact Hrl
      iexact Hrr
    isplitl [H50]; · iexact H50
    iexact H51
  iexact Hrest

end Cert.Kernel.Regions

end
-- ==== Proof.RunB.lean ====
/-
  The whole program run: a stretch of host operations, the projection region, the attention region.

  Between two items every unscoped buffer of the core is held whole at known contents: the launch contents, then what
  the host operations compute from them, then — after a region — the same with the region's output arrays at what its
  write-backs leave. Each region is entered from that state and left at the next: its arrays are taken out of the
  unscoped buffers at entry and put back at exit, the generator register goes into the body's invariant and comes
  back, nothing is owed. The second region windows one array three times, so its entry deals that buffer's full
  share among the three windows and its exit collects the parts again. The conclusion says what every unscoped buffer
  holds when @main returns; that the arguments end as launched follows because no item writes an argument. Stated for
  any interpretation of the floats.
-/
import proofs.«113951_j57140244906512_2_alg».proof.Proof.ProjRegionB
import proofs.«113951_j57140244906512_2_alg».proof.Proof.AttnRegionB

set_option maxRecDepth 16384

noncomputable section

namespace Cert.Kernel.Regions

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffers' contents between items -/

/-- Core `c`'s buffers at launch. -/
abbrev W0 : Dev nD → Valuation τ sig (Elt F) := fun c b => m (c, b)
/-- After the host operations (the projection region's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- After the projection region: its arrays at what its write-backs leave, every other buffer as entered. -/
def W2 (c : Dev nD) : Valuation τ sig (Elt F) :=
  Pipeline.withArrays spec0 c (W1 m c) fun w => (projDat (V1 m) c).arrAt w cfg0.N
theorem W2_arr (c : Dev nD) (w : Fin cfg0.W) :
    W2 m c (Proc.devRef .tc (Pipeline.arrRef spec0 w)) = (projDat (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem projF (c : Dev nD) (w : Fin cfg0.W) : (projDat (V1 m) c).arrAt w cfg0.N = V2 m c (Pipeline.arrRef spec0 w) :=
  (W2_arr m c w).symm
theorem projRest (c : Dev nD) : ∀ b, b ∉ Finset.univ.image (Pipeline.arrRef spec0) → V2 m c b = V1 m c b :=
  fun b hb => W2_of_ne m c b fun w e => hb (Finset.mem_image.mpr ⟨w, Finset.mem_univ _, e⟩)
/-- After the attention region: its two results at what its write-backs leave, every other buffer as entered. -/
def W3 (c : Dev nD) : Valuation τ sig (Elt F) :=
  Function.update (Function.update (W2 m c) main_v5_0 ((attnDat (V2 m) c).arrAt 3 cfg1.N)) main_v5_1 ((attnDat (V2 m) c).arrAt 4 cfg1.N)
abbrev V3 : (c : Dev nD) → (b : Ref sig .tc) → Buf (Elt F) ((c : Thread nD τ).loc b) := fun c b => W3 m c b
theorem W3_of (c : Dev nD) (r : Ref sig .tc) (h : r ∉ ([main_v5_0, main_v5_1] : List (Ref sig .tc))) : W3 m c r = W2 m c r := by
  simp only [W3, Function.update_of_ne (StableHlo.devRef_ne_of_ne (List.ne_of_not_mem_cons h) : (Proc.devRef .tc r : DevRef τ sig) ≠ Proc.devRef .tc main_v5_0), Function.update_of_ne (StableHlo.devRef_ne_of_ne (List.ne_of_not_mem_cons (List.not_mem_of_not_mem_cons h)) : (Proc.devRef .tc r : DevRef τ sig) ≠ Proc.devRef .tc main_v5_1)]
theorem W3_y (c : Dev nD) : W3 m c main_v5_0 = (attnDat (V2 m) c).arrAt 3 cfg1.N := by
  unfold W3
  rw [Function.update_of_ne (StableHlo.devRef_ne_of_ne (by decide) : (Proc.devRef .tc main_v5_0 : DevRef τ sig) ≠ Proc.devRef .tc main_v5_1), Function.update_self]
theorem W3_w (c : Dev nD) : W3 m c main_v5_1 = (attnDat (V2 m) c).arrAt 4 cfg1.N := by
  unfold W3; rw [Function.update_self]

/-- No host operation writes an argument, and no region windows one as an output. -/
theorem W1_of (c : Dev nD) (r : Ref sig .tc) (h : r ∉ ([main_v0, main_v1, main_v2, main_v3] : List (Ref sig .tc))) : W1 m c r = W0 m c r :=
  StableHlo.after_of_forall_not_mem (b := Proc.devRef .tc r) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    refine ⟨?_, ?_, ?_, ?_⟩ <;> exact StableHlo.devRef_ne_of_ne (fun e => h (by rw [e]; simp))))
theorem W3_arg (c : Dev nD) (r : Ref sig .tc) (h3 : r ∉ ([main_v5_0, main_v5_1] : List (Ref sig .tc))) (h2 : ∀ w, Pipeline.arrRef spec0 w ≠ r)
    (h1 : r ∉ ([main_v0, main_v1, main_v2, main_v3] : List (Ref sig .tc))) : W3 m c r = m ((c : Thread nD τ).loc r) :=
  (W3_of m c r h3).trans ((W2_of_ne m c r h2).trans ((W1_of m c r h1).trans rfl))

/-! ## The proof data and the thread state -/

/-- No pipeline has a prefetched table. -/
abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => projDat (V1 m) c
  | ⟨1, _⟩ => fun c => attnDat (V2 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)
theorem hostOps0_fresh : (hostOps0 : List (HloOp τ sig (Elt F))).Forall fun op => op.fresh = ∅ := by
  simp only [List.Forall]; repeat' constructor
/-- The host stretch as a segment over the unscoped buffers from the launch contents. -/
abbrev hostSeg : Pipeline.HostSeg (Name := ℕ) (U := UR sig nD τ) (pcfgs (F := F)) defs₀ 𝒱₀ L lv :=
  Pipeline.HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (W0 m) R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what is owed: every unscoped buffer at the final contents, the register at some state. -/
abbrev Tₙ (c : Dev nD) : sProp 𝕄 := iprop(StableHlo.held (c : Thread nD τ) (Pipeline.ucRefs τ sig) (W3 m c) ∗ ∃ r, prngReg c r)

/-! ## The regions as segments -/

set_option backward.isDefEq.respectTransparency.types false in
/-- The projection region: entered from every unscoped buffer at `W1`, left at `W2`. -/
def projSeg : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (projObligation (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (projF m c) (projRest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The attention region: entered from every unscoped buffer at `W2`, left at `W3`; one of its arrays is dealt to three
    windows at entry and collected at exit. -/
def attnSeg : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (attnObligation (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := attnEntry (V2 m) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := attnExit (V2 m) c (V3 m c)
      (W3_of m c main_v4 (by decide)) (W3_y m c) (W3_w m c)
      (fun b hb => W3_of m c b (fun hm => hb (by
        rcases List.mem_cons.mp hm with rfl | hm
        · exact Finset.mem_image.mpr ⟨3, Finset.mem_univ _, rfl⟩
        · rcases List.mem_cons.mp hm with rfl | hm
          · exact Finset.mem_image.mpr ⟨4, Finset.mem_univ _, rfl⟩
          · exact absurd hm List.not_mem_nil)))
    rw [Pipeline.unscopedBufs_held] at hjoin
    iintro ⟨Ha, HO, HY, Hrest⟩
    imodintro
    isplitl [Ha Hrest HY]
    · isplitl [Ha Hrest]
      · iapply hjoin
        isplitl [Ha]; · iexact Ha
        iexact Hrest
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hostSeg m), .region (projSeg m), .region (attnSeg m) ]
/-- @main is the run of the segments. -/
theorem main_run (c : Dev nD) : main (F := F) c = Pipeline.Seg.run (segs m) := (main_chain c).trans (by chain_rfl)

set_option backward.isDefEq.respectTransparency.types false in
/-- THE RUN. From any memory with zero counters every weakly fair execution of @main terminates, nothing faulting, and
    every final memory holds each unscoped buffer of every core at `W3`. -/
theorem run (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = W3 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h => h)

/-- The arguments end as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_arg0 (by decide))).trans (W3_arg m c main_arg0 (by decide) (by decide) (by decide)),
     (h c _ (mem_uc main_arg1 (by decide))).trans (W3_arg m c main_arg1 (by decide) (by decide) (by decide)),
     (h c _ (mem_uc main_arg2 (by decide))).trans (W3_arg m c main_arg2 (by decide) (by decide) (by decide)),
     (h c _ (mem_uc main_arg3 (by decide))).trans (W3_arg m c main_arg3 (by decide) (by decide) (by decide))⟩) (run m ρ)

end Cert.Kernel.Regions

end
-- ==== Proof.ProjRegionI.lean ====
/-
  The first region of the program: the fused projection, one block of the product per grid point.

  The grid has 4 × 3 points. At a point the body is handed a block of 1024 rows of the (narrowed) input, a block of
  1024 columns of the transposed stacked weights, and the staging buffer of the 1024 × 1024 block of the product it
  is to fill. It loads the two input blocks whole, multiplies them into a zero accumulator, narrows, and stores the
  result over the whole output block. So after the body the two input buffers hold what they held and the output
  buffer holds the body's one stored value, a function of the two input blocks alone; the input buffers hold the
  blocks of their arrays at every point, whether that point fetched them or the index had not moved since the fetch.
  Stated for any interpretation of the floats.
-/
import proofs.«113951_j57140244906512_2_alg».proof.Proof.Gen.KernelIdeal.Launch
import proofs.«113951_j57140244906512_2_alg».proof.Proof.Gen.KernelIdeal.Skeleton
import proofs.«113951_j57140244906512_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Regions

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the core's buffers when the region is entered
variable (V : (c : Dev nD) → (b : Ref sig .tc) → Buf (Elt F) ((c : Thread nD τ).loc b))

/-- Window `w`'s block of its array at point `t`, the array as the region finds it. -/
def projBlk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point: where the point fetched it, by the fetch;
    where it did not, the block's index has not moved since the point that did. For any proof data over the region's
    entry contents whose body leaves the input in place. -/
theorem projIn0 {c : Dev nD} (dat : Dat τ (Elt F) Unit ℕ (UR sig nD τ) ℕ cfg0 c) (hA : dat.A 0 = V c (Pipeline.arrRef spec0 0))
    (hafter : ∀ t, dat.after 0 t = projBlk V c 0 t) (t : Fin cfg0.N) (d) : dat.before 0 t d = projBlk V c 0 t :=
  (dat.before_in_eq_fetched 0 rfl (fun _ => rfl) (fun _ _ _ => rfl) (fun t => by rw [hafter]; unfold Dat.blockOf projBlk; rw [hA]; try rfl) t d).trans
    (by unfold Dat.fetched Dat.blockOf projBlk; rw [hA]; try rfl)
theorem projIn1 {c : Dev nD} (dat : Dat τ (Elt F) Unit ℕ (UR sig nD τ) ℕ cfg0 c) (hA : dat.A 1 = V c (Pipeline.arrRef spec0 1))
    (hafter : ∀ t, dat.after 1 t = projBlk V c 1 t) (t : Fin cfg0.N) (d) : dat.before 1 t d = projBlk V c 1 t :=
  (dat.before_in_eq_fetched 1 rfl (fun _ => rfl) (fun _ _ _ => rfl) (fun t => by rw [hafter]; unfold Dat.blockOf projBlk; rw [hA]; try rfl) t d).trans
    (by unfold Dat.fetched Dat.blockOf projBlk; rw [hA]; try rfl)

/-- The whole 1024 × 1024 block, the one rectangle the body loads and stores through. -/
abbrev projRect : Rect S1024x1024 := Rect.unit (s := S1024x1024) ![0, 0] S1024x1024.size inb_S1024x1024_S1024x1024_0_0

/-- What the body leaves in the output block's buffer: its one store, over the whole block, of the narrowed product of
    the two input blocks. -/
def projOut (x0 x1 : Vec F S1024x1024 .bf16) : Vec F S1024x1024 .bf16 :=
  View.canon [⟨projRect, k0_pay1 (View.ld x0 projRect) (View.ld x1 projRect)⟩]

/-- The one store covers the block. -/
theorem projCover (p0 : Vec F S1024x1024 .bf16) (y : S1024x1024.Idx) :
    ∃ pc ∈ ([⟨projRect, p0⟩] : List (View.Piece (Elt F) S1024x1024 .bf16)), y ∈ pc.1.set :=
  View.cover_of_tiled [⟨projRect, p0⟩] S1024x1024.size (by rfl) y

set_option maxHeartbeats 1000000 in
/-- The body on whole staging buffers, the inputs' at known contents and the output's at any: it runs to its
    continuation with the inputs' buffers as they were and the output's at `projOut` of the inputs. -/
theorem projBody (c : Dev nD) (E : Set ℕ) (i : grid0.Coords)
    (arg2 : Memref sig .tc .vmem S1024x1024 .bf16) (harg2 : arg2.IsWhole) (arg3 : Memref sig .tc .vmem S1024x1024 .bf16) (harg3 : arg3.IsWhole)
    (arg4 : Memref sig .tc .vmem S1024x1024 .bf16) (harg4 : arg4.IsWhole)
    (x0 x1 : Vec F S1024x1024 .bf16) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (projOut x0 x1)) -∗ K ⟨⟩))
      ⊢ wp frame (wpE (defs₀ (F := F)) Variants.none c none) E (cc0__qkv_kernel i arg2 harg2 arg3 harg3 arg4 harg4) K := by
  simp only [cc0__qkv_kernel_eq_skeleton]; unfold cc0__qkv_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (projCover _)

/-- The region's proof data on core `c`: the arrays as the region finds them; after the body each input's buffer at its
    block and the output's at `projOut` of the input blocks; the invariant the untouched scoped rest and the generator
    register; nothing owed; every array at the full share. -/
def projDat (c : Dev nD) : Dat τ (Elt F) Unit ℕ (UR sig nD τ) ℕ cfg0 c where
  A w := V c (Pipeline.arrRef spec0 w)
  after w t := match w with
    | ⟨0, _⟩ => projBlk V c 0 t
    | ⟨1, _⟩ => projBlk V c 1 t
    | ⟨2, _⟩ => projOut (projBlk V c 0 t) (projBlk V c 1 t)
  Φ _ := Pipeline.ΦA spec0 c
  q _ := fullShare
  owed _ := 0

theorem projDat_A (c : Dev nD) (w : Fin cfg0.W) : (projDat V c).A w = V c (Pipeline.arrRef spec0 w) := by
  dsimp only [projDat]
theorem projDat_after0 (c : Dev nD) (t : Fin cfg0.N) : (projDat V c).after 0 t = projBlk V c 0 t := by dsimp only [projDat]
theorem projDat_after1 (c : Dev nD) (t : Fin cfg0.N) : (projDat V c).after 1 t = projBlk V c 1 t := by dsimp only [projDat]
theorem projDat_after2 (c : Dev nD) (t : Fin cfg0.N) :
    (projDat V c).after 2 t = projOut (projBlk V c 0 t) (projBlk V c 1 t) := by dsimp only [projDat]

theorem projDat_before0 (c : Dev nD) (t : Fin cfg0.N) (d) : (projDat V c).before 0 t d = projBlk V c 0 t :=
  projIn0 V (projDat V c) (projDat_A V c 0) (projDat_after0 V c) t d
theorem projDat_before1 (c : Dev nD) (t : Fin cfg0.N) (d) : (projDat V c).before 1 t d = projBlk V c 1 t :=
  projIn1 V (projDat V c) (projDat_A V c 1) (projDat_after1 V c) t d

/-- What the body is called with at point `t`, window by window, -/
def projPre (c : Dev nD) (t : Fin cfg0.N) : sProp 𝕄 :=
  iprop((projDat V c).Φ t.castSucc ∗ (projDat V c).owesAt () t.castSucc
    ∗ (∃ d, owns (c : Thread nD τ) (st0_0 t) fullShare ((projDat V c).before 0 t d))
    ∗ (∃ d, owns (c : Thread nD τ) (st0_1 t) fullShare ((projDat V c).before 1 t d))
    ∗ (∃ d, owns (c : Thread nD τ) (st0_2 t) fullShare ((projDat V c).before 2 t d)))

/-- and what it returns. -/
def projPost (c : Dev nD) (t : Fin cfg0.N) : sProp 𝕄 :=
  iprop((projDat V c).Φ t.succ ∗ (projDat V c).owesAt () t.succ
    ∗ owns (c : Thread nD τ) (st0_0 t) fullShare ((projDat V c).after 0 t)
    ∗ owns (c : Thread nD τ) (st0_1 t) fullShare ((projDat V c).after 1 t)
    ∗ owns (c : Thread nD τ) (st0_2 t) fullShare ((projDat V c).after 2 t))

/-- The body at any point: the inputs' buffers hold their blocks, so `projBody` applies; the invariant and what the core
    owes pass through unread. -/
theorem projAt (c : Dev nD) (t : Fin cfg0.N) :
    projPre V c t ⊢ wp frame (wpE (defs₀ (F := F)) Variants.none c none) Set.univ (bodyAt0 t) (fun _ => projPost V c t) := by
  unfold projPre projPost bodyAt0
  simp only [projDat_before0, projDat_before1]
  rw [show (projDat V c).Φ t.succ = (projDat V c).Φ t.castSucc from rfl,
    show (projDat V c).owesAt () t.succ = (projDat V c).owesAt () t.castSucc from rfl,
    projDat_after0, projDat_after1, projDat_after2]
  iintro ⟨HΦ, Ho, ⟨%d0, H0⟩, ⟨%d1, H1⟩, ⟨%d2, H2⟩⟩
  iapply (projBody c Set.univ _ _ _ _ _ _ _ (projBlk V c 0 t) (projBlk V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation at every point. -/
theorem projObligation (c : Dev nD) : BodyObligation (projDat (F := F) V c) (defs₀ (F := F)) Variants.none () Set.univ := fun t => by
  rw [bigSep_W0, bigSep_W0]
  exact projAt V c t

end Cert.KernelIdeal.Regions

end
-- ==== Proof.AttnRegionI.lean ====
/-
  The second region of the program: quaternion attention, one block of 256 query rows per grid point.

  The grid has 16 points. At a point the body is handed three blocks of ONE array, the projected rows: 256 query rows
  (columns 0 to 1023), all 4096 key rows (columns 1024 to 2047) and all 4096 value rows (columns 2048 to 3071); and
  the staging buffers of two output blocks, 256 rows of the mixed values and 256 rows of the last component's weights.
  It loads the three input blocks whole, and stores four 256 × 256 pieces side by side into the first output block,
  one per quaternion component, and one whole 256 × 4096 piece into the second; before each store it also loads the
  piece of the output buffer it is about to overwrite, a value it never uses. So after the body the input buffers
  hold what they held, the first output buffer holds the four stored pieces, which tile it, and the second its one
  piece; every stored value is a function of the three input blocks alone. The input buffers hold the blocks of the
  array at every point: the query block is fetched at every point, the key and value blocks at the first point only,
  their index never moving after. Stated for any interpretation of the floats.
-/
import proofs.«113951_j57140244906512_2_alg».proof.Proof.Gen.KernelIdeal.Launch
import proofs.«113951_j57140244906512_2_alg».proof.Proof.Gen.KernelIdeal.Skeleton
import proofs.«113951_j57140244906512_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«113951_j57140244906512_2_alg».proof.Proof.LibSharedFrame

set_option maxRecDepth 16384

noncomputable section

namespace Cert.KernelIdeal.Regions

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the core's buffers when the region is entered
variable (V : (c : Dev nD) → (b : Ref sig .tc) → Buf (Elt F) ((c : Thread nD τ).loc b))

/-- Window `w`'s block of its array at point `t`, the array as the region finds it. -/
def attnBlk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not. -/
theorem attnIn0 {c : Dev nD} (dat : Dat τ (Elt F) Unit ℕ (UR sig nD τ) ℕ cfg1 c) (hA : dat.A 0 = V c (Pipeline.arrRef spec1 0))
    (hafter : ∀ t, dat.after 0 t = attnBlk V c 0 t) (t : Fin cfg1.N) (d) : dat.before 0 t d = attnBlk V c 0 t :=
  (dat.before_in_eq_fetched 0 rfl (fun _ => rfl) (fun _ _ _ => rfl) (fun t => by rw [hafter]; unfold Dat.blockOf attnBlk; rw [hA]; try rfl) t d).trans
    (by unfold Dat.fetched Dat.blockOf attnBlk; rw [hA]; try rfl)
theorem attnIn1 {c : Dev nD} (dat : Dat τ (Elt F) Unit ℕ (UR sig nD τ) ℕ cfg1 c) (hA : dat.A 1 = V c (Pipeline.arrRef spec1 1))
    (hafter : ∀ t, dat.after 1 t = attnBlk V c 1 t) (t : Fin cfg1.N) (d) : dat.before 1 t d = attnBlk V c 1 t :=
  (dat.before_in_eq_fetched 1 rfl (fun _ => rfl) (fun _ _ _ => rfl) (fun t => by rw [hafter]; unfold Dat.blockOf attnBlk; rw [hA]; try rfl) t d).trans
    (by unfold Dat.fetched Dat.blockOf attnBlk; rw [hA]; try rfl)
theorem attnIn2 {c : Dev nD} (dat : Dat τ (Elt F) Unit ℕ (UR sig nD τ) ℕ cfg1 c) (hA : dat.A 2 = V c (Pipeline.arrRef spec1 2))
    (hafter : ∀ t, dat.after 2 t = attnBlk V c 2 t) (t : Fin cfg1.N) (d) : dat.before 2 t d = attnBlk V c 2 t :=
  (dat.before_in_eq_fetched 2 rfl (fun _ => rfl) (fun _ _ _ => rfl) (fun t => by rw [hafter]; unfold Dat.blockOf attnBlk; rw [hA]; try rfl) t d).trans
    (by unfold Dat.fetched Dat.blockOf attnBlk; rw [hA]; try rfl)

/-- The rectangles the body loads and stores through: the whole query block, the whole key (value) block, the four
    column pieces of the first output block, the whole second output block. -/
abbrev rectQ : Rect S256x1024 := Rect.unit (s := S256x1024) ![0, 0] S256x1024.size inb_S256x1024_S256x1024_0_0
abbrev rectKV : Rect S4096x1024 := Rect.unit (s := S4096x1024) ![0, 0] S4096x1024.size inb_S4096x1024_S4096x1024_0_0
abbrev rectY0 : Rect S256x1024 := Rect.unit (s := S256x1024) ![0, 0] S256x256.size inb_S256x1024_S256x256_0_0
abbrev rectY1 : Rect S256x1024 := Rect.unit (s := S256x1024) ![0, 256] S256x256.size inb_S256x1024_S256x256_0_256
abbrev rectY2 : Rect S256x1024 := Rect.unit (s := S256x1024) ![0, 512] S256x256.size inb_S256x1024_S256x256_0_512
abbrev rectY3 : Rect S256x1024 := Rect.unit (s := S256x1024) ![0, 768] S256x256.size inb_S256x1024_S256x256_0_768
abbrev rectW : Rect S256x4096 := Rect.unit (s := S256x4096) ![0, 0] S256x4096.size inb_S256x4096_S256x4096_0_0

/-- The last component's logits less the last contraction, as the body carries them between its parts. -/
def attnCarry (q : Vec F S256x1024 .bf16) (k : Vec F S4096x1024 .bf16) : FVec F S256x4096 .f32 :=
  k1_pay21 (k1_pay6 q) (k1_pay7 q) (k1_pay8 q) (k1_pay11 k) (k1_pay12 k) (k1_pay13 k)

/-- What the body leaves in the first output block's buffer: its four stores, the last first, each over one column
    piece, of the four components' mixed values. -/
def attnOutY (x0 : Vec F S256x1024 .bf16) (x1 x2 : Vec F S4096x1024 .bf16) : Vec F S256x1024 .f32 :=
  View.canon [
    ⟨rectY3, k1_pay2 (k1_pay9 (View.ld x0 rectQ)) (k1_pay10 (View.ld x1 rectKV)) (k1_pay16 (View.ld x2 rectKV)) (attnCarry (View.ld x0 rectQ) (View.ld x1 rectKV))⟩,
    ⟨rectY2, k1_pay20 (k1_pay6 (View.ld x0 rectQ)) (k1_pay7 (View.ld x0 rectQ)) (k1_pay8 (View.ld x0 rectQ)) (k1_pay9 (View.ld x0 rectQ))
        (k1_pay10 (View.ld x1 rectKV)) (k1_pay11 (View.ld x1 rectKV)) (k1_pay12 (View.ld x1 rectKV)) (k1_pay13 (View.ld x1 rectKV)) (k1_pay15 (View.ld x2 rectKV))⟩,
    ⟨rectY1, k1_pay19 (k1_pay8 (View.ld x0 rectQ)) (k1_pay9 (View.ld x0 rectQ)) (k1_pay12 (View.ld x1 rectKV)) (k1_pay13 (View.ld x1 rectKV)) (k1_pay14 (View.ld x2 rectKV))
        (k1_pay18 (View.ld x0 rectQ) (View.ld x1 rectKV)) (constant S256x4096 .f32 0x00000000#32)⟩,
    ⟨rectY0, k1_pay17 (View.ld x0 rectQ) (View.ld x1 rectKV) (View.ld x2 rectKV)⟩]

/-- What it leaves in the second output block's buffer: its one store, over the whole block, of the last component's
    weights. -/
def attnOutW (x0 : Vec F S256x1024 .bf16) (x1 : Vec F S4096x1024 .bf16) : Vec F S256x4096 .f32 :=
  View.canon [⟨rectW, k1_pay1 (k1_pay9 (View.ld x0 rectQ)) (k1_pay10 (View.ld x1 rectKV)) (attnCarry (View.ld x0 rectQ) (View.ld x1 rectKV))⟩]

/-- The four column pieces tile the first output block, so they cover it; -/
theorem attnCoverY (p3 p2 p1 p0 : Vec F S256x256 .f32) (y : S256x1024.Idx) :
    ∃ pc ∈ ([⟨rectY3, p3⟩, ⟨rectY2, p2⟩, ⟨rectY1, p1⟩, ⟨rectY0, p0⟩] : List (View.Piece (Elt F) S256x1024 .f32)), y ∈ pc.1.set :=
  View.cover_of_tiled [⟨rectY3, p3⟩, ⟨rectY2, p2⟩, ⟨rectY1, p1⟩, ⟨rectY0, p0⟩] S256x256.size (by rfl) y

/-- the one piece covers the second. -/
theorem attnCoverW (p0 : Vec F S256x4096 .f32) (y : S256x4096.Idx) :
    ∃ pc ∈ ([⟨rectW, p0⟩] : List (View.Piece (Elt F) S256x4096 .f32)), y ∈ pc.1.set :=
  View.cover_of_tiled [⟨rectW, p0⟩] S256x4096.size (by rfl) y

set_option maxHeartbeats 4000000 in
/-- The body on whole staging buffers, the inputs' at known contents and the outputs' at any: it runs to its
    continuation with the inputs' buffers as they were and the outputs' at `attnOutY` and `attnOutW` of the inputs. -/
theorem attnBody (c : Dev nD) (E : Set ℕ) (i : grid1.Coords)
    (arg1 : Memref sig .tc .vmem S256x1024 .bf16) (harg1 : arg1.IsWhole) (arg2 : Memref sig .tc .vmem S4096x1024 .bf16) (harg2 : arg2.IsWhole)
    (arg3 : Memref sig .tc .vmem S4096x1024 .bf16) (harg3 : arg3.IsWhole) (arg4 : Memref sig .tc .vmem S256x1024 .f32) (harg4 : arg4.IsWhole)
    (arg5 : Memref sig .tc .vmem S256x4096 .f32) (harg5 : arg5.IsWhole)
    (x0 : Vec F S256x1024 .bf16) (x1 x2 : Vec F S4096x1024 .bf16) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (attnOutY x0 x1 x2) ∗ owns (c : Thread nD τ) arg5 fullShare (attnOutW x0 x1)) -∗ K ⟨⟩))
      ⊢ wp frame (wpE (defs₀ (F := F)) Variants.none c none) E (cc1__attn_kernel i arg1 harg1 arg2 harg2 arg3 harg3 arg4 harg4 arg5 harg5) K := by
  simp only [cc1__attn_kernel_eq_skeleton]; unfold cc1__attn_kernel_skel
  simp only [k1_part1_eq_skeleton, k1_part2_eq_skeleton]; unfold k1_part1_skel k1_part2_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (attnCoverY _ _ _ _)
  iexists _; isplitr
  swap; · iexact H4
  ipureintro
  exact View.read_writes_eq_canon _ _ _ (attnCoverW _)

/-- The region's proof data on core `c`: the arrays as the region finds them; after the body each input's buffer at its
    block and each output's at what the body leaves of the input blocks; the invariant the untouched scoped rest and the
    generator register; nothing owed. The three input windows sit on ONE array: its full share is dealt to them as the
    left half, and the two halves of the right half. -/
def attnDat (c : Dev nD) : Dat τ (Elt F) Unit ℕ (UR sig nD τ) ℕ cfg1 c where
  A w := V c (Pipeline.arrRef spec1 w)
  after w t := match w with
    | ⟨0, _⟩ => attnBlk V c 0 t
    | ⟨1, _⟩ => attnBlk V c 1 t
    | ⟨2, _⟩ => attnBlk V c 2 t
    | ⟨3, _⟩ => attnOutY (attnBlk V c 0 t) (attnBlk V c 1 t) (attnBlk V c 2 t)
    | ⟨4, _⟩ => attnOutW (attnBlk V c 0 t) (attnBlk V c 1 t)
  Φ _ := Pipeline.ΦA spec1 c
  q w := match w with
    | ⟨0, _⟩ => fullShare.left
    | ⟨1, _⟩ => fullShare.right.left
    | ⟨2, _⟩ => fullShare.right.right
    | ⟨3, _⟩ => fullShare
    | ⟨4, _⟩ => fullShare
  owed _ := 0

theorem attnDat_A (c : Dev nD) (w : Fin cfg1.W) : (attnDat V c).A w = V c (Pipeline.arrRef spec1 w) := by
  dsimp only [attnDat]
theorem attnDat_after0 (c : Dev nD) (t : Fin cfg1.N) : (attnDat V c).after 0 t = attnBlk V c 0 t := by dsimp only [attnDat]
theorem attnDat_after1 (c : Dev nD) (t : Fin cfg1.N) : (attnDat V c).after 1 t = attnBlk V c 1 t := by dsimp only [attnDat]
theorem attnDat_after2 (c : Dev nD) (t : Fin cfg1.N) : (attnDat V c).after 2 t = attnBlk V c 2 t := by dsimp only [attnDat]
theorem attnDat_after3 (c : Dev nD) (t : Fin cfg1.N) :
    (attnDat V c).after 3 t = attnOutY (attnBlk V c 0 t) (attnBlk V c 1 t) (attnBlk V c 2 t) := by dsimp only [attnDat]
theorem attnDat_after4 (c : Dev nD) (t : Fin cfg1.N) :
    (attnDat V c).after 4 t = attnOutW (attnBlk V c 0 t) (attnBlk V c 1 t) := by dsimp only [attnDat]

theorem attnDat_before0 (c : Dev nD) (t : Fin cfg1.N) (d) : (attnDat V c).before 0 t d = attnBlk V c 0 t :=
  attnIn0 V (attnDat V c) (attnDat_A V c 0) (attnDat_after0 V c) t d
theorem attnDat_before1 (c : Dev nD) (t : Fin cfg1.N) (d) : (attnDat V c).before 1 t d = attnBlk V c 1 t :=
  attnIn1 V (attnDat V c) (attnDat_A V c 1) (attnDat_after1 V c) t d
theorem attnDat_before2 (c : Dev nD) (t : Fin cfg1.N) (d) : (attnDat V c).before 2 t d = attnBlk V c 2 t :=
  attnIn2 V (attnDat V c) (attnDat_A V c 2) (attnDat_after2 V c) t d

/-- What the body is called with at point `t`, window by window, -/
def attnPre (c : Dev nD) (t : Fin cfg1.N) : sProp 𝕄 :=
  iprop((attnDat V c).Φ t.castSucc ∗ (attnDat V c).owesAt () t.castSucc
    ∗ (∃ d, owns (c : Thread nD τ) (st1_0 t) fullShare ((attnDat V c).before 0 t d))
    ∗ (∃ d, owns (c : Thread nD τ) (st1_1 t) fullShare ((attnDat V c).before 1 t d))
    ∗ (∃ d, owns (c : Thread nD τ) (st1_2 t) fullShare ((attnDat V c).before 2 t d))
    ∗ (∃ d, owns (c : Thread nD τ) (st1_3 t) fullShare ((attnDat V c).before 3 t d))
    ∗ (∃ d, owns (c : Thread nD τ) (st1_4 t) fullShare ((attnDat V c).before 4 t d)))

/-- and what it returns. -/
def attnPost (c : Dev nD) (t : Fin cfg1.N) : sProp 𝕄 :=
  iprop((attnDat V c).Φ t.succ ∗ (attnDat V c).owesAt () t.succ
    ∗ owns (c : Thread nD τ) (st1_0 t) fullShare ((attnDat V c).after 0 t)
    ∗ owns (c : Thread nD τ) (st1_1 t) fullShare ((attnDat V c).after 1 t)
    ∗ owns (c : Thread nD τ) (st1_2 t) fullShare ((attnDat V c).after 2 t)
    ∗ owns (c : Thread nD τ) (st1_3 t) fullShare ((attnDat V c).after 3 t)
    ∗ owns (c : Thread nD τ) (st1_4 t) fullShare ((attnDat V c).after 4 t))

/-- The body at any point: the inputs' buffers hold their blocks, so `attnBody` applies; the invariant and what the core
    owes pass through unread. -/
theorem attnAt (c : Dev nD) (t : Fin cfg1.N) :
    attnPre V c t ⊢ wp frame (wpE (defs₀ (F := F)) Variants.none c none) Set.univ (bodyAt1 t) (fun _ => attnPost V c t) := by
  unfold attnPre attnPost bodyAt1
  simp only [attnDat_before0, attnDat_before1, attnDat_before2]
  rw [show (attnDat V c).Φ t.succ = (attnDat V c).Φ t.castSucc from rfl,
    show (attnDat V c).owesAt () t.succ = (attnDat V c).owesAt () t.castSucc from rfl,
    attnDat_after0, attnDat_after1, attnDat_after2, attnDat_after3, attnDat_after4]
  iintro ⟨HΦ, Ho, ⟨%d0, H0⟩, ⟨%d1, H1⟩, ⟨%d2, H2⟩, ⟨%d3, H3⟩, ⟨%d4, H4⟩⟩
  iapply (attnBody c Set.univ _ _ _ _ _ _ _ _ _ _ _ (attnBlk V c 0 t) (attnBlk V c 1 t) (attnBlk V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation at every point. -/
theorem attnObligation (c : Dev nD) : BodyObligation (attnDat (F := F) V c) (defs₀ (F := F)) Variants.none () Set.univ := fun t => by
  rw [bigSep_W1, bigSep_W1]
  exact attnAt V c t

/-! ## One array under three windows -/

/-- The pipeline's arrays at contents `G`, window by window: the three input windows hold the projected rows' buffer at
    the three parts of its full share, the two output windows hold their arrays whole. -/
theorem attnArrays (c : Dev nD) (G : (w : Fin cfg1.W) → Buf (Elt F) ((cfg1.win w).arr.view.loc (c.tc : Thread nD τ))) :
    ((attnDat V c).arrays G : sProp 𝕄)
      = iprop((((c : Thread nD τ).loc main_v4) ↦{fullShare.left} G 0) ∗ (((c : Thread nD τ).loc main_v4) ↦{fullShare.right.left} G 1)
          ∗ (((c : Thread nD τ).loc main_v4) ↦{fullShare.right.right} G 2)
          ∗ (((c : Thread nD τ).loc main_v5_0) ↦{fullShare} G 3) ∗ (((c : Thread nD τ).loc main_v5_1) ↦{fullShare} G 4)) := by
  unfold Dat.arrays
  rw [bigSep_W1, (arr_whole1 0).set_eq_univ, (arr_whole1 3).set_eq_univ, (arr_whole1 4).set_eq_univ]
  rfl

/-- The buffers behind the region's arrays: the projected rows' and the two results', each once. -/
theorem attnBufs (c : Dev nD) (X : (b : Ref sig .tc) → Buf (Elt F) ((c : Thread nD τ).loc b)) :
    (Pipeline.arrBufs (Ix := Unit) (Name := ℕ) (U := UR sig nD τ) (Lvl := ℕ) spec1 c X : sProp 𝕄)
      = iprop((((c : Thread nD τ).loc main_v4) ↦{fullShare} X main_v4) ∗ (((c : Thread nD τ).loc main_v5_0) ↦{fullShare} X main_v5_0)
          ∗ (((c : Thread nD τ).loc main_v5_1) ↦{fullShare} X main_v5_1)) :=
  Pipeline.arrBufs_eq_of_list spec1 c X [main_v4, main_v5_0, main_v5_1] (by decide) (by decide)

/-- A buffer held at a share is held at the share's two halves, at the same contents, and conversely. -/
theorem halveShare {ℓ : Loc nD τ sig} (q : PosShare TreeShare) (f : Buf (Elt F) ℓ) :
    (ℓ ↦{q} f : sProp 𝕄) ⊢ iprop((ℓ ↦{q.left} f) ∗ ℓ ↦{q.right} f) :=
  (pointsTo_share (PosShare.mem_left_op_right q)).1
theorem joinShare {ℓ : Loc nD τ sig} (q : PosShare TreeShare) (f : Buf (Elt F) ℓ) :
    iprop((ℓ ↦{q.left} f) ∗ ℓ ↦{q.right} f) ⊢ (ℓ ↦{q} f : sProp 𝕄) :=
  (pointsTo_share (PosShare.mem_left_op_right q)).2

/-- The core's unscoped buffers are the buffers behind the region's arrays and the rest. -/
theorem attnSplit (c : Dev nD) (X : (b : Ref sig .tc) → Buf (Elt F) ((c : Thread nD τ).loc b)) :
    (unscopedBufs c X : sProp 𝕄) = iprop(Pipeline.arrBufs spec1 c X ∗ Pipeline.unscopedRest spec1 c X) :=
  Pipeline.unscopedBufs_split₀ cfgs 1 winFacts₀1.arr_unscoped c X

/-- ENTRY. The core's unscoped buffers at the entry contents are the region's arrays at those contents, the projected
    rows' buffer dealt to its three windows by halving the full share twice, beside the buffers the region does not
    window. -/
theorem attnEntry (c : Dev nD) :
    (unscopedBufs c (V c) : sProp 𝕄) ⊢ iprop((attnDat V c).arrays (attnDat V c).A ∗ Pipeline.unscopedRest spec1 c (V c)) := by
  rw [attnSplit, attnArrays, attnBufs]
  iintro ⟨⟨H4, H50, H51⟩, Hrest⟩
  have hs1 := halveShare (F := F) (ℓ := (c : Thread nD τ).loc main_v4) fullShare (V c main_v4)
  have hs2 := halveShare (F := F) (ℓ := (c : Thread nD τ).loc main_v4) fullShare.right (V c main_v4)
  ihave H4' := hs1 $$ H4
  icases H4' with ⟨Hl, Hr⟩
  ihave Hr' := hs2 $$ Hr
  icases Hr' with ⟨Hrl, Hrr⟩
  isplitr [Hrest]
  · isplitl [Hl]; · iexact Hl
    isplitl [Hrl]; · iexact Hrl
    isplitl [Hrr]; · iexact Hrr
    isplitl [H50]; · iexact H50
    iexact H51
  iexact Hrest

/-- EXIT. The region's arrays after every write-back, the input windows' three parts of the projected rows' buffer
    still at its entry contents, beside the buffers the region does not window, are the core's unscoped buffers at
    any contents `X` that agree with the entry contents off the two results and have the results as written back. -/
theorem attnExit (c : Dev nD) (X : (b : Ref sig .tc) → Buf (Elt F) ((c : Thread nD τ).loc b))
    (h4 : X main_v4 = V c main_v4)
    (h50 : X main_v5_0 = (attnDat V c).arrAt 3 cfg1.N) (h51 : X main_v5_1 = (attnDat V c).arrAt 4 cfg1.N)
    (hrest : ∀ b, b ∉ Finset.univ.image (Pipeline.arrRef spec1) → X b = V c b) :
    iprop((attnDat V c).arrays ((attnDat V c).arrAt · cfg1.N) ∗ Pipeline.unscopedRest spec1 c (V c)) ⊢ (unscopedBufs c X : sProp 𝕄) := by
  have e0 : (attnDat V c).arrAt 0 cfg1.N = V c main_v4 := ((attnDat V c).arrAt_in 0 rfl _).trans (attnDat_A V c 0)
  have e1 : (attnDat V c).arrAt 1 cfg1.N = V c main_v4 := ((attnDat V c).arrAt_in 1 rfl _).trans (attnDat_A V c 1)
  have e2 : (attnDat V c).arrAt 2 cfg1.N = V c main_v4 := ((attnDat V c).arrAt_in 2 rfl _).trans (attnDat_A V c 2)
  have hr : (Pipeline.unscopedRest (Ix := Unit) (Name := ℕ) (U := UR sig nD τ) (Lvl := ℕ) spec1 c X : sProp 𝕄) = Pipeline.unscopedRest spec1 c (V c) := by
    unfold Pipeline.unscopedRest
    exact bigSep_congr fun b hb => by rw [hrest b (Finset.mem_sdiff.mp hb).2]
  rw [attnSplit, attnArrays, attnBufs, hr, e0, e1, e2, h4, h50, h51]
  iintro ⟨⟨Hl, Hrl, Hrr, H50, H51⟩, Hrest⟩
  isplitr [Hrest]
  · isplitl [Hl Hrl Hrr]
    · iapply (joinShare fullShare (V c main_v4))
      isplitl [Hl]; · iexact Hl
      iapply (joinShare fullShare.right (V c main_v4))
      isplitl [Hrl]; · iexact Hrl
      iexact Hrr
    isplitl [H50]; · iexact H50
    iexact H51
  iexact Hrest

end Cert.KernelIdeal.Regions

end
-- ==== Proof.RunI.lean ====
/-
  The whole program run: a stretch of host operations, the projection region, the attention region.

  Between two items every unscoped buffer of the core is held whole at known contents: the launch contents, then what
  the host operations compute from them, then — after a region — the same with the region's output arrays at what its
  write-backs leave. Each region is entered from that state and left at the next: its arrays are taken out of the
  unscoped buffers at entry and put back at exit, the generator register goes into the body's invariant and comes
  back, nothing is owed. The second region windows one array three times, so its entry deals that buffer's full
  share among the three windows and its exit collects the parts again. The conclusion says what every unscoped buffer
  holds when @main returns; that the arguments end as launched follows because no item writes an argument. Stated for
  any interpretation of the floats.
-/
import proofs.«113951_j57140244906512_2_alg».proof.Proof.ProjRegionI
import proofs.«113951_j57140244906512_2_alg».proof.Proof.AttnRegionI

set_option maxRecDepth 16384

noncomputable section

namespace Cert.KernelIdeal.Regions

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffers' contents between items -/

/-- Core `c`'s buffers at launch. -/
abbrev W0 : Dev nD → Valuation τ sig (Elt F) := fun c b => m (c, b)
/-- After the host operations (the projection region's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- After the projection region: its arrays at what its write-backs leave, every other buffer as entered. -/
def W2 (c : Dev nD) : Valuation τ sig (Elt F) :=
  Pipeline.withArrays spec0 c (W1 m c) fun w => (projDat (V1 m) c).arrAt w cfg0.N
theorem W2_arr (c : Dev nD) (w : Fin cfg0.W) :
    W2 m c (Proc.devRef .tc (Pipeline.arrRef spec0 w)) = (projDat (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem projF (c : Dev nD) (w : Fin cfg0.W) : (projDat (V1 m) c).arrAt w cfg0.N = V2 m c (Pipeline.arrRef spec0 w) :=
  (W2_arr m c w).symm
theorem projRest (c : Dev nD) : ∀ b, b ∉ Finset.univ.image (Pipeline.arrRef spec0) → V2 m c b = V1 m c b :=
  fun b hb => W2_of_ne m c b fun w e => hb (Finset.mem_image.mpr ⟨w, Finset.mem_univ _, e⟩)
/-- After the attention region: its two results at what its write-backs leave, every other buffer as entered. -/
def W3 (c : Dev nD) : Valuation τ sig (Elt F) :=
  Function.update (Function.update (W2 m c) main_v5_0 ((attnDat (V2 m) c).arrAt 3 cfg1.N)) main_v5_1 ((attnDat (V2 m) c).arrAt 4 cfg1.N)
abbrev V3 : (c : Dev nD) → (b : Ref sig .tc) → Buf (Elt F) ((c : Thread nD τ).loc b) := fun c b => W3 m c b
theorem W3_of (c : Dev nD) (r : Ref sig .tc) (h : r ∉ ([main_v5_0, main_v5_1] : List (Ref sig .tc))) : W3 m c r = W2 m c r := by
  simp only [W3, Function.update_of_ne (StableHlo.devRef_ne_of_ne (List.ne_of_not_mem_cons h) : (Proc.devRef .tc r : DevRef τ sig) ≠ Proc.devRef .tc main_v5_0), Function.update_of_ne (StableHlo.devRef_ne_of_ne (List.ne_of_not_mem_cons (List.not_mem_of_not_mem_cons h)) : (Proc.devRef .tc r : DevRef τ sig) ≠ Proc.devRef .tc main_v5_1)]
theorem W3_y (c : Dev nD) : W3 m c main_v5_0 = (attnDat (V2 m) c).arrAt 3 cfg1.N := by
  unfold W3
  rw [Function.update_of_ne (StableHlo.devRef_ne_of_ne (by decide) : (Proc.devRef .tc main_v5_0 : DevRef τ sig) ≠ Proc.devRef .tc main_v5_1), Function.update_self]
theorem W3_w (c : Dev nD) : W3 m c main_v5_1 = (attnDat (V2 m) c).arrAt 4 cfg1.N := by
  unfold W3; rw [Function.update_self]

/-- No host operation writes an argument, and no region windows one as an output. -/
theorem W1_of (c : Dev nD) (r : Ref sig .tc) (h : r ∉ ([main_v0, main_v1, main_v2, main_v3] : List (Ref sig .tc))) : W1 m c r = W0 m c r :=
  StableHlo.after_of_forall_not_mem (b := Proc.devRef .tc r) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    refine ⟨?_, ?_, ?_, ?_⟩ <;> exact StableHlo.devRef_ne_of_ne (fun e => h (by rw [e]; simp))))
theorem W3_arg (c : Dev nD) (r : Ref sig .tc) (h3 : r ∉ ([main_v5_0, main_v5_1] : List (Ref sig .tc))) (h2 : ∀ w, Pipeline.arrRef spec0 w ≠ r)
    (h1 : r ∉ ([main_v0, main_v1, main_v2, main_v3] : List (Ref sig .tc))) : W3 m c r = m ((c : Thread nD τ).loc r) :=
  (W3_of m c r h3).trans ((W2_of_ne m c r h2).trans ((W1_of m c r h1).trans rfl))

/-! ## The proof data and the thread state -/

/-- No pipeline has a prefetched table. -/
abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => projDat (V1 m) c
  | ⟨1, _⟩ => fun c => attnDat (V2 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)
theorem hostOps0_fresh : (hostOps0 : List (HloOp τ sig (Elt F))).Forall fun op => op.fresh = ∅ := by
  simp only [List.Forall]; repeat' constructor
/-- The host stretch as a segment over the unscoped buffers from the launch contents. -/
abbrev hostSeg : Pipeline.HostSeg (Name := ℕ) (U := UR sig nD τ) (pcfgs (F := F)) defs₀ 𝒱₀ L lv :=
  Pipeline.HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (W0 m) R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what is owed: every unscoped buffer at the final contents, the register at some state. -/
abbrev Tₙ (c : Dev nD) : sProp 𝕄 := iprop(StableHlo.held (c : Thread nD τ) (Pipeline.ucRefs τ sig) (W3 m c) ∗ ∃ r, prngReg c r)

/-! ## The regions as segments -/

set_option backward.isDefEq.respectTransparency.types false in
/-- The projection region: entered from every unscoped buffer at `W1`, left at `W2`. -/
def projSeg : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (projObligation (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (projF m c) (projRest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The attention region: entered from every unscoped buffer at `W2`, left at `W3`; one of its arrays is dealt to three
    windows at entry and collected at exit. -/
def attnSeg : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (attnObligation (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := attnEntry (V2 m) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := attnExit (V2 m) c (V3 m c)
      (W3_of m c main_v4 (by decide)) (W3_y m c) (W3_w m c)
      (fun b hb => W3_of m c b (fun hm => hb (by
        rcases List.mem_cons.mp hm with rfl | hm
        · exact Finset.mem_image.mpr ⟨3, Finset.mem_univ _, rfl⟩
        · rcases List.mem_cons.mp hm with rfl | hm
          · exact Finset.mem_image.mpr ⟨4, Finset.mem_univ _, rfl⟩
          · exact absurd hm List.not_mem_nil)))
    rw [Pipeline.unscopedBufs_held] at hjoin
    iintro ⟨Ha, HO, HY, Hrest⟩
    imodintro
    isplitl [Ha Hrest HY]
    · isplitl [Ha Hrest]
      · iapply hjoin
        isplitl [Ha]; · iexact Ha
        iexact Hrest
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hostSeg m), .region (projSeg m), .region (attnSeg m) ]
/-- @main is the run of the segments. -/
theorem main_run (c : Dev nD) : main (F := F) c = Pipeline.Seg.run (segs m) := (main_chain c).trans (by chain_rfl)

set_option backward.isDefEq.respectTransparency.types false in
/-- THE RUN. From any memory with zero counters every weakly fair execution of @main terminates, nothing faulting, and
    every final memory holds each unscoped buffer of every core at `W3`. -/
theorem run (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = W3 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h => h)

/-- The arguments end as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_arg0 (by decide))).trans (W3_arg m c main_arg0 (by decide) (by decide) (by decide)),
     (h c _ (mem_uc main_arg1 (by decide))).trans (W3_arg m c main_arg1 (by decide) (by decide) (by decide)),
     (h c _ (mem_uc main_arg2 (by decide))).trans (W3_arg m c main_arg2 (by decide) (by decide) (by decide)),
     (h c _ (mem_uc main_arg3 (by decide))).trans (W3_arg m c main_arg3 (by decide) (by decide) (by decide))⟩) (run m ρ)

end Cert.KernelIdeal.Regions

end
-- ==== Proof.StackedWeights.lean ====
/-
  The stacked, transposed weights read at an index.

  Three 1024×1024 matrices are laid one under another along the rows into a 3072×1024 array, the array is transposed,
  and the result is narrowed (the identity on the extended reals). Column g · 1024 + d of the result, at row k, is
  therefore entry (d, k) of matrix g: the transposed array at (k, c) is the stacked array at (c, k), and row
  g · 1024 + d of the stack is row d of its piece g.
-/
import proofs.«113951_j57140244906512_2_alg».proof.Proof.Gen.KernelIdeal
import Idealize.ShloMosaic.Lib.Pipeline.Value
import Idealize.ShloMosaic.Lib.ValueIdx

noncomputable section

namespace Cert.KernelArrays

open Cert.KernelIdeal Cert.KernelIdeal.Gen Idealize.ShloMosaic Idealize.ShloMosaic.ValueIdx

/-- Three pieces of one shape s along axis a: at an index whose axis coordinate is g extents plus i's, and whose other
    coordinates are i's, the stack reads piece g at i. -/
theorem concatenate3_apply {α : Type} {t s : Shape} (a : Fin t.rank) (x0 x1 x2 : s.Idx → α)
    (h : Shape.Concatenates [s, s, s] t a) (hr : s.rank = t.rank) (j : t.Idx) (g : Fin 3) (i : s.Idx)
    (hi : ∀ b : Fin s.rank, b.cast hr ≠ a → (i b).val = (j (b.cast hr)).val)
    (ha : g.val * s.size (a.cast hr.symm) + (i (a.cast hr.symm)).val = (j a).val) :
    concatenate t a [⟨s, x0⟩, ⟨s, x1⟩, ⟨s, x2⟩] h j = (![x0, x1, x2] : Fin 3 → s.Idx → α) g i := by
  match g, ha with
  | ⟨0, _⟩, ha =>
    exact concatenate_apply_piece a [⟨s, x0⟩, ⟨s, x1⟩, ⟨s, x2⟩] h j 0 (by simp) s x0 rfl hr 0 (by simp) i hi
      (by simpa using ha)
  | ⟨1, _⟩, ha =>
    exact concatenate_apply_piece a [⟨s, x0⟩, ⟨s, x1⟩, ⟨s, x2⟩] h j 1 (by simp) s x1 rfl hr (s.size (a.cast hr.symm))
      (by simp [dif_pos hr]) i hi (by simpa using ha)
  | ⟨2, _⟩, ha =>
    exact concatenate_apply_piece a [⟨s, x0⟩, ⟨s, x1⟩, ⟨s, x2⟩] h j 2 (by simp) s x2 rfl hr
      (2 * s.size (a.cast hr.symm)) (by simp [dif_pos hr]; omega) i hi (by simpa using ha)

/-- The three weight matrices stacked by rows, transposed, and narrowed: what the projection multiplies by. -/
def stackedT (wq wk wv : FVec Ideal S1024x1024 .f32) : FVec Ideal S1024x3072 .bf16 :=
  truncf .bf16
    (transpose S1024x3072 [1, 0]
      (concatenate S3072x1024 0 [⟨S1024x1024, wq⟩, ⟨S1024x1024, wk⟩, ⟨S1024x1024, wv⟩]
        concatenates_S1024x1024_S1024x1024_S1024x1024_S3072x1024_d0)
      transposes_S3072x1024_S1024x3072_1_0)
    bitsLt_bf16_f32

/-- Row k, column g · 1024 + d of the stacked transposed weights is entry (d, k) of matrix g. -/
theorem stacked_apply (wq wk wv : FVec Ideal S1024x1024 .f32) (k d : Fin 1024) (g : Fin 3) :
    stackedT wq wk wv (ix2 k ⟨g.val * 1024 + d.val, by omega⟩) = (![wq, wk, wv] g) (ix2 d k) := by
  show transpose S1024x3072 [1, 0]
      (concatenate S3072x1024 0 [⟨S1024x1024, wq⟩, ⟨S1024x1024, wk⟩, ⟨S1024x1024, wv⟩]
        concatenates_S1024x1024_S1024x1024_S1024x1024_S3072x1024_d0)
      transposes_S3072x1024_S1024x3072_1_0 (ix2 k ⟨g.val * 1024 + d.val, by omega⟩) = _
  refine (transpose_apply [1, 0] _ transposes_S3072x1024_S1024x3072_1_0 (ix2 k ⟨g.val * 1024 + d.val, by omega⟩)
    (ix2 (⟨g.val * 1024 + d.val, by omega⟩ : Fin 3072) k) fun b => ?_).trans ?_
  · match b with
    | ⟨0, _⟩ => rfl
    | ⟨1, _⟩ => rfl
  · refine concatenate3_apply (t := S3072x1024) (s := S1024x1024) 0 wq wk wv
      concatenates_S1024x1024_S1024x1024_S1024x1024_S3072x1024_d0 rfl
      (ix2 (⟨g.val * 1024 + d.val, by omega⟩ : Fin 3072) k) g (ix2 d k) ?_ ?_
    · intro c hc
      match c, hc with
      | ⟨0, _⟩, hc => exact absurd rfl hc
      | ⟨1, _⟩, _ => rfl
    · rfl

end Cert.KernelArrays

end
-- ==== Proof.HostStretch.lean ====
/-
  What the host operations before the first region leave in its two input arrays, at the exact instance.

  The rows of `x` are only narrowed, which changes nothing on the extended reals. The three weight matrices are stacked
  by rows, transposed and narrowed: the array the projection multiplies by.
-/
import proofs.«113951_j57140244906512_2_alg».proof.Proof.RunI
import Idealize.ShloMosaic.Lib.StableHlo.Run
import Idealize.ShloMosaic.PureOps.Ideal
import proofs.«113951_j57140244906512_2_alg».proof.Proof.StackedWeights

noncomputable section

namespace Cert.KernelValue

open Cert.KernelIdeal Cert.KernelIdeal.Gen Cert.KernelIdeal.Regions
open Idealize.ShloMosaic Idealize.ShloMosaic.TcCoe Idealize.SL.Sem Idealize.ShloMosaic.StableHlo

variable (m : (ℓ : Loc nD τ sig) → Buf (Elt Ideal) ℓ) (c : Dev nD)

/-- The first region finds the rows of `x` in its first input array, -/
theorem rows_eq : (V1 m c main_v3 : S4096x1024.Idx → EReal) = m ((c.tc : Thread nD τ).loc main_arg0) := by
  show StableHlo.after hostOps0 (W0 m c) (Proc.devRef .tc main_v3) = _
  after_results; rfl

/-- and the stacked transposed weights in its second. -/
theorem weights_eq : (V1 m c main_v2 : S1024x3072.Idx → EReal)
    = Cert.KernelArrays.stackedT (m ((c.tc : Thread nD τ).loc main_arg1)) (m ((c.tc : Thread nD τ).loc main_arg2)) (m ((c.tc : Thread nD τ).loc main_arg3)) := by
  show StableHlo.after hostOps0 (W0 m c) (Proc.devRef .tc main_v2) = _
  after_results; rfl

end Cert.KernelValue

end
-- ==== Proof.Spec.lean ====
/-
  Quaternion attention on the extended reals, one query row at a time.

  A row of 1024 numbers is read as four parts of 256 (a quaternion's components r, x, y, z). For one query row `q`
  and the 4096 key rows `K`, `part q K a b j` contracts part `a` of the query with part `b` of key `j`; the four
  logit rows are the components of the Hamilton product, each a signed combination of four such contractions taken
  left to right. Each logit row is normalised by the shifted exponential over the keys (`soft`), and output part `c` is
  the weighted sum, over the keys, of part `c` of the value rows (`mix`). The projections are rows of `x` against rows
  of a weight matrix (`proj`: `x · Wᵀ`). `yArr` and `wArr` are the two results as whole arrays: all four mixed parts
  side by side, and the weights of the last component.
-/
import Idealize.ShloMosaic.PureOps.Ideal
import Idealize.ShloMosaic.Lib.ValueIdx

noncomputable section

open scoped BigOperators

namespace Cert.Quat

open Idealize.ShloMosaic Idealize.ShloMosaic.ValueIdx

/-- Column `d` of part `a` of a 1024-wide row. -/
def col (a : Fin 4) (d : Fin 256) : Fin 1024 := ⟨a.val * 256 + d.val, by omega⟩

/-- Row `i` of `x` against row `d` of `W`: entry `(i, d)` of `x · Wᵀ`. -/
def proj (x : Fin 4096 → Fin 1024 → EReal) (W : Fin 1024 → Fin 1024 → EReal) (i : Fin 4096) (d : Fin 1024) : EReal :=
  ∑ k : Fin 1024, x i k * W d k

/-- Part `a` of the query row contracted with part `b` of key row `j`. -/
def part (q : Fin 1024 → EReal) (K : Fin 4096 → Fin 1024 → EReal) (a b : Fin 4) (j : Fin 4096) : EReal :=
  ∑ d : Fin 256, q (col a d) * K j (col b d)

/-- The real component of the Hamilton product of the query with key `j`. -/
def logitR (q : Fin 1024 → EReal) (K : Fin 4096 → Fin 1024 → EReal) (j : Fin 4096) : EReal :=
  part q K 0 0 j - part q K 1 1 j - part q K 2 2 j - part q K 3 3 j
/-- Its first imaginary component. -/
def logitI (q : Fin 1024 → EReal) (K : Fin 4096 → Fin 1024 → EReal) (j : Fin 4096) : EReal :=
  part q K 0 1 j + part q K 1 0 j + part q K 2 3 j - part q K 3 2 j
/-- Its second imaginary component. -/
def logitJ (q : Fin 1024 → EReal) (K : Fin 4096 → Fin 1024 → EReal) (j : Fin 4096) : EReal :=
  part q K 0 2 j - part q K 1 3 j + part q K 2 0 j + part q K 3 1 j
/-- Its third imaginary component. -/
def logitK (q : Fin 1024 → EReal) (K : Fin 4096 → Fin 1024 → EReal) (j : Fin 4096) : EReal :=
  part q K 0 3 j + part q K 1 2 j - part q K 2 1 j + part q K 3 0 j

/-- The four logit rows, by component. -/
def logit (q : Fin 1024 → EReal) (K : Fin 4096 → Fin 1024 → EReal) : Fin 4 → Fin 4096 → EReal :=
  ![logitR q K, logitI q K, logitJ q K, logitK q K]

/-- One row of logits normalised over the keys: the exponential of the logit less the row's maximum, over the sum of
    those exponentials. -/
def soft (l : Fin 4096 → EReal) (j : Fin 4096) : EReal :=
  Ideal.div (Ideal.exp (l j - (Finset.univ : Finset (Fin 4096)).fold max ⊥ l))
    (∑ j' : Fin 4096, Ideal.exp (l j' - (Finset.univ : Finset (Fin 4096)).fold max ⊥ l))

/-- The weights `w` over the keys applied to part `c` of the value rows, at column `e` of the part. -/
def mix (w : Fin 4096 → EReal) (V : Fin 4096 → Fin 1024 → EReal) (c : Fin 4) (e : Fin 256) : EReal :=
  ∑ j : Fin 4096, w j * V j (col c e)

/-- Output part `c` of one query row. -/
def out (q : Fin 1024 → EReal) (K V : Fin 4096 → Fin 1024 → EReal) (c : Fin 4) (e : Fin 256) : EReal :=
  mix (soft (logit q K c)) V c e

/-- A `[4096, 1024]` array by rows and columns. -/
def mat4096 (x : (⟨2, ![4096, 1024]⟩ : Shape).Idx → EReal) (i : Fin 4096) (k : Fin 1024) : EReal := x (ix2 i k)
/-- A `[1024, 1024]` array by rows and columns. -/
def mat1024 (w : (⟨2, ![1024, 1024]⟩ : Shape).Idx → EReal) (d : Fin 1024) (k : Fin 1024) : EReal := w (ix2 d k)

/-- The first result: at `(i, c · 256 + e)`, output part `c` of query row `i` at column `e`. -/
def yArr (x : (⟨2, ![4096, 1024]⟩ : Shape).Idx → EReal) (wq wk wv : (⟨2, ![1024, 1024]⟩ : Shape).Idx → EReal) :
    (⟨2, ![4096, 1024]⟩ : Shape).Idx → EReal := fun j =>
  out (proj (mat4096 x) (mat1024 wq) (j 0)) (proj (mat4096 x) (mat1024 wk)) (proj (mat4096 x) (mat1024 wv))
    ⟨(j 1).val / 256, Nat.div_lt_of_lt_mul (j 1).isLt⟩ ⟨(j 1).val % 256, Nat.mod_lt _ (by decide)⟩

/-- The second result: at `(i, j)`, the weight query row `i` gives key `j` in the last component. -/
def wArr (x : (⟨2, ![4096, 1024]⟩ : Shape).Idx → EReal) (wq wk : (⟨2, ![1024, 1024]⟩ : Shape).Idx → EReal) :
    (⟨2, ![4096, 4096]⟩ : Shape).Idx → EReal := fun j =>
  soft (logitK (proj (mat4096 x) (mat1024 wq) (j 0)) (proj (mat4096 x) (mat1024 wk))) (j 1)

end Cert.Quat

end
-- ==== Proof.LibTransposedRhsDot.lean ====
/-
  The product of an M×K matrix with the transpose of an N×K matrix, read at one entry.

  Both operands are contracted along their last axis, so entry (p, q) of the result is the sum over
  k of left (p, k) times right (q, k). Stated for the dimension record `DotDims.transposedRhs M K N`
  at the exact instance, for the accelerator's product into the zero accumulator and for the host's
  product; general in the three extents. A printed record with contracting axes [1] and [1], free
  axes [0] and [0] and no batch axes is this record (the two differ only in a proof field).
-/
import Idealize.ShloMosaic.Lib.ValueIdx
import Idealize.ShloMosaic.PureOps.Ideal.Laws

noncomputable section

open scoped BigOperators

namespace Cert.LibTransposedRhsDot

open Idealize.ShloMosaic Idealize.ShloMosaic.ValueIdx

variable {M K N : ℕ}

/-- The left operand's index for result entry (p, q) and contraction position k is (p, k). -/
theorem lhsIdx_eq (p : Fin M) (q : Fin N) (k : Fin K) :
    (DotDims.transposedRhs M K N).lhsIdx (ix2 p q) ((contrEquiv1 (DotDims.transposedRhs M K N) K rfl rfl).symm k)
      = ix2 p k := by
  have hk := contrEquiv1_symm_val (DotDims.transposedRhs M K N) K rfl rfl k
  funext a; apply Fin.ext
  match a with
  | ⟨0, _⟩ =>
    show ((DotDims.transposedRhs M K N).lhsIdx (ix2 p q) _ 0).val = p.val
    unfold DotDims.lhsIdx
    rw [dif_neg (show ¬(0 : Fin 2) ∈ (DotDims.transposedRhs M K N).lhsBatch from List.not_mem_nil),
      dif_pos (show (0 : Fin 2) ∈ (DotDims.transposedRhs M K N).lhsNonContracting from List.mem_singleton.mpr rfl)]
    rfl
  | ⟨1, _⟩ => exact ((DotDims.transposedRhs M K N).lhsIdx_val_of_single rfl _ _).trans hk

/-- The right operand's index for result entry (p, q) and contraction position k is (q, k). -/
theorem rhsIdx_eq (p : Fin M) (q : Fin N) (k : Fin K) :
    (DotDims.transposedRhs M K N).rhsIdx (ix2 p q) ((contrEquiv1 (DotDims.transposedRhs M K N) K rfl rfl).symm k)
      = ix2 q k := by
  have hk := contrEquiv1_symm_val (DotDims.transposedRhs M K N) K rfl rfl k
  funext a; apply Fin.ext
  match a with
  | ⟨0, _⟩ =>
    show ((DotDims.transposedRhs M K N).rhsIdx (ix2 p q) _ 0).val = q.val
    unfold DotDims.rhsIdx
    rw [dif_neg (show ¬(0 : Fin 2) ∈ (DotDims.transposedRhs M K N).rhsBatch from List.not_mem_nil),
      dif_pos (show (0 : Fin 2) ∈ (DotDims.transposedRhs M K N).rhsNonContracting from List.mem_singleton.mpr rfl)]
    rfl
  | ⟨1, _⟩ => exact ((DotDims.transposedRhs M K N).rhsIdx_val_of_single rfl _ _).trans hk

/-- The accelerator's product into the zero accumulator: entry (p, q) is the sum over k of
    left (p, k) · right (q, k). -/
theorem matmul_zero_apply {φ₁ φ₂ : FTy} (prec : Option ContractPrecision)
    (l : FVec Ideal ⟨2, ![M, K]⟩ φ₁) (r : FVec Ideal ⟨2, ![N, K]⟩ φ₂) (p : Fin M) (q : Fin N) :
    matmul (DotDims.transposedRhs M K N) prec l r (constant (F := Ideal) ⟨2, ![M, N]⟩ .f32 0x00000000#32) (ix2 p q)
      = ∑ k : Fin K, l (ix2 p k) * r (ix2 q k) := by
  refine (Ideal.matmul_constant_zero_apply (DotDims.transposedRhs M K N) prec l r (ix2 p q)).trans ?_
  rw [← Equiv.sum_comp (contrEquiv1 (DotDims.transposedRhs M K N) K rfl rfl).symm]
  refine Finset.sum_congr rfl fun k _ => ?_
  rw [lhsIdx_eq, rhsIdx_eq]

/-- The host's product of the same shape: the same sum. -/
theorem dotGeneral_apply {φ₁ φ₂ : FTy} (prec : Option ContractPrecision)
    (l : FVec Ideal ⟨2, ![M, K]⟩ φ₁) (r : FVec Ideal ⟨2, ![N, K]⟩ φ₂) (p : Fin M) (q : Fin N) :
    Host.dotGeneral (DotDims.transposedRhs M K N) prec l r (ix2 p q) = ∑ k : Fin K, l (ix2 p k) * r (ix2 q k) := by
  show FloatOps.dotGeneral _ prec _ l r (ix2 p q) = _
  rw [Ideal.dotGeneral_apply, ← Equiv.sum_comp (contrEquiv1 (DotDims.transposedRhs M K N) K rfl rfl).symm]
  refine Finset.sum_congr rfl fun k _ => ?_
  rw [lhsIdx_eq, rhsIdx_eq]

end Cert.LibTransposedRhsDot

end
-- ==== Proof.LibPlainDot.lean ====
/-
  A plain matrix product read at an index, on the extended reals.

  For the dimension numbers of an M×K by K×N product (contract the left operand's axis 1 with the right operand's
  axis 0, no batch axis), the product at row `r`, column `n` is the sum over the K contraction positions of
  `l (r, k) · r' (k, n)`. The contraction index of the dimension record is a one-coordinate index; it is re-indexed by
  that coordinate, and the operand indices at an output index and a contraction position are read off coordinate by
  coordinate. Stated for a kernel's matrix unit accumulating into the zero splat and for a host `dot_general`.
-/
import Idealize.ShloMosaic.PureOps.Ideal
import Idealize.ShloMosaic.PureOps.Ideal.Laws
import Idealize.ShloMosaic.Lib.ValueIdx

noncomputable section

namespace Cert.LibPlainDot

open Idealize.ShloMosaic Idealize.ShloMosaic.ValueIdx

variable (M K N : Nat)

/-- The contraction shape of a plain product has one axis, -/
theorem contr_rank : (DotDims.plain M K N).contr.rank = 1 := rfl

/-- of extent K. -/
theorem contr_size : (DotDims.plain M K N).contr.size ⟨0, by rw [contr_rank]; exact Nat.one_pos⟩ = K := rfl

/-- The left operand's index at output index `j` and contraction position `k` is (row of `j`, `k`). -/
theorem lhsIdx_eq (j : (⟨2, ![M, N]⟩ : Shape).Idx) (k : Fin K) :
    (DotDims.plain M K N).lhsIdx j ((contrEquiv1 (DotDims.plain M K N) K (contr_rank M K N) (contr_size M K N)).symm k)
      = ix2 (j 0) k := by
  funext a
  apply Fin.ext
  match a with
  | ⟨0, _⟩ => rfl
  | ⟨1, _⟩ =>
    exact ((DotDims.plain M K N).lhsIdx_val_of_single (cl := 1) rfl j _).trans
      (contrEquiv1_symm_val (DotDims.plain M K N) K (contr_rank M K N) (contr_size M K N) k)

/-- The right operand's index at output index `j` and contraction position `k` is (`k`, column of `j`). -/
theorem rhsIdx_eq (j : (⟨2, ![M, N]⟩ : Shape).Idx) (k : Fin K) :
    (DotDims.plain M K N).rhsIdx j ((contrEquiv1 (DotDims.plain M K N) K (contr_rank M K N) (contr_size M K N)).symm k)
      = ix2 k (j 1) := by
  funext a
  apply Fin.ext
  match a with
  | ⟨0, _⟩ =>
    exact ((DotDims.plain M K N).rhsIdx_val_of_single (cr := 0) rfl j _).trans
      (contrEquiv1_symm_val (DotDims.plain M K N) K (contr_rank M K N) (contr_size M K N) k)
  | ⟨1, _⟩ => rfl

/-- The sum over the record's contraction index is the sum over the K positions. -/
theorem sum_contr (l : (⟨2, ![M, K]⟩ : Shape).Idx → EReal) (r : (⟨2, ![K, N]⟩ : Shape).Idx → EReal)
    (j : (⟨2, ![M, N]⟩ : Shape).Idx) :
    ∑ k : (DotDims.plain M K N).contr.Idx, l ((DotDims.plain M K N).lhsIdx j k) * r ((DotDims.plain M K N).rhsIdx j k)
      = ∑ k : Fin K, l (ix2 (j 0) k) * r (ix2 k (j 1)) := by
  rw [← Equiv.sum_comp (contrEquiv1 (DotDims.plain M K N) K (contr_rank M K N) (contr_size M K N)).symm]
  exact Finset.sum_congr rfl fun k _ =>
    congrArg₂ (fun a b => l a * r b) (lhsIdx_eq M K N j k) (rhsIdx_eq M K N j k)

/-- A kernel's matrix unit accumulating into the zero splat, at an index: the plain sum of products. -/
theorem matmul_zero_apply {φ₁ φ₂ : FTy} (prec : Option ContractPrecision)
    (l : FVec Ideal ⟨2, ![M, K]⟩ φ₁) (r : FVec Ideal ⟨2, ![K, N]⟩ φ₂) (j : (⟨2, ![M, N]⟩ : Shape).Idx) :
    FloatOps.matmul (DotDims.plain M K N) prec l r (constant ⟨2, ![M, N]⟩ .f32 0x00000000#32) j
      = ∑ k : Fin K, l (ix2 (j 0) k) * r (ix2 k (j 1)) :=
  (Ideal.matmul_constant_zero_apply (DotDims.plain M K N) prec l r j).trans (sum_contr M K N l r j)

/-- A host `dot_general` at an index: the same sum, whatever the precision and schedule keys. -/
theorem dotGeneral_apply {φ₁ φ₂ : FTy} (prec : Option ContractPrecision) (sched : HostSchedule)
    (l : FVec Ideal ⟨2, ![M, K]⟩ φ₁) (r : FVec Ideal ⟨2, ![K, N]⟩ φ₂) (j : (⟨2, ![M, N]⟩ : Shape).Idx) :
    FloatOps.dotGeneral (DotDims.plain M K N) prec sched l r j
      = ∑ k : Fin K, l (ix2 (j 0) k) * r (ix2 k (j 1)) :=
  (Ideal.dotGeneral_apply (DotDims.plain M K N) prec sched l r j).trans (sum_contr M K N l r j)

end Cert.LibPlainDot

end
-- ==== Proof.KernelRowsBase.lean ====
/-
  The attention kernel's blocks and products read by coordinates, on the extended reals.

  A 1024-wide block is cut into four 256-wide parts by unit-stride slices at the column offsets 0, 256, 512, 768: part
  a of a block, read at (p, d), is the block at (p, a · 256 + d). The product of a 256×256 part of the query block with
  the transpose of a 4096×256 part of the key block, accumulated into zero, is at (p, j) the contraction of part a of
  query row p with part b of key row j. The weighting product of a 256×4096 array with a 4096×256 part of the value
  block, accumulated into zero, is at (p, e) the sum over the keys of the weight times the value part's entry.
-/
import proofs.«113951_j57140244906512_2_alg».proof.Proof.Gen.KernelIdeal.Skeleton
import proofs.«113951_j57140244906512_2_alg».proof.Proof.Spec
import proofs.«113951_j57140244906512_2_alg».proof.Proof.LibTransposedRhsDot
import proofs.«113951_j57140244906512_2_alg».proof.Proof.LibPlainDot
import Idealize.ShloMosaic.Lib.Pipeline.Value
import Idealize.ShloMosaic.Lib.ValueIdx
import Idealize.ShloMosaic.PureOps.Ideal.Laws

noncomputable section

open scoped BigOperators

namespace Cert.KernelRows

open Cert.KernelIdeal Cert.KernelIdeal.Gen Idealize.ShloMosaic Idealize.ShloMosaic.ValueIdx

/-- The query block by rows and columns. -/
def rowsQ (v0 : Vec Ideal S256x1024 .bf16) (p : Fin 256) (k : Fin 1024) : EReal := v0 (ix2 p k)
/-- A key or value block by rows and columns. -/
def rowsKV (v : Vec Ideal S4096x1024 .bf16) (j : Fin 4096) (k : Fin 1024) : EReal := v (ix2 j k)

/-! ## The four parts of a block -/

/-- A unit-stride slice of 256 columns at the column offset a · 256 of an R×1024 array, read at (p, d), is the array at
    (p, a · 256 + d). -/
theorem slice_cols_apply {R : ℕ} {α : Type} (x : (⟨2, ![R, 1024]⟩ : Shape).Idx → α) (o : ℕ) (a : Fin 4)
    (ho : o = a.val * 256) (h : (⟨2, ![R, 1024]⟩ : Shape).Slices ![0, o] ⟨2, ![R, 256]⟩) (p : Fin R) (d : Fin 256) :
    extractStridedSlice ⟨2, ![R, 256]⟩ ![0, o] x h (ix2 p d) = x (ix2 p (Cert.Quat.col a d)) := by
  refine extractStridedSlice_apply _ x h _ _ fun ax => ?_
  match ax with
  | ⟨0, _⟩ =>
    show p.val = 0 + p.val
    omega
  | ⟨1, _⟩ =>
    show a.val * 256 + d.val = o + d.val
    omega

/-- The query block's four parts. -/
theorem pay6_apply (v0 : Vec Ideal S256x1024 .bf16) (p d : Fin 256) :
    k1_pay6 (F := Ideal) v0 (ix2 p d) = rowsQ v0 p (Cert.Quat.col 0 d) := by
  unfold k1_pay6 k1_pay3
  rw [shapeCast_self]
  exact slice_cols_apply v0 0 0 rfl _ p d
theorem pay7_apply (v0 : Vec Ideal S256x1024 .bf16) (p d : Fin 256) :
    k1_pay7 (F := Ideal) v0 (ix2 p d) = rowsQ v0 p (Cert.Quat.col 1 d) := by
  unfold k1_pay7 k1_pay3
  rw [shapeCast_self]
  exact slice_cols_apply v0 256 1 rfl _ p d
theorem pay8_apply (v0 : Vec Ideal S256x1024 .bf16) (p d : Fin 256) :
    k1_pay8 (F := Ideal) v0 (ix2 p d) = rowsQ v0 p (Cert.Quat.col 2 d) := by
  unfold k1_pay8 k1_pay3
  rw [shapeCast_self]
  exact slice_cols_apply v0 512 2 rfl _ p d
theorem pay9_apply (v0 : Vec Ideal S256x1024 .bf16) (p d : Fin 256) :
    k1_pay9 (F := Ideal) v0 (ix2 p d) = rowsQ v0 p (Cert.Quat.col 3 d) := by
  unfold k1_pay9 k1_pay3
  rw [shapeCast_self]
  exact slice_cols_apply v0 768 3 rfl _ p d

/-- The key block's four parts. -/
theorem pay10_apply (v2 : Vec Ideal S4096x1024 .bf16) (j : Fin 4096) (d : Fin 256) :
    k1_pay10 (F := Ideal) v2 (ix2 j d) = rowsKV v2 j (Cert.Quat.col 0 d) := by
  unfold k1_pay10 k1_pay4
  rw [shapeCast_self]
  exact slice_cols_apply v2 0 0 rfl _ j d
theorem pay11_apply (v2 : Vec Ideal S4096x1024 .bf16) (j : Fin 4096) (d : Fin 256) :
    k1_pay11 (F := Ideal) v2 (ix2 j d) = rowsKV v2 j (Cert.Quat.col 1 d) := by
  unfold k1_pay11 k1_pay4
  rw [shapeCast_self]
  exact slice_cols_apply v2 256 1 rfl _ j d
theorem pay12_apply (v2 : Vec Ideal S4096x1024 .bf16) (j : Fin 4096) (d : Fin 256) :
    k1_pay12 (F := Ideal) v2 (ix2 j d) = rowsKV v2 j (Cert.Quat.col 2 d) := by
  unfold k1_pay12 k1_pay4
  rw [shapeCast_self]
  exact slice_cols_apply v2 512 2 rfl _ j d
theorem pay13_apply (v2 : Vec Ideal S4096x1024 .bf16) (j : Fin 4096) (d : Fin 256) :
    k1_pay13 (F := Ideal) v2 (ix2 j d) = rowsKV v2 j (Cert.Quat.col 3 d) := by
  unfold k1_pay13 k1_pay4
  rw [shapeCast_self]
  exact slice_cols_apply v2 768 3 rfl _ j d

/-- The value block's four parts (the first is sliced where it is used). -/
theorem val0_apply (v4 : Vec Ideal S4096x1024 .bf16) (j : Fin 4096) (e : Fin 256) :
    extractStridedSlice S4096x256 ![0, 0] (k1_pay5 (F := Ideal) v4) slices_S4096x1024_o0_0_S4096x256 (ix2 j e)
      = rowsKV v4 j (Cert.Quat.col 0 e) := by
  unfold k1_pay5
  rw [shapeCast_self]
  exact slice_cols_apply v4 0 0 rfl _ j e
theorem pay14_apply (v4 : Vec Ideal S4096x1024 .bf16) (j : Fin 4096) (e : Fin 256) :
    k1_pay14 (F := Ideal) v4 (ix2 j e) = rowsKV v4 j (Cert.Quat.col 1 e) := by
  unfold k1_pay14 k1_pay5
  rw [shapeCast_self]
  exact slice_cols_apply v4 256 1 rfl _ j e
theorem pay15_apply (v4 : Vec Ideal S4096x1024 .bf16) (j : Fin 4096) (e : Fin 256) :
    k1_pay15 (F := Ideal) v4 (ix2 j e) = rowsKV v4 j (Cert.Quat.col 2 e) := by
  unfold k1_pay15 k1_pay5
  rw [shapeCast_self]
  exact slice_cols_apply v4 512 2 rfl _ j e
theorem pay16_apply (v4 : Vec Ideal S4096x1024 .bf16) (j : Fin 4096) (e : Fin 256) :
    k1_pay16 (F := Ideal) v4 (ix2 j e) = rowsKV v4 j (Cert.Quat.col 3 e) := by
  unfold k1_pay16 k1_pay5
  rw [shapeCast_self]
  exact slice_cols_apply v4 768 3 rfl _ j e

/-! ## The products -/

/-- The zero accumulator of a logit product. -/
abbrev zeroL : FVec Ideal S256x4096 .f32 := constant (F := Ideal) S256x4096 .f32 0x00000000#32

/-- A query part against the transpose of a key part, into zero: at (p, j) the sum over the 256 columns of the
    products of the two rows' entries. -/
theorem cdot_apply (l : FVec Ideal S256x256 .bf16) (r : FVec Ideal S4096x256 .bf16) (p : Fin 256) (j : Fin 4096) :
    matmul dot_S256x256_S4096x256_S256x4096_1_1_0_0_n_n none l r zeroL (ix2 p j)
      = ∑ d : Fin 256, l (ix2 p d) * r (ix2 j d) :=
  Cert.LibTransposedRhsDot.matmul_zero_apply (M := 256) (K := 256) (N := 4096) none l r p j

/-- With the two operands known as parts a and b of the query and key blocks, that sum is the contraction of part a of
    the query row with part b of the key row. -/
theorem cdot_part (v0 : Vec Ideal S256x1024 .bf16) (v2 : Vec Ideal S4096x1024 .bf16)
    (l : FVec Ideal S256x256 .bf16) (r : FVec Ideal S4096x256 .bf16) (a b : Fin 4)
    (hl : ∀ p d, l (ix2 p d) = rowsQ v0 p (Cert.Quat.col a d))
    (hr : ∀ j d, r (ix2 j d) = rowsKV v2 j (Cert.Quat.col b d)) (p : Fin 256) (j : Fin 4096) :
    matmul dot_S256x256_S4096x256_S256x4096_1_1_0_0_n_n none l r zeroL (ix2 p j)
      = Cert.Quat.part (rowsQ v0 p) (rowsKV v2) a b j := by
  refine (cdot_apply l r p j).trans ?_
  unfold Cert.Quat.part
  exact Finset.sum_congr rfl fun d _ => by rw [hl p d, hr j d]

/-- The weighting product: a 256×4096 array of weights, narrowed, against a 4096×256 part of the values, into zero, is
    at (p, e) the sum over the keys of the weight times the part's entry. -/
theorem wdot_apply (w : FVec Ideal S256x4096 .f32) (v : FVec Ideal S4096x256 .bf16) (p e : Fin 256) :
    matmul dot_S256x4096_S4096x256_S256x256_1_0_0_1_n_n none (truncf .bf16 w bitsLt_bf16_f32) v
        (constant (F := Ideal) S256x256 .f32 0x00000000#32) (ix2 p e)
      = ∑ j : Fin 4096, w (ix2 p j) * v (ix2 j e) :=
  Cert.LibPlainDot.matmul_zero_apply 256 4096 256 none (truncf .bf16 w bitsLt_bf16_f32) v (ix2 p e)

/-- The projection kernel's payload: the plain product of the two loaded blocks, narrowed. -/
theorem qkv_entry (v0 v2 : Vec Ideal S1024x1024 .bf16) (p q : Fin 1024) :
    k0_pay1 (F := Ideal) v0 v2 (ix2 p q) = ∑ k : Fin 1024, v0 (ix2 p k) * v2 (ix2 k q) := by
  unfold k0_pay1
  rw [shapeCast_self, shapeCast_self]
  exact Cert.LibPlainDot.matmul_zero_apply 1024 1024 1024 (φ₁ := .bf16) (φ₂ := .bf16) none v0 v2 (ix2 p q)

end Cert.KernelRows

end
-- ==== Proof.LibLaneMax.lean ====
/-
  A row maximum read by coordinates.

  A lane maximum of an `[a, b]` array of extended reals, started from the pattern of −∞, is at row `p` the fold of
  `max` from `⊥` over the lane coordinate `k` of the entry `(p, k)`: `max` commutes and associates, so the order the
  reduction visits the lanes in does not matter, and the pattern it starts from denotes the bottom element. Stated for
  any extents; the companion of the lane sum.
-/
import Idealize.ShloMosaic.Lib.Pipeline.Value
import Idealize.ShloMosaic.Lib.ValueIdx
import Idealize.ShloMosaic.PureOps.Ideal.Laws

namespace Cert.LibLaneMax

open Idealize.ShloMosaic Idealize.ShloMosaic.ValueIdx

/-- The f32 pattern of −∞ denotes the bottom extended real. -/
theorem ofBits_neg_inf : FloatOps.ofBits (F := Ideal) .f32 0xFF800000#32 = (⊥ : EReal) := by
  simp [Ideal.ofBits, Ideal.ieee]

/-- A float lane maximum of an `[a, b]` array from the −∞ pattern, read at row `p`, is the fold of `max` from `⊥`
    over the lane coordinate `k` of the entry `(p, k)`. -/
theorem laneMax_apply {a b : ℕ} (src : FVec Ideal ⟨2, ![a, b]⟩ .f32)
    (h : (⟨2, ![a, b]⟩ : Shape).Reduces [1] ⟨1, ![a]⟩) (hφ : FKind.Formats .f32)
    (hacc : (0xFF800000#32 : BitVec 32) = FKind.maximumf.neutral .f32 hφ) (p : Fin a) :
    multiReduction .maximumf [1] ⟨1, ![a]⟩ src 0xFF800000#32 h hφ hacc (ix1 p)
      = (Finset.univ : Finset (Fin b)).fold max ⊥ (fun k => src (ix2 p k)) := by
  refine (Ideal.multiReduction_maximumf_single src _ h hφ hacc (ix1 p)).trans ?_
  have hf : (src ∘ h.lift (ix1 p)) = fun k => src (ix2 p k) := funext fun k => congrArg src (by
    funext d
    apply Fin.ext
    match d with
    | ⟨0, _⟩ => rfl
    | ⟨1, _⟩ => rfl)
  exact congrArg₂ (fun i f => (Finset.univ : Finset (Fin b)).fold max i f) ofBits_neg_inf hf

end Cert.LibLaneMax
-- ==== Proof.LibKeepdims.lean ====
/-
  A row reduction kept as a column (`keepdims`), read by coordinates.

  A lane sum of an `[a, b]` array is, at row `p`, the sum over the lane coordinate `k` of the entry `(p, k)`.
  The sum is then re-laid: cast from `[a]` to the column `[a, 1]` (entry `(i, 0)` is entry `i`), and the column
  broadcast along its unit axis to `[a, b]` (entry `(p, c)` is the column's entry `(p, 0)`). Each lemma states one of
  these three readings at an index written by its coordinates, for any extents.
-/
import Idealize.ShloMosaic.Lib.Pipeline.Value
import Idealize.ShloMosaic.Lib.ValueIdx
import Idealize.ShloMosaic.PureOps.Ideal.Laws

namespace Cert.Keepdims

open Idealize.ShloMosaic Idealize.ShloMosaic.ValueIdx

variable {α : Type}

/-- An `[a]` array cast to the column `[a, 1]` reads, at `(i, u)`, the operand at `i`: both indices have row-major
    position `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- A column `[a, 1]` broadcast along its unit axis to `[a, b]` reads, at `(p, c)`, the column's entry in row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A float lane sum of an `[a, b]` array from the zero pattern, read at row `p`, is the sum over the lane coordinate
    `k` of the entry `(p, k)`: on the extended reals the sum has no order and the zero it starts from adds nothing. -/
theorem laneSum_apply {a b : ℕ} (src : FVec Ideal ⟨2, ![a, b]⟩ .f32)
    (h : (⟨2, ![a, b]⟩ : Shape).Reduces [1] ⟨1, ![a]⟩) (hφ : FKind.Formats .f32)
    (hacc : (0x00000000#32 : BitVec 32) = FKind.add.neutral .f32 hφ) (p : Fin a) :
    multiReduction .add [1] ⟨1, ![a]⟩ src 0x00000000#32 h hφ hacc (ix1 p) = ∑ k : Fin b, src (ix2 p k) := by
  refine (Ideal.multiReduction_add_single src _ h hφ hacc (ix1 p)).trans ?_
  refine Finset.sum_congr rfl fun k _ => congrArg src ?_
  funext d
  apply Fin.ext
  match d with
  | ⟨0, _⟩ => rfl
  | ⟨1, _⟩ => rfl

end Cert.Keepdims
-- ==== Proof.KernelRowsSoft.lean ====
/-
  The shifted-exponential normalisation of a 256×4096 array of logits, row by row, read by coordinates.

  The chain is: the lane maximum of each row, kept as a column and spread back over the row; the exponential of the
  logits less that maximum; the lane sum of those exponentials, kept as a column and spread back; the quotient. At
  (p, j) it is the normalisation of row p of the logits, read at key j: the row's maximum is the fold of max from the
  bottom element over the row, and the row's sum is the sum over the row. The chain is written once, over a variable
  array of logits; the four places it occurs in the kernel are instances of it.
-/
import proofs.«113951_j57140244906512_2_alg».proof.Proof.Gen.KernelIdeal.Skeleton
import proofs.«113951_j57140244906512_2_alg».proof.Proof.Spec
import proofs.«113951_j57140244906512_2_alg».proof.Proof.LibLaneMax
import proofs.«113951_j57140244906512_2_alg».proof.Proof.LibKeepdims
import Idealize.ShloMosaic.Lib.Pipeline.Value
import Idealize.ShloMosaic.Lib.ValueIdx
import Idealize.ShloMosaic.PureOps.Ideal.Laws

noncomputable section

open scoped BigOperators

namespace Cert.KernelRows

open Cert.KernelIdeal Cert.KernelIdeal.Gen Idealize.ShloMosaic Idealize.ShloMosaic.ValueIdx

/-- Each row's maximum, kept as a column and spread back over the row. -/
def rowMaxB (l : FVec Ideal S256x4096 .f32) : FVec Ideal S256x4096 .f32 :=
  broadcastTo S256x4096
    (shapeCast S256x1
      (multiReduction (F := Ideal) .maximumf [1] S256 l 0xFF800000#32 reduces_S256x4096_S256 (.inl rfl) rfl)
      shapeCasts_S256_S256x1)
    broadcasts_S256x1_S256x4096

/-- The exponential of the logits less their row's maximum. -/
def expShift (l : FVec Ideal S256x4096 .f32) : FVec Ideal S256x4096 .f32 := exp (subf l (rowMaxB l))

/-- Each row's sum, kept as a column and spread back over the row. -/
def rowSumB (x : FVec Ideal S256x4096 .f32) : FVec Ideal S256x4096 .f32 :=
  broadcastTo S256x4096
    (shapeCast S256x1
      (multiReduction (F := Ideal) .add [1] S256 x 0x00000000#32 reduces_S256x4096_S256 (.inl rfl) rfl)
      shapeCasts_S256_S256x1)
    broadcasts_S256x1_S256x4096

/-- The normalised array: the shifted exponentials over their row's sum. -/
def softArr (l : FVec Ideal S256x4096 .f32) : FVec Ideal S256x4096 .f32 := divf (expShift l) (rowSumB (expShift l))

/-- The spread row maximum at (p, j) is the fold of max from the bottom element over row p. -/
theorem rowMaxB_apply (l : FVec Ideal S256x4096 .f32) (p : Fin 256) (j : Fin 4096) :
    rowMaxB l (ix2 p j) = (Finset.univ : Finset (Fin 4096)).fold max ⊥ (fun k => l (ix2 p k)) :=
  (Cert.Keepdims.broadcastTo_a1_ab_apply _ broadcasts_S256x1_S256x4096 p j).trans
    ((Cert.Keepdims.shapeCast_a_a1_apply _ shapeCasts_S256_S256x1 p 0).trans
      (Cert.LibLaneMax.laneMax_apply l reduces_S256x4096_S256 (.inl rfl) rfl p))

/-- The shifted exponential at (p, j). -/
theorem expShift_apply (l : FVec Ideal S256x4096 .f32) (p : Fin 256) (j : Fin 4096) :
    expShift l (ix2 p j)
      = Ideal.exp (l (ix2 p j) - (Finset.univ : Finset (Fin 4096)).fold max ⊥ (fun k => l (ix2 p k))) := by
  show Ideal.exp (l (ix2 p j) - rowMaxB l (ix2 p j)) = _
  rw [rowMaxB_apply]

/-- The spread row sum at (p, j) is the sum over row p. -/
theorem rowSumB_apply (x : FVec Ideal S256x4096 .f32) (p : Fin 256) (j : Fin 4096) :
    rowSumB x (ix2 p j) = ∑ k : Fin 4096, x (ix2 p k) :=
  (Cert.Keepdims.broadcastTo_a1_ab_apply _ broadcasts_S256x1_S256x4096 p j).trans
    ((Cert.Keepdims.shapeCast_a_a1_apply _ shapeCasts_S256_S256x1 p 0).trans
      (Cert.Keepdims.laneSum_apply x reduces_S256x4096_S256 (.inl rfl) rfl p))

/-- The normalised array at (p, j) is the normalisation of row p of the logits, at key j. -/
theorem softArr_apply (l : FVec Ideal S256x4096 .f32) (p : Fin 256) (j : Fin 4096) :
    softArr l (ix2 p j) = Cert.Quat.soft (fun k => l (ix2 p k)) j := by
  show Ideal.div (expShift l (ix2 p j)) (rowSumB (expShift l) (ix2 p j)) = _
  rw [rowSumB_apply, expShift_apply]
  unfold Cert.Quat.soft
  exact congrArg (Ideal.div _) (Finset.sum_congr rfl fun k _ => expShift_apply l p k)

/-- With row p of the logits known, the normalised array at (p, j) is that row's normalisation. -/
theorem softArr_of_row (l : FVec Ideal S256x4096 .f32) (p : Fin 256) (row : Fin 4096 → EReal)
    (h : ∀ k, l (ix2 p k) = row k) (j : Fin 4096) : softArr l (ix2 p j) = Cert.Quat.soft row j :=
  (softArr_apply l p j).trans (congrArg (fun f => Cert.Quat.soft f j) (funext h))

end Cert.KernelRows

end
-- ==== Proof.KernelRows.lean ====
/-
  The attention kernel's stored values read at an index, on the extended reals.

  Each of the four logit arrays the kernel forms is, at (p, j), the corresponding component of the Hamilton product of
  query row p with key row j: four contractions of 256-wide parts combined left to right with the component's signs.
  Each is normalised row by row (the shared chain), and the normalised array weights one 256-wide part of the value
  block. So the four 256×256 blocks the kernel stores are the four output parts of the query rows, and the 256×4096
  block it stores is the last component's weights.
-/
import proofs.«113951_j57140244906512_2_alg».proof.Proof.KernelRowsBase
import proofs.«113951_j57140244906512_2_alg».proof.Proof.KernelRowsSoft

noncomputable section

open scoped BigOperators

namespace Cert.KernelRows

open Cert.KernelIdeal Cert.KernelIdeal.Gen Idealize.ShloMosaic Idealize.ShloMosaic.ValueIdx

/-- The product of a query part with the transpose of a key part, into zero. -/
abbrev cdot (l : FVec Ideal S256x256 .bf16) (r : FVec Ideal S4096x256 .bf16) : FVec Ideal S256x4096 .f32 :=
  matmul dot_S256x256_S4096x256_S256x4096_1_1_0_0_n_n none l r zeroL

/-- The narrowed weights against a value part, into zero. -/
abbrev wmat (w : FVec Ideal S256x4096 .f32) (v : FVec Ideal S4096x256 .bf16) : FVec Ideal S256x256 .f32 :=
  matmul dot_S256x4096_S4096x256_S256x256_1_0_0_1_n_n none (truncf .bf16 w bitsLt_bf16_f32) v
    (constant (F := Ideal) S256x256 .f32 0x00000000#32)

/-- With row p of the weights and column e of the value part known, the weighting product at (p, e) is the mix. -/
theorem mix_of (w : FVec Ideal S256x4096 .f32) (v : FVec Ideal S4096x256 .bf16) (p e : Fin 256)
    (row : Fin 4096 → EReal) (V : Fin 4096 → Fin 1024 → EReal) (c : Fin 4)
    (hw : ∀ j, w (ix2 p j) = row j) (hv : ∀ j, v (ix2 j e) = V j (Cert.Quat.col c e)) :
    wmat w v (ix2 p e) = Cert.Quat.mix row V c e := by
  refine (wdot_apply w v p e).trans ?_
  unfold Cert.Quat.mix
  exact Finset.sum_congr rfl fun j _ => by rw [hw j, hv j]

/-! ## The four logit arrays -/

section Logits
variable (v0 : Vec Ideal S256x1024 .bf16) (v2 : Vec Ideal S4096x1024 .bf16)

/-- The real component's logits, as the kernel forms them. -/
def logitsR : FVec Ideal S256x4096 .f32 :=
  subf (subf (subf (cdot (k1_pay6 v0) (k1_pay10 v2)) (cdot (k1_pay7 v0) (k1_pay11 v2)))
    (cdot (k1_pay8 v0) (k1_pay12 v2))) (cdot (k1_pay9 v0) (k1_pay13 v2))

/-- The first imaginary component's logits. -/
def logitsI : FVec Ideal S256x4096 .f32 :=
  subf (addf (k1_pay18 v0 v2) (cdot (k1_pay8 v0) (k1_pay13 v2))) (cdot (k1_pay9 v0) (k1_pay12 v2))

/-- The second imaginary component's logits. -/
def logitsJ : FVec Ideal S256x4096 .f32 :=
  addf (addf (subf (cdot (k1_pay6 v0) (k1_pay12 v2)) (cdot (k1_pay7 v0) (k1_pay13 v2)))
    (cdot (k1_pay8 v0) (k1_pay10 v2))) (cdot (k1_pay9 v0) (k1_pay11 v2))

/-- The third imaginary component's logits. -/
def logitsK : FVec Ideal S256x4096 .f32 :=
  addf (k1_pay21 (k1_pay6 v0) (k1_pay7 v0) (k1_pay8 v0) (k1_pay11 v2) (k1_pay12 v2) (k1_pay13 v2))
    (cdot (k1_pay9 v0) (k1_pay10 v2))

variable (p : Fin 256) (j : Fin 4096)

/-- One product of parts at (p, j), by the parts' numbers. -/
theorem cd00 : cdot (k1_pay6 v0) (k1_pay10 v2) (ix2 p j) = Cert.Quat.part (rowsQ v0 p) (rowsKV v2) 0 0 j :=
  cdot_part v0 v2 _ _ 0 0 (pay6_apply v0) (pay10_apply v2) p j
theorem cd01 : cdot (k1_pay6 v0) (k1_pay11 v2) (ix2 p j) = Cert.Quat.part (rowsQ v0 p) (rowsKV v2) 0 1 j :=
  cdot_part v0 v2 _ _ 0 1 (pay6_apply v0) (pay11_apply v2) p j
theorem cd02 : cdot (k1_pay6 v0) (k1_pay12 v2) (ix2 p j) = Cert.Quat.part (rowsQ v0 p) (rowsKV v2) 0 2 j :=
  cdot_part v0 v2 _ _ 0 2 (pay6_apply v0) (pay12_apply v2) p j
theorem cd03 : cdot (k1_pay6 v0) (k1_pay13 v2) (ix2 p j) = Cert.Quat.part (rowsQ v0 p) (rowsKV v2) 0 3 j :=
  cdot_part v0 v2 _ _ 0 3 (pay6_apply v0) (pay13_apply v2) p j
theorem cd10 : cdot (k1_pay7 v0) (k1_pay10 v2) (ix2 p j) = Cert.Quat.part (rowsQ v0 p) (rowsKV v2) 1 0 j :=
  cdot_part v0 v2 _ _ 1 0 (pay7_apply v0) (pay10_apply v2) p j
theorem cd11 : cdot (k1_pay7 v0) (k1_pay11 v2) (ix2 p j) = Cert.Quat.part (rowsQ v0 p) (rowsKV v2) 1 1 j :=
  cdot_part v0 v2 _ _ 1 1 (pay7_apply v0) (pay11_apply v2) p j
theorem cd12 : cdot (k1_pay7 v0) (k1_pay12 v2) (ix2 p j) = Cert.Quat.part (rowsQ v0 p) (rowsKV v2) 1 2 j :=
  cdot_part v0 v2 _ _ 1 2 (pay7_apply v0) (pay12_apply v2) p j
theorem cd13 : cdot (k1_pay7 v0) (k1_pay13 v2) (ix2 p j) = Cert.Quat.part (rowsQ v0 p) (rowsKV v2) 1 3 j :=
  cdot_part v0 v2 _ _ 1 3 (pay7_apply v0) (pay13_apply v2) p j
theorem cd20 : cdot (k1_pay8 v0) (k1_pay10 v2) (ix2 p j) = Cert.Quat.part (rowsQ v0 p) (rowsKV v2) 2 0 j :=
  cdot_part v0 v2 _ _ 2 0 (pay8_apply v0) (pay10_apply v2) p j
theorem cd21 : cdot (k1_pay8 v0) (k1_pay11 v2) (ix2 p j) = Cert.Quat.part (rowsQ v0 p) (rowsKV v2) 2 1 j :=
  cdot_part v0 v2 _ _ 2 1 (pay8_apply v0) (pay11_apply v2) p j
theorem cd22 : cdot (k1_pay8 v0) (k1_pay12 v2) (ix2 p j) = Cert.Quat.part (rowsQ v0 p) (rowsKV v2) 2 2 j :=
  cdot_part v0 v2 _ _ 2 2 (pay8_apply v0) (pay12_apply v2) p j
theorem cd23 : cdot (k1_pay8 v0) (k1_pay13 v2) (ix2 p j) = Cert.Quat.part (rowsQ v0 p) (rowsKV v2) 2 3 j :=
  cdot_part v0 v2 _ _ 2 3 (pay8_apply v0) (pay13_apply v2) p j
theorem cd30 : cdot (k1_pay9 v0) (k1_pay10 v2) (ix2 p j) = Cert.Quat.part (rowsQ v0 p) (rowsKV v2) 3 0 j :=
  cdot_part v0 v2 _ _ 3 0 (pay9_apply v0) (pay10_apply v2) p j
theorem cd31 : cdot (k1_pay9 v0) (k1_pay11 v2) (ix2 p j) = Cert.Quat.part (rowsQ v0 p) (rowsKV v2) 3 1 j :=
  cdot_part v0 v2 _ _ 3 1 (pay9_apply v0) (pay11_apply v2) p j
theorem cd32 : cdot (k1_pay9 v0) (k1_pay12 v2) (ix2 p j) = Cert.Quat.part (rowsQ v0 p) (rowsKV v2) 3 2 j :=
  cdot_part v0 v2 _ _ 3 2 (pay9_apply v0) (pay12_apply v2) p j
theorem cd33 : cdot (k1_pay9 v0) (k1_pay13 v2) (ix2 p j) = Cert.Quat.part (rowsQ v0 p) (rowsKV v2) 3 3 j :=
  cdot_part v0 v2 _ _ 3 3 (pay9_apply v0) (pay13_apply v2) p j

/-- The real component's logits at (p, j). -/
theorem logitsR_apply : logitsR v0 v2 (ix2 p j) = Cert.Quat.logitR (rowsQ v0 p) (rowsKV v2) j :=
  congrArg₂ (· - ·) (congrArg₂ (· - ·) (congrArg₂ (· - ·) (cd00 v0 v2 p j) (cd11 v0 v2 p j)) (cd22 v0 v2 p j))
    (cd33 v0 v2 p j)

/-- The first two terms of the first imaginary component's logits at (p, j). -/
theorem pay18_apply : k1_pay18 (F := Ideal) v0 v2 (ix2 p j)
    = Cert.Quat.part (rowsQ v0 p) (rowsKV v2) 0 1 j + Cert.Quat.part (rowsQ v0 p) (rowsKV v2) 1 0 j :=
  congrArg₂ (· + ·) (cd01 v0 v2 p j) (cd10 v0 v2 p j)

/-- The first imaginary component's logits at (p, j). -/
theorem logitsI_apply : logitsI v0 v2 (ix2 p j) = Cert.Quat.logitI (rowsQ v0 p) (rowsKV v2) j :=
  congrArg₂ (· - ·) (congrArg₂ (· + ·) (pay18_apply v0 v2 p j) (cd23 v0 v2 p j)) (cd32 v0 v2 p j)

/-- The second imaginary component's logits at (p, j). -/
theorem logitsJ_apply : logitsJ v0 v2 (ix2 p j) = Cert.Quat.logitJ (rowsQ v0 p) (rowsKV v2) j :=
  congrArg₂ (· + ·) (congrArg₂ (· + ·) (congrArg₂ (· - ·) (cd02 v0 v2 p j) (cd13 v0 v2 p j)) (cd20 v0 v2 p j))
    (cd31 v0 v2 p j)

/-- The first three terms of the third imaginary component's logits at (p, j). -/
theorem pay21_apply :
    k1_pay21 (F := Ideal) (k1_pay6 v0) (k1_pay7 v0) (k1_pay8 v0) (k1_pay11 v2) (k1_pay12 v2) (k1_pay13 v2) (ix2 p j)
      = Cert.Quat.part (rowsQ v0 p) (rowsKV v2) 0 3 j + Cert.Quat.part (rowsQ v0 p) (rowsKV v2) 1 2 j
        - Cert.Quat.part (rowsQ v0 p) (rowsKV v2) 2 1 j :=
  congrArg₂ (· - ·) (congrArg₂ (· + ·) (cd03 v0 v2 p j) (cd12 v0 v2 p j)) (cd21 v0 v2 p j)

/-- The third imaginary component's logits at (p, j). -/
theorem logitsK_apply : logitsK v0 v2 (ix2 p j) = Cert.Quat.logitK (rowsQ v0 p) (rowsKV v2) j :=
  congrArg₂ (· + ·) (pay21_apply v0 v2 p j) (cd30 v0 v2 p j)

end Logits

/-! ## The payloads as the shared chain over those arrays -/

section Payloads
variable (v0 : Vec Ideal S256x1024 .bf16) (v2 v4 : Vec Ideal S4096x1024 .bf16)

theorem pay17_eq : k1_pay17 (F := Ideal) v0 v2 v4
    = wmat (softArr (logitsR v0 v2))
        (extractStridedSlice S4096x256 ![0, 0] (k1_pay5 (F := Ideal) v4) slices_S4096x1024_o0_0_S4096x256) := rfl

theorem pay19_eq : k1_pay19 (F := Ideal) (k1_pay8 v0) (k1_pay9 v0) (k1_pay12 v2) (k1_pay13 v2) (k1_pay14 v4)
      (k1_pay18 v0 v2) (constant (F := Ideal) S256x4096 .f32 0x00000000#32)
    = wmat (softArr (logitsI v0 v2)) (k1_pay14 v4) := rfl

theorem pay20_eq : k1_pay20 (F := Ideal) (k1_pay6 v0) (k1_pay7 v0) (k1_pay8 v0) (k1_pay9 v0) (k1_pay10 v2)
      (k1_pay11 v2) (k1_pay12 v2) (k1_pay13 v2) (k1_pay15 v4)
    = wmat (softArr (logitsJ v0 v2)) (k1_pay15 v4) := rfl

theorem pay1_eq : k1_pay1 (F := Ideal) (k1_pay9 v0) (k1_pay10 v2)
      (k1_pay21 (k1_pay6 v0) (k1_pay7 v0) (k1_pay8 v0) (k1_pay11 v2) (k1_pay12 v2) (k1_pay13 v2))
    = softArr (logitsK v0 v2) := rfl

theorem pay2_eq : k1_pay2 (F := Ideal) (k1_pay9 v0) (k1_pay10 v2) (k1_pay16 v4)
      (k1_pay21 (k1_pay6 v0) (k1_pay7 v0) (k1_pay8 v0) (k1_pay11 v2) (k1_pay12 v2) (k1_pay13 v2))
    = wmat (softArr (logitsK v0 v2)) (k1_pay16 v4) := rfl

end Payloads

/-! ## The stored values -/

section Stored
variable (v0 : Vec Ideal S256x1024 .bf16) (v2 v4 : Vec Ideal S4096x1024 .bf16)

/-- The last component's weights: the block stored to the second result. -/
theorem w_row (p : Fin 256) (j : Fin 4096) :
    k1_pay1 (F := Ideal) (k1_pay9 v0) (k1_pay10 v2)
        (k1_pay21 (k1_pay6 v0) (k1_pay7 v0) (k1_pay8 v0) (k1_pay11 v2) (k1_pay12 v2) (k1_pay13 v2)) (ix2 p j)
      = Cert.Quat.soft (Cert.Quat.logitK (rowsQ v0 p) (rowsKV v2)) j :=
  (congrFun (pay1_eq v0 v2) (ix2 p j)).trans
    (softArr_of_row (logitsK v0 v2) p _ (fun k => logitsK_apply v0 v2 p k) j)

/-- Output part 0: the block stored at columns 0 to 255 of the first result. -/
theorem y_part0 (p e : Fin 256) :
    k1_pay17 (F := Ideal) v0 v2 v4 (ix2 p e) = Cert.Quat.out (rowsQ v0 p) (rowsKV v2) (rowsKV v4) 0 e :=
  (congrFun (pay17_eq v0 v2 v4) (ix2 p e)).trans
    (mix_of (softArr (logitsR v0 v2)) _ p e _ (rowsKV v4) 0
      (fun j => softArr_of_row (logitsR v0 v2) p _ (fun k => logitsR_apply v0 v2 p k) j)
      (fun j => val0_apply v4 j e))

/-- Output part 1: the block stored at columns 256 to 511. -/
theorem y_part1 (p e : Fin 256) :
    k1_pay19 (F := Ideal) (k1_pay8 v0) (k1_pay9 v0) (k1_pay12 v2) (k1_pay13 v2) (k1_pay14 v4) (k1_pay18 v0 v2)
        (constant (F := Ideal) S256x4096 .f32 0x00000000#32) (ix2 p e)
      = Cert.Quat.out (rowsQ v0 p) (rowsKV v2) (rowsKV v4) 1 e :=
  (congrFun (pay19_eq v0 v2 v4) (ix2 p e)).trans
    (mix_of (softArr (logitsI v0 v2)) _ p e _ (rowsKV v4) 1
      (fun j => softArr_of_row (logitsI v0 v2) p _ (fun k => logitsI_apply v0 v2 p k) j)
      (fun j => pay14_apply v4 j e))

/-- Output part 2: the block stored at columns 512 to 767. -/
theorem y_part2 (p e : Fin 256) :
    k1_pay20 (F := Ideal) (k1_pay6 v0) (k1_pay7 v0) (k1_pay8 v0) (k1_pay9 v0) (k1_pay10 v2) (k1_pay11 v2)
        (k1_pay12 v2) (k1_pay13 v2) (k1_pay15 v4) (ix2 p e)
      = Cert.Quat.out (rowsQ v0 p) (rowsKV v2) (rowsKV v4) 2 e :=
  (congrFun (pay20_eq v0 v2 v4) (ix2 p e)).trans
    (mix_of (softArr (logitsJ v0 v2)) _ p e _ (rowsKV v4) 2
      (fun j => softArr_of_row (logitsJ v0 v2) p _ (fun k => logitsJ_apply v0 v2 p k) j)
      (fun j => pay15_apply v4 j e))

/-- Output part 3: the block stored at columns 768 to 1023. -/
theorem y_part3 (p e : Fin 256) :
    k1_pay2 (F := Ideal) (k1_pay9 v0) (k1_pay10 v2) (k1_pay16 v4)
        (k1_pay21 (k1_pay6 v0) (k1_pay7 v0) (k1_pay8 v0) (k1_pay11 v2) (k1_pay12 v2) (k1_pay13 v2)) (ix2 p e)
      = Cert.Quat.out (rowsQ v0 p) (rowsKV v2) (rowsKV v4) 3 e :=
  (congrFun (pay2_eq v0 v2 v4) (ix2 p e)).trans
    (mix_of (softArr (logitsK v0 v2)) _ p e _ (rowsKV v4) 3
      (fun j => softArr_of_row (logitsK v0 v2) p _ (fun k => logitsK_apply v0 v2 p k) j)
      (fun j => pay16_apply v4 j e))

end Stored

end Cert.KernelRows

end
-- ==== Proof.KernelArrays.lean ====
/-
  From blocks to whole arrays: what the two regions leave in their result arrays, on the extended reals.

  The projection region walks a 4 × 3 grid; at point (r, s) it is handed rows r · 1024 … of the input and columns
  s · 1024 … of the stacked transposed weights, and writes block (r, s) of the product. An entry of that block is the
  sum over the 1024 contraction positions of a row entry times a column entry, so the block is the restriction of ONE
  function of the two whole arrays, the plain product. The twelve blocks tile the 4096 × 3072 result, so the result is
  the product.

  The attention region walks 16 points; at point r it is handed query rows r · 256 … (columns 0 to 1023 of the
  projected rows), all key rows (columns 1024 to 2047) and all value rows (columns 2048 to 3071). The first output
  block is written as four column pieces, piece c holding output part c of the 256 query rows, so at column
  c · 256 + e it holds part c at e: the block is the restriction of one function of the projected rows. The second
  output block is the last component's weights of the 256 query rows. The sixteen blocks of each result tile it.
-/
import proofs.«113951_j57140244906512_2_alg».proof.Proof.ProjRegionI
import proofs.«113951_j57140244906512_2_alg».proof.Proof.AttnRegionI
import proofs.«113951_j57140244906512_2_alg».proof.Proof.KernelRows
import Idealize.ShloMosaic.Lib.Pipeline.Value

set_option maxRecDepth 16384

noncomputable section

open scoped BigOperators

namespace Cert.KernelArrays

open Cert.KernelIdeal Cert.KernelIdeal.Gen Cert.KernelIdeal.Regions
open Idealize.ShloMosaic Idealize.ShloMosaic.TcCoe Idealize.ShloMosaic.ValueIdx Idealize.SL.Sem
open Idealize.ShloMosaic.Pipeline (Dat)

-- the contents of the core's buffers when a region is entered
variable (V : (c : Dev nD) → (b : Ref sig .tc) → Buf (Elt Ideal) ((c : Thread nD τ).loc b))

/-- The offsets of a whole-block rectangle are zero on both axes. -/
theorem zeroOffsets : (![0, 0] : Fin 2 → Nat) = fun _ => 0 := funext fun a => by fin_cases a <;> rfl

/-! ## The specification functions -/

/-- The plain product of a 4096 × 1024 array with a 1024 × 3072 one. -/
def projG (A : S4096x1024.Idx → EReal) (B : S1024x3072.Idx → EReal) : S4096x3072.Idx → EReal :=
  fun j => ∑ k : Fin 1024, A (ix2 (j 0) k) * B (ix2 k (j 1))

theorem projG_apply (A : S4096x1024.Idx → EReal) (B : S1024x3072.Idx → EReal) (j : S4096x3072.Idx) :
    projG A B j = ∑ k : Fin 1024, A (ix2 (j 0) k) * B (ix2 k (j 1)) := rfl

/-- The query, key and value rows inside the 4096 × 3072 array of projected rows. -/
def qRows (a : S4096x3072.Idx → EReal) (i : Fin 4096) (k : Fin 1024) : EReal := a (ix2 i ⟨k.val, by omega⟩)
def kRows (a : S4096x3072.Idx → EReal) (j : Fin 4096) (k : Fin 1024) : EReal := a (ix2 j ⟨1024 + k.val, by omega⟩)
def vRows (a : S4096x3072.Idx → EReal) (j : Fin 4096) (k : Fin 1024) : EReal := a (ix2 j ⟨2048 + k.val, by omega⟩)

/-- The first result as a function of the projected rows: at (i, c · 256 + e), output part c of query row i at e. -/
def attnGY (a : S4096x3072.Idx → EReal) : S4096x1024.Idx → EReal := fun j =>
  Cert.Quat.out (qRows a (j 0)) (kRows a) (vRows a) ⟨(j 1).val / 256, Nat.div_lt_of_lt_mul (j 1).isLt⟩
    ⟨(j 1).val % 256, Nat.mod_lt _ (by decide)⟩

theorem attnGY_apply (a : S4096x3072.Idx → EReal) (j : S4096x1024.Idx) :
    attnGY a j = Cert.Quat.out (qRows a (j 0)) (kRows a) (vRows a) ⟨(j 1).val / 256, Nat.div_lt_of_lt_mul (j 1).isLt⟩
      ⟨(j 1).val % 256, Nat.mod_lt _ (by decide)⟩ := rfl

/-- The second result: at (i, j), the weight query row i gives key j in the last component. -/
def attnGW (a : S4096x3072.Idx → EReal) : S4096x4096.Idx → EReal := fun j =>
  Cert.Quat.soft (Cert.Quat.logitK (qRows a (j 0)) (kRows a)) (j 1)

theorem attnGW_apply (a : S4096x3072.Idx → EReal) (j : S4096x4096.Idx) :
    attnGW a j = Cert.Quat.soft (Cert.Quat.logitK (qRows a (j 0)) (kRows a)) (j 1) := rfl

/-! ## The projection region -/

/-- The block indices over the grid: the row block moves with the result's row index, the column block with its column
    index, and the other index of each input stays zero. -/
theorem projIdx : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = win0_2.index t (1 : Fin 2)
    ∧ win0_2.index t (0 : Fin 2) ≤ 3 ∧ win0_2.index t (1 : Fin 2) ≤ 2 :=
  (by decide +kernel : ∀ t : Fin grid0.N, _)

/-- Every block of the result is some point's. -/
theorem projOnto : ∀ (q0 : Fin 4) (q1 : Fin 3), ∃ t : Fin cfg0.N, win0_2.index t = ![q0.val, q1.val] :=
  (by decide +kernel : ∀ (q0 : Fin 4) (q1 : Fin 3), ∃ t : Fin grid0.N, win0_2.index t = ![q0.val, q1.val])

/-- One entry of a block of the product: with row y₀ of the left block known as row i₀ of the left array, and column
    y₁ of the right block as column i₁ of the right array, the entry at y is the product at i. -/
theorem proj_point (x0 x1 : Vec Ideal S1024x1024 .bf16) (A : S4096x1024.Idx → EReal) (B : S1024x3072.Idx → EReal)
    (y : S1024x1024.Idx) (i : S4096x3072.Idx)
    (h0 : ∀ k : Fin 1024, x0 (ix2 (y 0) k) = A (ix2 (i 0) k))
    (h1 : ∀ k : Fin 1024, x1 (ix2 k (y 1)) = B (ix2 k (i 1))) :
    k0_pay1 (F := Ideal) x0 x1 y = projG A B i := by
  refine (congrArg (k0_pay1 (F := Ideal) x0 x1) (eq_ix2 y)).trans ?_
  refine (Cert.KernelRows.qkv_entry x0 x1 (y 0) (y 1)).trans ?_
  unfold projG
  exact Finset.sum_congr rfl fun k _ => by rw [h0 k, h1 k]

/-- The left input's block at a point, read at x, is the left array at block index × 1024 + x on each axis. -/
theorem projBlk0_apply (c : Dev nD) (t : Fin cfg0.N) (x : S1024x1024.Idx) (k : S4096x1024.Idx)
    (hk0 : (k 0).val = win0_0.index t 0 * 1024 + (x 0).val) (hk1 : (k 1).val = win0_0.index t 1 * 1024 + (x 1).val) :
    (projBlk V c 0 t : Vec Ideal S1024x1024 .bf16) x = (V c main_v3 : S4096x1024.Idx → EReal) k := by
  unfold projBlk
  rw [View.read_apply]
  show V c main_v3 _ = V c main_v3 _
  congr 1
  funext a
  apply Fin.ext
  match a with
  | ⟨0, _⟩ => show win0_0.index t 0 * 1024 + 1 * (x 0).val = (k 0).val; rw [hk0]; omega
  | ⟨1, _⟩ => show win0_0.index t 1 * 1024 + 1 * (x 1).val = (k 1).val; rw [hk1]; omega

/-- The right input's block likewise. -/
theorem projBlk1_apply (c : Dev nD) (t : Fin cfg0.N) (x : S1024x1024.Idx) (k : S1024x3072.Idx)
    (hk0 : (k 0).val = win0_1.index t 0 * 1024 + (x 0).val) (hk1 : (k 1).val = win0_1.index t 1 * 1024 + (x 1).val) :
    (projBlk V c 1 t : Vec Ideal S1024x1024 .bf16) x = (V c main_v2 : S1024x3072.Idx → EReal) k := by
  unfold projBlk
  rw [View.read_apply]
  show V c main_v2 _ = V c main_v2 _
  congr 1
  funext a
  apply Fin.ext
  match a with
  | ⟨0, _⟩ => show win0_1.index t 0 * 1024 + 1 * (x 0).val = (k 0).val; rw [hk0]; omega
  | ⟨1, _⟩ => show win0_1.index t 1 * 1024 + 1 * (x 1).val = (k 1).val; rw [hk1]; omega

/-- What a point writes back is its block of the product of the two arrays as the region finds them. -/
theorem projFlushed (c : Dev nD) (t : Fin cfg0.N) :
    (projDat (F := Ideal) V c).flushed 2 t
      = ((cfg0.win 2).blk t).view.read (Elt Ideal) (projG (V c main_v3) (V c main_v2)) := by
  show (cfg0.win 2).cut (grid0.coords t) ((projDat V c).after 2 t) = _
  rw [projDat_after2]
  unfold projOut
  rw [View.canon_unit_zero zeroOffsets]
  simp only [View.ld_unit_zero (S := S1024x1024) zeroOffsets]
  obtain ⟨e0, e1, e2, e3, e4, e5⟩ := projIdx t
  funext j
  rw [View.read_apply]
  refine proj_point (projBlk V c 0 t) (projBlk V c 1 t) (V c main_v3) (V c main_v2) _ _ (fun k => ?_) (fun k => ?_)
  · refine projBlk0_apply V c t _ _ ?_ ?_
    · show win0_2.index t 0 * 1024 + 1 * (j 0).val = win0_0.index t 0 * 1024 + (j 0).val
      rw [e0]; omega
    · show k.val = win0_0.index t 1 * 1024 + k.val
      rw [e1]; omega
  · refine projBlk1_apply V c t _ _ ?_ ?_
    · show k.val = win0_1.index t 0 * 1024 + k.val
      rw [e2]; omega
    · show win0_2.index t 1 * 1024 + 1 * (j 1).val = win0_1.index t 1 * 1024 + (j 1).val
      rw [e3]; omega

/-- An index of the result is in a point's block iff each coordinate is in the block's range on its axis. -/
theorem projMem (t : Fin cfg0.N) (i : S4096x3072.Idx) :
    i ∈ ((cfg0.win 2).blk t).view.set ↔ ∀ a : Fin 2, win0_2.index t a * S1024x1024.size a ≤ (i a).val
      ∧ (i a).val < win0_2.index t a * S1024x1024.size a + S1024x1024.size a := by
  show i ∈ ((View.whole main_v4).slice (win0_2.rect t)).set ↔ _
  rw [View.set_slice_whole, Rect.mem_set_unit]
  exact Iff.rfl

/-- The blocks tile the result: index (r, s) is in the block of the point with block index (r / 1024, s / 1024). -/
theorem projCoverArr (i : S4096x3072.Idx) :
    ∃ t : Fin cfg0.N, (cfg0.win 2).flush t = true ∧ i ∈ ((cfg0.win 2).blk t).view.set := by
  have hi0 : (i 0).val < 4096 := (i 0).isLt
  have hi1 : (i 1).val < 3072 := (i 1).isLt
  obtain ⟨t, ht⟩ := projOnto ⟨(i 0).val / 1024, by omega⟩ ⟨(i 1).val / 1024, by omega⟩
  have q0 : win0_2.index t (0 : Fin 2) = (i 0).val / 1024 := congrFun ht 0
  have q1 : win0_2.index t (1 : Fin 2) = (i 1).val / 1024 := congrFun ht 1
  refine ⟨t, flush0_2 t, ?_⟩
  rw [projMem]
  intro a
  match a with
  | ⟨0, _⟩ =>
    show win0_2.index t (0 : Fin 2) * 1024 ≤ (i 0).val ∧ (i 0).val < win0_2.index t (0 : Fin 2) * 1024 + 1024
    omega
  | ⟨1, _⟩ =>
    show win0_2.index t (1 : Fin 2) * 1024 ≤ (i 1).val ∧ (i 1).val < win0_2.index t (1 : Fin 2) * 1024 + 1024
    omega

/-- THE PROJECTED ROWS after the region: the product of the two arrays the region finds. -/
theorem projArr (c : Dev nD) :
    (projDat (F := Ideal) V c).arrAt 2 cfg0.N = projG (V c main_v3) (V c main_v2) :=
  (projDat (F := Ideal) V c).arrAt_eq_of_cover 2 (projG (V c main_v3) (V c main_v2))
    (fun t _ => projFlushed V c t) projCoverArr

/-! ## The attention region -/

/-- The block indices over the grid: the query block and the two result blocks move together along the rows; the key
    and value blocks stay at column blocks 1 and 2; every other index is zero. -/
theorem attnIdx : ∀ t : Fin cfg1.N, win1_0.index t (0 : Fin 2) = win1_3.index t (0 : Fin 2)
    ∧ win1_0.index t (1 : Fin 2) = 0
    ∧ win1_1.index t (0 : Fin 2) = 0 ∧ win1_1.index t (1 : Fin 2) = 1
    ∧ win1_2.index t (0 : Fin 2) = 0 ∧ win1_2.index t (1 : Fin 2) = 2
    ∧ win1_3.index t (1 : Fin 2) = 0
    ∧ win1_4.index t (0 : Fin 2) = win1_3.index t (0 : Fin 2) ∧ win1_4.index t (1 : Fin 2) = 0
    ∧ win1_3.index t (0 : Fin 2) ≤ 15 :=
  (by decide +kernel : ∀ t : Fin grid1.N, _)

/-- Every row block of the two results is some point's. -/
theorem attnOnto : ∀ q : Fin 16, ∃ t : Fin cfg1.N, win1_3.index t = ![q.val, 0] ∧ win1_4.index t = ![q.val, 0] :=
  (by decide +kernel : ∀ q : Fin 16, ∃ t : Fin grid1.N, win1_3.index t = ![q.val, 0] ∧ win1_4.index t = ![q.val, 0])

/-- One column piece of the first output block: a 256 × 256 array holding output part c, read at x, is the output at
    the block index (x₀, c · 256 + x₁), whose column splits back into part c and column x₁. -/
theorem piece_out (x0 : Vec Ideal S256x1024 .bf16) (x1 x2 : Vec Ideal S4096x1024 .bf16) (c : Fin 4)
    (P : FVec Ideal S256x256 .f32)
    (hP : ∀ p e : Fin 256, P (ix2 p e)
      = Cert.Quat.out (Cert.KernelRows.rowsQ x0 p) (Cert.KernelRows.rowsKV x1) (Cert.KernelRows.rowsKV x2) c e)
    (x : S256x256.Idx) (y : S256x1024.Idx) (hy0 : (y 0).val = (x 0).val) (hy1 : (y 1).val = c.val * 256 + (x 1).val) :
    P x = Cert.Quat.out (Cert.KernelRows.rowsQ x0 (y 0)) (Cert.KernelRows.rowsKV x1) (Cert.KernelRows.rowsKV x2)
      ⟨(y 1).val / 256, Nat.div_lt_of_lt_mul (y 1).isLt⟩ ⟨(y 1).val % 256, Nat.mod_lt _ (by decide)⟩ := by
  have hx1 : (x 1).val < 256 := (x 1).isLt
  have e0 : y 0 = x 0 := Fin.ext hy0
  have e1 : (⟨(y 1).val / 256, Nat.div_lt_of_lt_mul (y 1).isLt⟩ : Fin 4) = c :=
    Fin.ext (by show (y 1).val / 256 = c.val; omega)
  have e2 : (⟨(y 1).val % 256, Nat.mod_lt _ (by decide)⟩ : Fin 256) = x 1 :=
    Fin.ext (by show (y 1).val % 256 = (x 1).val; omega)
  rw [e0, e1, e2]
  exact (congrArg P (eq_ix2 x)).trans (hP (x 0) (x 1))

/-- The first output block as the body leaves it, at an index: the four column pieces tile the block, and each holds
    its output part, so the block at (p, col) is output part col / 256 of query row p at col % 256. -/
theorem attnY_block (x0 : Vec Ideal S256x1024 .bf16) (x1 x2 : Vec Ideal S4096x1024 .bf16) (y : S256x1024.Idx) :
    attnOutY (F := Ideal) x0 x1 x2 y
      = Cert.Quat.out (Cert.KernelRows.rowsQ x0 (y 0)) (Cert.KernelRows.rowsKV x1) (Cert.KernelRows.rowsKV x2)
          ⟨(y 1).val / 256, Nat.div_lt_of_lt_mul (y 1).isLt⟩ ⟨(y 1).val % 256, Nat.mod_lt _ (by decide)⟩ := by
  unfold attnOutY attnCarry
  simp only [View.ld_unit_zero (S := S256x1024) zeroOffsets, View.ld_unit_zero (S := S4096x1024) zeroOffsets]
  refine View.canon_apply_of_pieces (Val := Elt Ideal)
    (fun y : S256x1024.Idx =>
      Cert.Quat.out (Cert.KernelRows.rowsQ x0 (y 0)) (Cert.KernelRows.rowsKV x1) (Cert.KernelRows.rowsKV x2)
        ⟨(y 1).val / 256, Nat.div_lt_of_lt_mul (y 1).isLt⟩ ⟨(y 1).val % 256, Nat.mod_lt _ (by decide)⟩)
    _ ?_ y (attnCoverY _ _ _ _ y)
  intro p hp
  simp only [List.mem_cons, List.not_mem_nil, or_false] at hp
  rcases hp with rfl | rfl | rfl | rfl
  · intro x
    refine piece_out x0 x1 x2 3 _ (fun p e => Cert.KernelRows.y_part3 x0 x1 x2 p e) x _ ?_ ?_
    · show 0 + 1 * (x 0).val = (x 0).val
      omega
    · show 768 + 1 * (x 1).val = 3 * 256 + (x 1).val
      omega
  · intro x
    refine piece_out x0 x1 x2 2 _ (fun p e => Cert.KernelRows.y_part2 x0 x1 x2 p e) x _ ?_ ?_
    · show 0 + 1 * (x 0).val = (x 0).val
      omega
    · show 512 + 1 * (x 1).val = 2 * 256 + (x 1).val
      omega
  · intro x
    refine piece_out x0 x1 x2 1 _ (fun p e => Cert.KernelRows.y_part1 x0 x1 x2 p e) x _ ?_ ?_
    · show 0 + 1 * (x 0).val = (x 0).val
      omega
    · show 256 + 1 * (x 1).val = 1 * 256 + (x 1).val
      omega
  · intro x
    refine piece_out x0 x1 x2 0 _ (fun p e => Cert.KernelRows.y_part0 x0 x1 x2 p e) x _ ?_ ?_
    · show 0 + 1 * (x 0).val = (x 0).val
      omega
    · show 0 + 1 * (x 1).val = 0 * 256 + (x 1).val
      omega

/-- The second output block as the body leaves it, at an index: the last component's weights of query row p. -/
theorem attnW_block (x0 : Vec Ideal S256x1024 .bf16) (x1 : Vec Ideal S4096x1024 .bf16) (y : S256x4096.Idx) :
    attnOutW (F := Ideal) x0 x1 y
      = Cert.Quat.soft (Cert.Quat.logitK (Cert.KernelRows.rowsQ x0 (y 0)) (Cert.KernelRows.rowsKV x1)) (y 1) := by
  unfold attnOutW attnCarry
  rw [View.canon_unit_zero zeroOffsets]
  simp only [View.ld_unit_zero (S := S256x1024) zeroOffsets, View.ld_unit_zero (S := S4096x1024) zeroOffsets]
  exact (congrArg _ (eq_ix2 y)).trans (Cert.KernelRows.w_row x0 x1 (y 0) (y 1))

open Cert.KernelRows in
/-- The first output block against the whole-array function: with query row y₀ of the query block known as query row
    i₀ of the projected rows, the key and value blocks as its key and value rows, and the column kept. -/
theorem attnY_bridge (x0 : Vec Ideal S256x1024 .bf16) (x1 x2 : Vec Ideal S4096x1024 .bf16) (A : S4096x3072.Idx → EReal)
    (y : S256x1024.Idx) (i : S4096x1024.Idx)
    (h0 : ∀ k : Fin 1024, x0 (ix2 (y 0) k) = qRows A (i 0) k)
    (h1 : ∀ (j : Fin 4096) (k : Fin 1024), x1 (ix2 j k) = kRows A j k)
    (h2 : ∀ (j : Fin 4096) (k : Fin 1024), x2 (ix2 j k) = vRows A j k)
    (hi : (i 1).val = (y 1).val) :
    attnOutY (F := Ideal) x0 x1 x2 y = attnGY A i := by
  rw [attnY_block]
  have e0 : rowsQ x0 (y 0) = qRows A (i 0) := funext h0
  have e1 : rowsKV x1 = kRows A := funext fun j => funext (h1 j)
  have e2 : rowsKV x2 = vRows A := funext fun j => funext (h2 j)
  have d1 : (⟨(y 1).val / 256, Nat.div_lt_of_lt_mul (y 1).isLt⟩ : Fin 4)
      = ⟨(i 1).val / 256, Nat.div_lt_of_lt_mul (i 1).isLt⟩ :=
    Fin.ext (by show (y 1).val / 256 = (i 1).val / 256; rw [hi])
  have d2 : (⟨(y 1).val % 256, Nat.mod_lt _ (by decide)⟩ : Fin 256) = ⟨(i 1).val % 256, Nat.mod_lt _ (by decide)⟩ :=
    Fin.ext (by show (y 1).val % 256 = (i 1).val % 256; rw [hi])
  unfold attnGY
  rw [e0, e1, e2, d1, d2]

open Cert.KernelRows in
/-- The second output block against the whole-array function, likewise. -/
theorem attnW_bridge (x0 : Vec Ideal S256x1024 .bf16) (x1 : Vec Ideal S4096x1024 .bf16) (A : S4096x3072.Idx → EReal)
    (y : S256x4096.Idx) (i : S4096x4096.Idx)
    (h0 : ∀ k : Fin 1024, x0 (ix2 (y 0) k) = qRows A (i 0) k)
    (h1 : ∀ (j : Fin 4096) (k : Fin 1024), x1 (ix2 j k) = kRows A j k)
    (hi : (i 1).val = (y 1).val) :
    attnOutW (F := Ideal) x0 x1 y = attnGW A i := by
  rw [attnW_block]
  have e0 : rowsQ x0 (y 0) = qRows A (i 0) := funext h0
  have e1 : rowsKV x1 = kRows A := funext fun j => funext (h1 j)
  have d1 : y 1 = i 1 := Fin.ext hi.symm
  unfold attnGW
  rw [e0, e1, d1]

/-- The query block at a point, read at x, is the projected rows at block index × size + x on each axis; -/
theorem attnBlk0_apply (c : Dev nD) (t : Fin cfg1.N) (x : S256x1024.Idx) (k : S4096x3072.Idx)
    (hk0 : (k 0).val = win1_0.index t 0 * 256 + (x 0).val) (hk1 : (k 1).val = win1_0.index t 1 * 1024 + (x 1).val) :
    (attnBlk V c 0 t : Vec Ideal S256x1024 .bf16) x = (V c main_v4 : S4096x3072.Idx → EReal) k := by
  unfold attnBlk
  rw [View.read_apply]
  show V c main_v4 _ = V c main_v4 _
  congr 1
  funext a
  apply Fin.ext
  match a with
  | ⟨0, _⟩ => show win1_0.index t 0 * 256 + 1 * (x 0).val = (k 0).val; rw [hk0]; omega
  | ⟨1, _⟩ => show win1_0.index t 1 * 1024 + 1 * (x 1).val = (k 1).val; rw [hk1]; omega

/-- the key block likewise; -/
theorem attnBlk1_apply (c : Dev nD) (t : Fin cfg1.N) (x : S4096x1024.Idx) (k : S4096x3072.Idx)
    (hk0 : (k 0).val = win1_1.index t 0 * 4096 + (x 0).val) (hk1 : (k 1).val = win1_1.index t 1 * 1024 + (x 1).val) :
    (attnBlk V c 1 t : Vec Ideal S4096x1024 .bf16) x = (V c main_v4 : S4096x3072.Idx → EReal) k := by
  unfold attnBlk
  rw [View.read_apply]
  show V c main_v4 _ = V c main_v4 _
  congr 1
  funext a
  apply Fin.ext
  match a with
  | ⟨0, _⟩ => show win1_1.index t 0 * 4096 + 1 * (x 0).val = (k 0).val; rw [hk0]; omega
  | ⟨1, _⟩ => show win1_1.index t 1 * 1024 + 1 * (x 1).val = (k 1).val; rw [hk1]; omega

/-- and the value block. -/
theorem attnBlk2_apply (c : Dev nD) (t : Fin cfg1.N) (x : S4096x1024.Idx) (k : S4096x3072.Idx)
    (hk0 : (k 0).val = win1_2.index t 0 * 4096 + (x 0).val) (hk1 : (k 1).val = win1_2.index t 1 * 1024 + (x 1).val) :
    (attnBlk V c 2 t : Vec Ideal S4096x1024 .bf16) x = (V c main_v4 : S4096x3072.Idx → EReal) k := by
  unfold attnBlk
  rw [View.read_apply]
  show V c main_v4 _ = V c main_v4 _
  congr 1
  funext a
  apply Fin.ext
  match a with
  | ⟨0, _⟩ => show win1_2.index t 0 * 4096 + 1 * (x 0).val = (k 0).val; rw [hk0]; omega
  | ⟨1, _⟩ => show win1_2.index t 1 * 1024 + 1 * (x 1).val = (k 1).val; rw [hk1]; omega

/-- What a point writes back to the first result is its block of the whole-array function of the projected rows. -/
theorem attnFlushedY (c : Dev nD) (t : Fin cfg1.N) :
    (attnDat (F := Ideal) V c).flushed 3 t
      = ((cfg1.win 3).blk t).view.read (Elt Ideal) (attnGY (V c main_v4)) := by
  show (cfg1.win 3).cut (grid1.coords t) ((attnDat V c).after 3 t) = _
  rw [attnDat_after3]
  obtain ⟨e0, e1, e2, e3, e4, e5, e6, e7, e8, e9⟩ := attnIdx t
  funext j
  rw [View.read_apply]
  refine attnY_bridge (attnBlk V c 0 t) (attnBlk V c 1 t) (attnBlk V c 2 t) (V c main_v4) _ _
    (fun k => ?_) (fun j' k => ?_) (fun j' k => ?_) ?_
  · refine attnBlk0_apply V c t _ _ ?_ ?_
    · show win1_3.index t 0 * 256 + 1 * (j 0).val = win1_0.index t 0 * 256 + (j 0).val
      rw [e0]; omega
    · show k.val = win1_0.index t 1 * 1024 + k.val
      rw [e1]; omega
  · refine attnBlk1_apply V c t _ _ ?_ ?_
    · show j'.val = win1_1.index t 0 * 4096 + j'.val
      rw [e2]; omega
    · show 1024 + k.val = win1_1.index t 1 * 1024 + k.val
      rw [e3]
  · refine attnBlk2_apply V c t _ _ ?_ ?_
    · show j'.val = win1_2.index t 0 * 4096 + j'.val
      rw [e4]; omega
    · show 2048 + k.val = win1_2.index t 1 * 1024 + k.val
      rw [e5]
  · show win1_3.index t 1 * 1024 + 1 * (j 1).val = (j 1).val
    rw [e6]; omega

/-- What a point writes back to the second result is its block of the weights function of the projected rows. -/
theorem attnFlushedW (c : Dev nD) (t : Fin cfg1.N) :
    (attnDat (F := Ideal) V c).flushed 4 t
      = ((cfg1.win 4).blk t).view.read (Elt Ideal) (attnGW (V c main_v4)) := by
  show (cfg1.win 4).cut (grid1.coords t) ((attnDat V c).after 4 t) = _
  rw [attnDat_after4]
  obtain ⟨e0, e1, e2, e3, e4, e5, e6, e7, e8, e9⟩ := attnIdx t
  funext j
  rw [View.read_apply]
  refine attnW_bridge (attnBlk V c 0 t) (attnBlk V c 1 t) (V c main_v4) _ _
    (fun k => ?_) (fun j' k => ?_) ?_
  · refine attnBlk0_apply V c t _ _ ?_ ?_
    · show win1_4.index t 0 * 256 + 1 * (j 0).val = win1_0.index t 0 * 256 + (j 0).val
      rw [e0, e7]; omega
    · show k.val = win1_0.index t 1 * 1024 + k.val
      rw [e1]; omega
  · refine attnBlk1_apply V c t _ _ ?_ ?_
    · show j'.val = win1_1.index t 0 * 4096 + j'.val
      rw [e2]; omega
    · show 1024 + k.val = win1_1.index t 1 * 1024 + k.val
      rw [e3]
  · show win1_4.index t 1 * 4096 + 1 * (j 1).val = (j 1).val
    rw [e8]; omega

/-- An index of the first result is in a point's block iff each coordinate is in the block's range; -/
theorem attnMemY (t : Fin cfg1.N) (i : S4096x1024.Idx) :
    i ∈ ((cfg1.win 3).blk t).view.set ↔ ∀ a : Fin 2, win1_3.index t a * S256x1024.size a ≤ (i a).val
      ∧ (i a).val < win1_3.index t a * S256x1024.size a + S256x1024.size a := by
  show i ∈ ((View.whole main_v5_0).slice (win1_3.rect t)).set ↔ _
  rw [View.set_slice_whole, Rect.mem_set_unit]
  exact Iff.rfl

/-- of the second likewise. -/
theorem attnMemW (t : Fin cfg1.N) (i : S4096x4096.Idx) :
    i ∈ ((cfg1.win 4).blk t).view.set ↔ ∀ a : Fin 2, win1_4.index t a * S256x4096.size a ≤ (i a).val
      ∧ (i a).val < win1_4.index t a * S256x4096.size a + S256x4096.size a := by
  show i ∈ ((View.whole main_v5_1).slice (win1_4.rect t)).set ↔ _
  rw [View.set_slice_whole, Rect.mem_set_unit]
  exact Iff.rfl

/-- The blocks tile the first result: row r is in the block of the point with row block r / 256; -/
theorem attnCoverArrY (i : S4096x1024.Idx) :
    ∃ t : Fin cfg1.N, (cfg1.win 3).flush t = true ∧ i ∈ ((cfg1.win 3).blk t).view.set := by
  have hi0 : (i 0).val < 4096 := (i 0).isLt
  have hi1 : (i 1).val < 1024 := (i 1).isLt
  obtain ⟨t, ht, -⟩ := attnOnto ⟨(i 0).val / 256, by omega⟩
  have q0 : win1_3.index t (0 : Fin 2) = (i 0).val / 256 := congrFun ht 0
  have q1 : win1_3.index t (1 : Fin 2) = 0 := congrFun ht 1
  refine ⟨t, flush1_3 t, ?_⟩
  rw [attnMemY]
  intro a
  match a with
  | ⟨0, _⟩ =>
    show win1_3.index t (0 : Fin 2) * 256 ≤ (i 0).val ∧ (i 0).val < win1_3.index t (0 : Fin 2) * 256 + 256
    omega
  | ⟨1, _⟩ =>
    show win1_3.index t (1 : Fin 2) * 1024 ≤ (i 1).val ∧ (i 1).val < win1_3.index t (1 : Fin 2) * 1024 + 1024
    omega

/-- and the second. -/
theorem attnCoverArrW (i : S4096x4096.Idx) :
    ∃ t : Fin cfg1.N, (cfg1.win 4).flush t = true ∧ i ∈ ((cfg1.win 4).blk t).view.set := by
  have hi0 : (i 0).val < 4096 := (i 0).isLt
  have hi1 : (i 1).val < 4096 := (i 1).isLt
  obtain ⟨t, -, ht⟩ := attnOnto ⟨(i 0).val / 256, by omega⟩
  have q0 : win1_4.index t (0 : Fin 2) = (i 0).val / 256 := congrFun ht 0
  have q1 : win1_4.index t (1 : Fin 2) = 0 := congrFun ht 1
  refine ⟨t, flush1_4 t, ?_⟩
  rw [attnMemW]
  intro a
  match a with
  | ⟨0, _⟩ =>
    show win1_4.index t (0 : Fin 2) * 256 ≤ (i 0).val ∧ (i 0).val < win1_4.index t (0 : Fin 2) * 256 + 256
    omega
  | ⟨1, _⟩ =>
    show win1_4.index t (1 : Fin 2) * 4096 ≤ (i 1).val ∧ (i 1).val < win1_4.index t (1 : Fin 2) * 4096 + 4096
    omega

/-- THE FIRST RESULT after the region: every output part of every query row, as a function of the projected rows. -/
theorem attnArrY (c : Dev nD) :
    (attnDat (F := Ideal) V c).arrAt 3 cfg1.N = attnGY (V c main_v4) :=
  (attnDat (F := Ideal) V c).arrAt_eq_of_cover 3 (attnGY (V c main_v4)) (fun t _ => attnFlushedY V c t) attnCoverArrY

/-- THE SECOND RESULT after the region: the last component's weights of every query row. -/
theorem attnArrW (c : Dev nD) :
    (attnDat (F := Ideal) V c).arrAt 4 cfg1.N = attnGW (V c main_v4) :=
  (attnDat (F := Ideal) V c).arrAt_eq_of_cover 4 (attnGW (V c main_v4)) (fun t _ => attnFlushedW V c t) attnCoverArrW

end Cert.KernelArrays

end
-- ==== Proof.KernelValue.lean ====
/-
  What the idealized kernel program leaves in its two results, as functions of its four arguments.

  The first region leaves the projected rows: entry (i, c) is the sum over k of x(i, k) times the stacked transposed
  weights at (k, c), and column g · 1024 + d of those is row d of weight matrix g, so the three column bands of the
  projected rows are the three projections `x · Wᵀ`. The second region reads its query, key and value rows off those
  bands, so its two results are the specification's arrays of the projections.
-/
import proofs.«113951_j57140244906512_2_alg».proof.Proof.HostStretch
import proofs.«113951_j57140244906512_2_alg».proof.Proof.KernelArrays

noncomputable section

open scoped BigOperators

namespace Cert.KernelValue

open Cert.KernelIdeal Cert.KernelIdeal.Gen Cert.KernelIdeal.Regions Cert.KernelArrays
open Idealize.ShloMosaic Idealize.ShloMosaic.TcCoe Idealize.ShloMosaic.ValueIdx Idealize.SL.Sem

/-- The three column bands of the projected rows are the three projections. -/
theorem q_rows (x : S4096x1024.Idx → EReal) (wq wk wv : FVec Ideal S1024x1024 .f32) (i : Fin 4096) :
    qRows (projG x (stackedT wq wk wv)) i = Cert.Quat.proj (Cert.Quat.mat4096 x) (Cert.Quat.mat1024 wq) i := by
  funext d
  show ∑ k : Fin 1024, x (ix2 i k) * stackedT wq wk wv (ix2 k ⟨d.val, by omega⟩) = ∑ k : Fin 1024, x (ix2 i k) * wq (ix2 d k)
  refine Finset.sum_congr rfl fun k _ => ?_
  rw [show (⟨d.val, by omega⟩ : Fin 3072) = ⟨(0 : Fin 3).val * 1024 + d.val, by omega⟩ from Fin.ext (by show d.val = 0 * 1024 + d.val; omega),
    stacked_apply wq wk wv k d 0]
  rfl
theorem k_rows (x : S4096x1024.Idx → EReal) (wq wk wv : FVec Ideal S1024x1024 .f32) :
    kRows (projG x (stackedT wq wk wv)) = Cert.Quat.proj (Cert.Quat.mat4096 x) (Cert.Quat.mat1024 wk) := by
  funext i d
  show ∑ k : Fin 1024, x (ix2 i k) * stackedT wq wk wv (ix2 k ⟨1024 + d.val, by omega⟩) = ∑ k : Fin 1024, x (ix2 i k) * wk (ix2 d k)
  refine Finset.sum_congr rfl fun k _ => ?_
  rw [show (⟨1024 + d.val, by omega⟩ : Fin 3072) = ⟨(1 : Fin 3).val * 1024 + d.val, by omega⟩ from Fin.ext (by show 1024 + d.val = 1 * 1024 + d.val; omega),
    stacked_apply wq wk wv k d 1]
  rfl
theorem v_rows (x : S4096x1024.Idx → EReal) (wq wk wv : FVec Ideal S1024x1024 .f32) :
    vRows (projG x (stackedT wq wk wv)) = Cert.Quat.proj (Cert.Quat.mat4096 x) (Cert.Quat.mat1024 wv) := by
  funext i d
  show ∑ k : Fin 1024, x (ix2 i k) * stackedT wq wk wv (ix2 k ⟨2048 + d.val, by omega⟩) = ∑ k : Fin 1024, x (ix2 i k) * wv (ix2 d k)
  refine Finset.sum_congr rfl fun k _ => ?_
  rw [show (⟨2048 + d.val, by omega⟩ : Fin 3072) = ⟨(2 : Fin 3).val * 1024 + d.val, by omega⟩ from Fin.ext (by show 2048 + d.val = 2 * 1024 + d.val; omega),
    stacked_apply wq wk wv k d 2]
  rfl

/-- The second region's first result, of the product with the stacked weights, is the specification's. -/
theorem y_of (x : S4096x1024.Idx → EReal) (wq wk wv : FVec Ideal S1024x1024 .f32) :
    attnGY (projG x (stackedT wq wk wv)) = Cert.Quat.yArr x wq wk wv := by
  funext j
  have hq := q_rows x wq wk wv (j 0)
  have hk := k_rows x wq wk wv
  have hv := v_rows x wq wk wv
  show Cert.Quat.out (qRows (projG x (stackedT wq wk wv)) (j 0)) (kRows (projG x (stackedT wq wk wv))) (vRows (projG x (stackedT wq wk wv))) _ _ = _
  rw [hq, hk, hv]
  rfl
/-- Its second result likewise. -/
theorem w_of (x : S4096x1024.Idx → EReal) (wq wk wv : FVec Ideal S1024x1024 .f32) :
    attnGW (projG x (stackedT wq wk wv)) = Cert.Quat.wArr x wq wk := by
  funext j
  have hq := q_rows x wq wk wv (j 0)
  have hk := k_rows x wq wk wv
  show Cert.Quat.soft (Cert.Quat.logitK (qRows (projG x (stackedT wq wk wv)) (j 0)) (kRows (projG x (stackedT wq wk wv)))) (j 1) = _
  rw [hq, hk]
  rfl

variable (m : (ℓ : Loc nD τ sig) → Buf (Elt Ideal) ℓ) (c : Dev nD)

/-- After the first region the projected rows' array holds the product of the rows of `x` with the stacked weights. -/
theorem qkv_eq : (V2 m c main_v4 : S4096x3072.Idx → EReal)
    = projG (m ((c.tc : Thread nD τ).loc main_arg0))
        (stackedT (m ((c.tc : Thread nD τ).loc main_arg1)) (m ((c.tc : Thread nD τ).loc main_arg2)) (m ((c.tc : Thread nD τ).loc main_arg3))) := by
  refine ((W2_arr m c 2).trans (projArr (V1 m) c)).trans ?_
  rw [rows_eq, weights_eq]

/-- The first result is the specification's. -/
theorem y_eq : (W3 m c main_v5_0 : S4096x1024.Idx → EReal)
    = Cert.Quat.yArr (m ((c.tc : Thread nD τ).loc main_arg0)) (m ((c.tc : Thread nD τ).loc main_arg1))
        (m ((c.tc : Thread nD τ).loc main_arg2)) (m ((c.tc : Thread nD τ).loc main_arg3)) := by
  refine ((W3_y m c).trans (attnArrY (V2 m) c)).trans ?_
  rw [qkv_eq]
  exact y_of _ _ _ _

/-- The second result is the specification's. -/
theorem w_eq : (W3 m c main_v5_1 : S4096x4096.Idx → EReal)
    = Cert.Quat.wArr (m ((c.tc : Thread nD τ).loc main_arg0)) (m ((c.tc : Thread nD τ).loc main_arg1)) (m ((c.tc : Thread nD τ).loc main_arg2)) := by
  refine ((W3_w m c).trans (attnArrW (V2 m) c)).trans ?_
  rw [qkv_eq]
  exact w_of _ _ _ _

/-- The idealized kernel program's run with its two results named. -/
theorem run (ρ : Dev nD → PrngReg) :
    θ_run (defs (F := Ideal)) (onTc (τ := τ) (main (F := Ideal))) ⟨m, fun _ => 0, ρ⟩ (fun r => ∀ c : Dev nD,
      r.2.mem ((c.tc : Thread nD τ).loc main_v5_0) = Cert.Quat.yArr (m ((c.tc : Thread nD τ).loc main_arg0)) (m ((c.tc : Thread nD τ).loc main_arg1))
          (m ((c.tc : Thread nD τ).loc main_arg2)) (m ((c.tc : Thread nD τ).loc main_arg3))
      ∧ r.2.mem ((c.tc : Thread nD τ).loc main_v5_1) = Cert.Quat.wArr (m ((c.tc : Thread nD τ).loc main_arg0)) (m ((c.tc : Thread nD τ).loc main_arg1))
          (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_v5_0 (by decide))).trans (y_eq m c),
     (h c _ (mem_uc main_v5_1 (by decide))).trans (w_eq m c),
     (h c _ (mem_uc main_arg0 (by decide))).trans (W3_arg m c main_arg0 (by decide) (by decide) (by decide)),
     (h c _ (mem_uc main_arg1 (by decide))).trans (W3_arg m c main_arg1 (by decide) (by decide) (by decide)),
     (h c _ (mem_uc main_arg2 (by decide))).trans (W3_arg m c main_arg2 (by decide) (by decide) (by decide)),
     (h c _ (mem_uc main_arg3 (by decide))).trans (W3_arg m c main_arg3 (by decide) (by decide) (by decide))⟩)
    (Cert.KernelIdeal.Regions.run m ρ)

end Cert.KernelValue

end
-- ==== Proof.LibStack4.lean ====
/-
  Four arrays of one shape stacked along an axis, read at one index.

  Laid end to end along axis `a`, four pieces `x₀ x₁ x₂ x₃` of one shape `s` make an array whose extent on `a` is
  four times that of `s`. The element at an index `j` whose axis coordinate is `g · (extent of s on a) + r`, with
  `g < 4` and `r` below the extent, is the element of piece `g` at the index that has `r` on the axis and `j`'s
  coordinates everywhere else. `concatenate4_apply` says so for any shapes and any axis; `stack4_mat_apply` and
  `stack4_vec_apply` are the two cases met most, matrices stacked by rows and vectors laid end to end, with the
  indices written by their coordinates. The family of the four pieces is the vector `![x₀, x₁, x₂, x₃]`, so at a
  literal `g` the right-hand side computes to the named piece.
-/
import Idealize.ShloMosaic.Lib.Pipeline.Value
import Idealize.ShloMosaic.Lib.ValueIdx

noncomputable section

namespace Cert.LibStack4

open Idealize.ShloMosaic Idealize.ShloMosaic.ValueIdx

variable {α : Type}

/-- Four pieces of one shape `s` along axis `a`: at an index whose axis coordinate is `g` extents plus `i`'s, and whose
    other coordinates are `i`'s, the stack reads piece `g` at `i`. -/
theorem concatenate4_apply {t s : Shape} (a : Fin t.rank) (x0 x1 x2 x3 : s.Idx → α)
    (h : Shape.Concatenates [s, s, s, s] t a) (hr : s.rank = t.rank) (j : t.Idx) (g : Fin 4) (i : s.Idx)
    (hi : ∀ b : Fin s.rank, b.cast hr ≠ a → (i b).val = (j (b.cast hr)).val)
    (ha : g.val * s.size (a.cast hr.symm) + (i (a.cast hr.symm)).val = (j a).val) :
    concatenate t a [⟨s, x0⟩, ⟨s, x1⟩, ⟨s, x2⟩, ⟨s, x3⟩] h j = (![x0, x1, x2, x3] : Fin 4 → s.Idx → α) g i := by
  match g, ha with
  | ⟨0, _⟩, ha =>
    exact concatenate_apply_piece a [⟨s, x0⟩, ⟨s, x1⟩, ⟨s, x2⟩, ⟨s, x3⟩] h j 0 (by simp) s x0 rfl hr 0 (by simp) i hi (by simpa using ha)
  | ⟨1, _⟩, ha =>
    exact concatenate_apply_piece a [⟨s, x0⟩, ⟨s, x1⟩, ⟨s, x2⟩, ⟨s, x3⟩] h j 1 (by simp) s x1 rfl hr (s.size (a.cast hr.symm)) (by simp [dif_pos hr]) i hi
      (by simpa using ha)
  | ⟨2, _⟩, ha =>
    exact concatenate_apply_piece a [⟨s, x0⟩, ⟨s, x1⟩, ⟨s, x2⟩, ⟨s, x3⟩] h j 2 (by simp) s x2 rfl hr (2 * s.size (a.cast hr.symm)) (by simp [dif_pos hr]; omega) i hi
      (by simpa using ha)
  | ⟨3, _⟩, ha =>
    exact concatenate_apply_piece a [⟨s, x0⟩, ⟨s, x1⟩, ⟨s, x2⟩, ⟨s, x3⟩] h j 3 (by simp) s x3 rfl hr (3 * s.size (a.cast hr.symm)) (by simp [dif_pos hr]; omega) i hi
      (by simpa using ha)

/-- Four `a × b` matrices stacked by rows into an `A × b` one: row `g · a + n` of the stack is row `n` of matrix `g`. -/
theorem stack4_mat_apply {A a b : Nat} (x0 x1 x2 x3 : (⟨2, ![a, b]⟩ : Shape).Idx → α)
    (h : Shape.Concatenates [⟨2, ![a, b]⟩, ⟨2, ![a, b]⟩, ⟨2, ![a, b]⟩, ⟨2, ![a, b]⟩] (⟨2, ![A, b]⟩ : Shape) 0)
    (j : Fin A) (k : Fin b) (g : Fin 4) (n : Fin a) (hj : j.val = g.val * a + n.val) :
    concatenate (⟨2, ![A, b]⟩ : Shape) 0
        [⟨⟨2, ![a, b]⟩, x0⟩, ⟨⟨2, ![a, b]⟩, x1⟩, ⟨⟨2, ![a, b]⟩, x2⟩, ⟨⟨2, ![a, b]⟩, x3⟩] h (ix2 j k)
      = (![x0, x1, x2, x3] : Fin 4 → (⟨2, ![a, b]⟩ : Shape).Idx → α) g (ix2 n k) := by
  refine concatenate4_apply (t := ⟨2, ![A, b]⟩) (s := ⟨2, ![a, b]⟩) 0 x0 x1 x2 x3 h rfl (ix2 j k) g (ix2 n k) ?_ ?_
  · intro c hc
    match c, hc with
    | ⟨0, _⟩, hc => exact absurd rfl hc
    | ⟨1, _⟩, _ => rfl
  · show g.val * a + n.val = j.val
    omega

/-- Four vectors of length `a` laid end to end into one of length `A`: entry `g · a + n` is entry `n` of vector `g`. -/
theorem stack4_vec_apply {A a : Nat} (x0 x1 x2 x3 : (⟨1, ![a]⟩ : Shape).Idx → α)
    (h : Shape.Concatenates [⟨1, ![a]⟩, ⟨1, ![a]⟩, ⟨1, ![a]⟩, ⟨1, ![a]⟩] (⟨1, ![A]⟩ : Shape) 0)
    (j : Fin A) (g : Fin 4) (n : Fin a) (hj : j.val = g.val * a + n.val) :
    concatenate (⟨1, ![A]⟩ : Shape) 0 [⟨⟨1, ![a]⟩, x0⟩, ⟨⟨1, ![a]⟩, x1⟩, ⟨⟨1, ![a]⟩, x2⟩, ⟨⟨1, ![a]⟩, x3⟩] h (ix1 j)
      = (![x0, x1, x2, x3] : Fin 4 → (⟨1, ![a]⟩ : Shape).Idx → α) g (ix1 n) := by
  refine concatenate4_apply (t := ⟨1, ![A]⟩) (s := ⟨1, ![a]⟩) 0 x0 x1 x2 x3 h rfl (ix1 j) g (ix1 n) ?_ ?_
  · intro c hc
    match c, hc with
    | ⟨0, _⟩, hc => exact absurd rfl hc
  · show g.val * a + n.val = j.val
    omega

end Cert.LibStack4

end
-- ==== Proof.RefArrays.lean ====
/-
  The reference's arrays, named, and each read at one index.

  The reference computes, from the input x and the three weight matrices, the projections x · Wᵀ; cuts each projection's
  1024 columns into four parts of 256; contracts parts of the query projection with parts of the key projection over
  the 256 columns (sixteen 4096 × 4096 products), and combines them with the signs of the Hamilton product into four
  logit arrays; normalises each logit array along its rows by the shifted exponential; multiplies each normalised array
  with one part of the value projection; and lays the four products side by side. Each stage is a definition here, a
  function of the arrays it reads, written with the very operations the program applies, so that what a stretch of the
  program leaves in a buffer is one of these definitions applied to what the stretch found (RefChunks.lean). Each
  definition is then read at an index written by its coordinates, and the two results are shown to be the arrays
  `Cert.Quat.yArr` and `Cert.Quat.wArr` of Spec.lean. No finiteness is used: a sum of extended reals has no order, the
  maximum of a row from −∞ is the fold of `max` from `⊥`, and `max ⊥ a = a`.
-/
import proofs.«113951_j57140244906512_2_alg».proof.Proof.Gen.ReferenceIdeal
import proofs.«113951_j57140244906512_2_alg».proof.Proof.Spec
import proofs.«113951_j57140244906512_2_alg».proof.Proof.LibPlainDot
import proofs.«113951_j57140244906512_2_alg».proof.Proof.LibTransposedRhsDot
import proofs.«113951_j57140244906512_2_alg».proof.Proof.LibLaneMax
import proofs.«113951_j57140244906512_2_alg».proof.Proof.LibStack4
import Idealize.ShloMosaic.Lib.ValueIdx
import Idealize.ShloMosaic.Lib.ValueLayout
import Idealize.ShloMosaic.Lib.IdealHost
import Idealize.ShloMosaic.Lib.Pipeline.Value
import Idealize.ShloMosaic.PureOps.Ideal.Laws

noncomputable section

open scoped BigOperators

namespace Cert.RefSide

open Cert.ReferenceIdeal Cert.ReferenceIdeal.Gen Idealize.ShloMosaic Idealize.ShloMosaic.ValueIdx Cert.Quat

/-- An f32 array of shape `s` over the extended reals. -/
abbrev Arr (s : Shape) : Type := FVec Ideal s .f32

/-! ## The definitions -/

/-- `x · Wᵀ`. -/
def projArr (x : Arr S4096x1024) (w : Arr S1024x1024) : Arr S4096x1024 :=
  Host.dotGeneral dot_S4096x1024_S1024x1024_S4096x1024_1_0_0_1_n_n none x
    (transpose S1024x1024 [1, 0] w transposes_S1024x1024_S1024x1024_1_0)

/-- The four parts of 256 columns. -/
def part0 (a : Arr S4096x1024) : Arr S4096x256 := extractStridedSlice S4096x256 ![0, 0] a slices_S4096x1024_S4096x256_0_0
def part1 (a : Arr S4096x1024) : Arr S4096x256 := extractStridedSlice S4096x256 ![0, 256] a slices_S4096x1024_S4096x256_0_256
def part2 (a : Arr S4096x1024) : Arr S4096x256 := extractStridedSlice S4096x256 ![0, 512] a slices_S4096x1024_S4096x256_0_512
def part3 (a : Arr S4096x1024) : Arr S4096x256 := extractStridedSlice S4096x256 ![0, 768] a slices_S4096x1024_S4096x256_0_768

/-- One part of the queries against one part of the keys: `a · bᵀ`. -/
def contr (a b : Arr S4096x256) : Arr S4096x4096 := Host.dotGeneral dot_S4096x256_S4096x256_S4096x4096_1_1_0_0_n_n none a b

/-- The four logit arrays from the four parts of the queries and of the keys, sums taken left to right. -/
def lgR4 (q0 q1 q2 q3 k0 k1 k2 k3 : Arr S4096x256) : Arr S4096x4096 :=
  subf (subf (subf (contr q0 k0) (contr q1 k1)) (contr q2 k2)) (contr q3 k3)
def lgI4 (q0 q1 q2 q3 k0 k1 k2 k3 : Arr S4096x256) : Arr S4096x4096 :=
  subf (addf (addf (contr q0 k1) (contr q1 k0)) (contr q2 k3)) (contr q3 k2)
def lgJ4 (q0 q1 q2 q3 k0 k1 k2 k3 : Arr S4096x256) : Arr S4096x4096 :=
  addf (addf (subf (contr q0 k2) (contr q1 k3)) (contr q2 k0)) (contr q3 k1)
def lgK4 (q0 q1 q2 q3 k0 k1 k2 k3 : Arr S4096x256) : Arr S4096x4096 :=
  addf (subf (addf (contr q0 k3) (contr q1 k2)) (contr q2 k1)) (contr q3 k0)

/-- The same from the whole projections. -/
def lgR (q k : Arr S4096x1024) : Arr S4096x4096 := lgR4 (part0 q) (part1 q) (part2 q) (part3 q) (part0 k) (part1 k) (part2 k) (part3 k)
def lgI (q k : Arr S4096x1024) : Arr S4096x4096 := lgI4 (part0 q) (part1 q) (part2 q) (part3 q) (part0 k) (part1 k) (part2 k) (part3 k)
def lgJ (q k : Arr S4096x1024) : Arr S4096x4096 := lgJ4 (part0 q) (part1 q) (part2 q) (part3 q) (part0 k) (part1 k) (part2 k) (part3 k)
def lgK (q k : Arr S4096x1024) : Arr S4096x4096 := lgK4 (part0 q) (part1 q) (part2 q) (part3 q) (part0 k) (part1 k) (part2 k) (part3 k)

/-- The scalar −∞ and the scalar zero. -/
def negInf : Arr S_ := constant S_ .f32 0xFF800000#32
def zero0 : Arr S_ := constant S_ .f32 0x00000000#32

/-- The maximum of each row, from −∞ (and once more against −∞). -/
def rowMax (l : Arr S4096x4096) : Arr S4096 :=
  maximumf (broadcastInDim S4096 ![] bcast_S_S4096 negInf)
    (Host.reduce FloatOps.maximumf l negInf reducesTo_S4096x4096_S4096_d1 h_S_)

/-- A value per row, repeated along the row. -/
def keep (r : Arr S4096) : Arr S4096x4096 :=
  broadcastInDim S4096x4096 ![0, 1] bcast_S4096x1_S4096x4096_0_1 (broadcastInDim S4096x1 ![0] bcast_S4096_S4096x1_0 r)

/-- The exponential of each entry less its row's maximum. -/
def expArr (l : Arr S4096x4096) : Arr S4096x4096 := Host.exp (subf l (keep (rowMax l)))

/-- The sum of each row, from zero. -/
def rowSum (e : Arr S4096x4096) : Arr S4096 := Host.reduceAdd e zero0 reducesTo_S4096x4096_S4096_d1 h_S_

/-- Each row normalised. -/
def softArr (l : Arr S4096x4096) : Arr S4096x4096 := Host.divf (expArr l) (keep (rowSum (expArr l)))

/-- The normalised rows applied to one part of the values. -/
def mixArr (l : Arr S4096x4096) (v : Arr S4096x256) : Arr S4096x256 :=
  Host.dotGeneral dot_S4096x4096_S4096x256_S4096x256_1_0_0_1_n_n none (softArr l) v

/-- Four parts side by side. -/
def cat4 (y0 y1 y2 y3 : Arr S4096x256) : Arr S4096x1024 :=
  concatenate S4096x1024 1 [⟨S4096x256, y0⟩, ⟨S4096x256, y1⟩, ⟨S4096x256, y2⟩, ⟨S4096x256, y3⟩]
    concatenates_S4096x256_S4096x256_S4096x256_S4096x256_S4096x1024_d1

/-- The first result as the program computes it. -/
def yRef (x : Arr S4096x1024) (wq wk wv : Arr S1024x1024) : Arr S4096x1024 :=
  cat4 (mixArr (lgR (projArr x wq) (projArr x wk)) (part0 (projArr x wv)))
    (mixArr (lgI (projArr x wq) (projArr x wk)) (part1 (projArr x wv)))
    (mixArr (lgJ (projArr x wq) (projArr x wk)) (part2 (projArr x wv)))
    (mixArr (lgK (projArr x wq) (projArr x wk)) (part3 (projArr x wv)))

/-- The second result as the program computes it. -/
def wRef (x : Arr S4096x1024) (wq wk : Arr S1024x1024) : Arr S4096x4096 := softArr (lgK (projArr x wq) (projArr x wk))

/-! ## Each read at an index -/

theorem projArr_apply (x : Arr S4096x1024) (w : Arr S1024x1024) (i : Fin 4096) (d : Fin 1024) :
    projArr x w (ix2 i d) = proj (mat4096 x) (mat1024 w) i d := by
  unfold projArr proj mat4096 mat1024
  refine (Cert.LibPlainDot.dotGeneral_apply 4096 1024 1024 none _ x
    (transpose S1024x1024 [1, 0] w transposes_S1024x1024_S1024x1024_1_0) (ix2 i d)).trans ?_
  refine Finset.sum_congr rfl fun k _ => ?_
  show x (ix2 i k) * transpose S1024x1024 [1, 0] w transposes_S1024x1024_S1024x1024_1_0 (ix2 k d) = _
  rw [transpose_ix2_apply]

theorem part0_apply (a : Arr S4096x1024) (i : Fin 4096) (e : Fin 256) : part0 a (ix2 i e) = a (ix2 i (col 0 e)) :=
  slice2_axis1_apply 0 a _ i e (col 0 e) (by show 0 * 256 + e.val = 0 + e.val; omega)
theorem part1_apply (a : Arr S4096x1024) (i : Fin 4096) (e : Fin 256) : part1 a (ix2 i e) = a (ix2 i (col 1 e)) :=
  slice2_axis1_apply 256 a _ i e (col 1 e) (by show 1 * 256 + e.val = 256 + e.val; omega)
theorem part2_apply (a : Arr S4096x1024) (i : Fin 4096) (e : Fin 256) : part2 a (ix2 i e) = a (ix2 i (col 2 e)) :=
  slice2_axis1_apply 512 a _ i e (col 2 e) (by show 2 * 256 + e.val = 512 + e.val; omega)
theorem part3_apply (a : Arr S4096x1024) (i : Fin 4096) (e : Fin 256) : part3 a (ix2 i e) = a (ix2 i (col 3 e)) :=
  slice2_axis1_apply 768 a _ i e (col 3 e) (by show 3 * 256 + e.val = 768 + e.val; omega)

theorem contr_apply (a b : Arr S4096x256) (i j : Fin 4096) :
    contr a b (ix2 i j) = ∑ d : Fin 256, a (ix2 i d) * b (ix2 j d) :=
  Cert.LibTransposedRhsDot.dotGeneral_apply (M := 4096) (K := 256) (N := 4096) none a b i j

theorem lgR_apply (q k : Arr S4096x1024) (i j : Fin 4096) :
    lgR q k (ix2 i j) = logitR (fun c => q (ix2 i c)) (fun j' c => k (ix2 j' c)) j := by
  simp only [lgR, lgR4, logitR, Quat.part, subf_apply, addf_apply, contr_apply, part0_apply, part1_apply, part2_apply, part3_apply]
theorem lgI_apply (q k : Arr S4096x1024) (i j : Fin 4096) :
    lgI q k (ix2 i j) = logitI (fun c => q (ix2 i c)) (fun j' c => k (ix2 j' c)) j := by
  simp only [lgI, lgI4, logitI, Quat.part, subf_apply, addf_apply, contr_apply, part0_apply, part1_apply, part2_apply, part3_apply]
theorem lgJ_apply (q k : Arr S4096x1024) (i j : Fin 4096) :
    lgJ q k (ix2 i j) = logitJ (fun c => q (ix2 i c)) (fun j' c => k (ix2 j' c)) j := by
  simp only [lgJ, lgJ4, logitJ, Quat.part, subf_apply, addf_apply, contr_apply, part0_apply, part1_apply, part2_apply, part3_apply]
theorem lgK_apply (q k : Arr S4096x1024) (i j : Fin 4096) :
    lgK q k (ix2 i j) = logitK (fun c => q (ix2 i c)) (fun j' c => k (ix2 j' c)) j := by
  simp only [lgK, lgK4, logitK, Quat.part, subf_apply, addf_apply, contr_apply, part0_apply, part1_apply, part2_apply, part3_apply]

/-- The row index `i` with the column `k` put back is `(i, k)`. -/
theorem lift_row (hR : S4096x4096.Reduces [1] S4096) (i : Fin 4096) (k : Fin (S4096x4096.size 1)) :
    hR.lift (ix1 i) k = ix2 i k := by
  funext c; apply Fin.ext
  fin_cases c <;> rfl

theorem rowMax_apply (l : Arr S4096x4096) (i : Fin 4096) :
    rowMax l (ix1 i) = (Finset.univ : Finset (Fin 4096)).fold max ⊥ (fun j => l (ix2 i j)) := by
  have hR : S4096x4096.Reduces [1] S4096 := by decide
  unfold rowMax
  rw [maximumf_apply, broadcastInDim_scalar_apply,
    Host.reduce_eq_fold_single FloatOps.maximumf l negInf reducesTo_S4096x4096_S4096_d1 hR h_S_]
  have hf : (l ∘ hR.lift (ix1 i)) = fun j : Fin 4096 => l (ix2 i j) := funext fun k => congrArg l (lift_row hR i k)
  have hb : ∀ u, negInf u = (⊥ : EReal) := fun _ => Cert.LibLaneMax.ofBits_neg_inf
  rw [hf, hb, hb]
  exact max_bot_left _

theorem keep_apply (r : Arr S4096) (i j : Fin 4096) : keep r (ix2 i j) = r (ix1 i) := by
  unfold keep
  rw [broadcastInDim_apply ![0, 1] bcast_S4096x1_S4096x4096_0_1 _ (ix2 i j) (ix2 i (0 : Fin 1))
      (fun a => by fin_cases a <;> rfl),
    broadcastInDim_apply ![0] bcast_S4096_S4096x1_0 r (ix2 i (0 : Fin 1)) (ix1 i) (fun a => by fin_cases a; rfl)]

theorem expArr_apply (l : Arr S4096x4096) (i j : Fin 4096) :
    expArr l (ix2 i j) = Ideal.exp (l (ix2 i j) - (Finset.univ : Finset (Fin 4096)).fold max ⊥ (fun j' => l (ix2 i j'))) := by
  show FloatOps.hostUnary .exp (subf l (keep (rowMax l)) (ix2 i j)) = _
  rw [Ideal.hostUnary_exp_def, subf_apply, keep_apply, rowMax_apply]

theorem rowSum_apply (e : Arr S4096x4096) (i : Fin 4096) : rowSum e (ix1 i) = ∑ j : Fin 4096, e (ix2 i j) := by
  have hR : S4096x4096.Reduces [1] S4096 := by decide
  unfold rowSum
  rw [hostReduceAdd_apply, Ideal.hostReduceAdd_single reducesTo_S4096x4096_S4096_d1 hR]
  show Ideal.ofBits .f32 0x00000000#32 + _ = _
  rw [Ideal.ofBits_zero_f32, zero_add]
  exact Finset.sum_congr rfl fun k _ => congrArg e (lift_row hR i k)

theorem softArr_apply (l : Arr S4096x4096) (i j : Fin 4096) : softArr l (ix2 i j) = soft (fun j' => l (ix2 i j')) j := by
  unfold softArr soft
  rw [hostDivf_apply, keep_apply, rowSum_apply]
  simp only [expArr_apply]

theorem mixArr_apply (l : Arr S4096x4096) (v : Arr S4096x256) (i : Fin 4096) (e : Fin 256) :
    mixArr l v (ix2 i e) = ∑ j : Fin 4096, soft (fun j' => l (ix2 i j')) j * v (ix2 j e) := by
  unfold mixArr
  refine (Cert.LibPlainDot.dotGeneral_apply 4096 4096 256 none _ (softArr l) v (ix2 i e)).trans ?_
  refine Finset.sum_congr rfl fun j _ => ?_
  show softArr l (ix2 i j) * v (ix2 j e) = _
  rw [softArr_apply]

/-! ## The two results are the specification's -/

section Results

variable (x : Arr S4096x1024) (wq wk wv : Arr S1024x1024)

theorem projRow (w : Arr S1024x1024) (i : Fin 4096) : (fun c => projArr x w (ix2 i c)) = proj (mat4096 x) (mat1024 w) i :=
  funext fun c => projArr_apply x w i c

theorem projRows (w : Arr S1024x1024) : (fun j c => projArr x w (ix2 j c)) = proj (mat4096 x) (mat1024 w) :=
  funext fun j => projRow x w j

theorem wRef_eq : wRef x wq wk = wArr x wq wk := by
  funext j
  obtain ⟨a, b, rfl⟩ : ∃ a b, j = ix2 a b := ⟨j 0, j 1, eq_ix2 j⟩
  show softArr (lgK (projArr x wq) (projArr x wk)) (ix2 a b)
    = soft (logitK (proj (mat4096 x) (mat1024 wq) a) (proj (mat4096 x) (mat1024 wk))) b
  rw [softArr_apply]
  refine congrArg (fun f => soft f b) (funext fun j' => ?_)
  rw [lgK_apply, projRow, projRows]

/-- Part `c` of the first result, at row `i` and column `e` of the part. -/
theorem parts_apply (c : Fin 4) (i : Fin 4096) (e : Fin 256) :
    (![mixArr (lgR (projArr x wq) (projArr x wk)) (part0 (projArr x wv)),
        mixArr (lgI (projArr x wq) (projArr x wk)) (part1 (projArr x wv)),
        mixArr (lgJ (projArr x wq) (projArr x wk)) (part2 (projArr x wv)),
        mixArr (lgK (projArr x wq) (projArr x wk)) (part3 (projArr x wv))] : Fin 4 → Arr S4096x256) c (ix2 i e)
      = out (proj (mat4096 x) (mat1024 wq) i) (proj (mat4096 x) (mat1024 wk)) (proj (mat4096 x) (mat1024 wv)) c e := by
  rw [← projRow x wq i, ← projRows x wk, ← projRows x wv]
  fin_cases c
  · show mixArr (lgR (projArr x wq) (projArr x wk)) (part0 (projArr x wv)) (ix2 i e) = _
    rw [mixArr_apply]
    show _ = ∑ j : Fin 4096, soft (logitR (fun c => projArr x wq (ix2 i c)) (fun j c => projArr x wk (ix2 j c))) j
      * projArr x wv (ix2 j (col 0 e))
    refine Finset.sum_congr rfl fun j _ => ?_
    rw [part0_apply]
    exact congrArg (fun f => soft f j * projArr x wv (ix2 j (col 0 e))) (funext fun j' => lgR_apply _ _ i j')
  · show mixArr (lgI (projArr x wq) (projArr x wk)) (part1 (projArr x wv)) (ix2 i e) = _
    rw [mixArr_apply]
    show _ = ∑ j : Fin 4096, soft (logitI (fun c => projArr x wq (ix2 i c)) (fun j c => projArr x wk (ix2 j c))) j
      * projArr x wv (ix2 j (col 1 e))
    refine Finset.sum_congr rfl fun j _ => ?_
    rw [part1_apply]
    exact congrArg (fun f => soft f j * projArr x wv (ix2 j (col 1 e))) (funext fun j' => lgI_apply _ _ i j')
  · show mixArr (lgJ (projArr x wq) (projArr x wk)) (part2 (projArr x wv)) (ix2 i e) = _
    rw [mixArr_apply]
    show _ = ∑ j : Fin 4096, soft (logitJ (fun c => projArr x wq (ix2 i c)) (fun j c => projArr x wk (ix2 j c))) j
      * projArr x wv (ix2 j (col 2 e))
    refine Finset.sum_congr rfl fun j _ => ?_
    rw [part2_apply]
    exact congrArg (fun f => soft f j * projArr x wv (ix2 j (col 2 e))) (funext fun j' => lgJ_apply _ _ i j')
  · show mixArr (lgK (projArr x wq) (projArr x wk)) (part3 (projArr x wv)) (ix2 i e) = _
    rw [mixArr_apply]
    show _ = ∑ j : Fin 4096, soft (logitK (fun c => projArr x wq (ix2 i c)) (fun j c => projArr x wk (ix2 j c))) j
      * projArr x wv (ix2 j (col 3 e))
    refine Finset.sum_congr rfl fun j _ => ?_
    rw [part3_apply]
    exact congrArg (fun f => soft f j * projArr x wv (ix2 j (col 3 e))) (funext fun j' => lgK_apply _ _ i j')

theorem yRef_eq : yRef x wq wk wv = yArr x wq wk wv := by
  funext j
  unfold yRef cat4 yArr
  have h256 : (j 1).val / 256 < 4 := Nat.div_lt_of_lt_mul (j 1).isLt
  rw [Cert.LibStack4.concatenate4_apply (t := S4096x1024) (s := S4096x256) 1 _ _ _ _
      concatenates_S4096x256_S4096x256_S4096x256_S4096x256_S4096x1024_d1 rfl j
      ⟨(j 1).val / 256, h256⟩ (ix2 (j 0) ⟨(j 1).val % 256, Nat.mod_lt _ (by decide)⟩)
      (fun b hb => by
        fin_cases b
        · rfl
        · exact absurd rfl hb)
      (by show (j 1).val / 256 * 256 + (j 1).val % 256 = (j 1).val; exact Nat.div_add_mod' _ _)]
  exact parts_apply x wq wk wv _ _ _

end Results

end Cert.RefSide

end
-- ==== Proof.RefChunks.lean ====
/-
  The reference's program cut into seven consecutive stretches, and what each stretch leaves in the buffers that later
  stretches or the results read, as a function of what it found.

  The stretches: the three projections and their twelve parts; the sixteen contractions combined into the four logit
  arrays; one stretch per logit array that normalises it along its rows and applies it to one part of the values (four
  stretches, the same fifteen operations each); the final laying side by side. Running the whole list is running the
  stretches one after the other (`after_append`, `ops_split`). For each stretch, from ANY contents `W`: each buffer it
  writes that is read later holds one of the definitions of RefArrays.lean applied to `W` at the buffers the stretch
  reads, and a buffer it does not write keeps its contents.
-/
import proofs.«113951_j57140244906512_2_alg».proof.Proof.RefRunP
import proofs.«113951_j57140244906512_2_alg».proof.Proof.RefArrays

noncomputable section

namespace Cert.RefSide

open Cert.ReferenceIdeal Cert.ReferenceIdeal.Gen Idealize.ShloMosaic Idealize.ShloMosaic.TcCoe Idealize.SL.Sem Idealize.ShloMosaic.StableHlo

/-- Running two lists one after the other is running their concatenation. -/
theorem after_append {τ : Topo} {sig : RefSig} {Val : EltTy → Type} (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- A device's buffer contents. -/
abbrev Vals : Type := Valuation τ sig (Elt Ideal)

/-! ## The stretches -/

section Stretches

variable {F : FTy → Type} [FloatOps F]

/-- Operations 1 … 18 of the 107. -/
def opsA : List (HloOp τ sig (Elt F)) :=
  [ unary main_arg1 main_v0 ((transpose S1024x1024 [1, 0] · transposes_S1024x1024_S1024x1024_1_0) : (⟨S1024x1024, .f32⟩ : BufTy).Contents (Elt F) → (⟨S1024x1024, .f32⟩ : BufTy).Contents (Elt F)),
    binary main_arg0 main_v0 main_v1 ((fun l r => Host.dotGeneral dot_S4096x1024_S1024x1024_S4096x1024_1_0_0_1_n_n none l r) : (⟨S4096x1024, .f32⟩ : BufTy).Contents (Elt F) → (⟨S1024x1024, .f32⟩ : BufTy).Contents (Elt F) → (⟨S4096x1024, .f32⟩ : BufTy).Contents (Elt F)),
    unary main_arg2 main_v2 ((transpose S1024x1024 [1, 0] · transposes_S1024x1024_S1024x1024_1_0) : (⟨S1024x1024, .f32⟩ : BufTy).Contents (Elt F) → (⟨S1024x1024, .f32⟩ : BufTy).Contents (Elt F)),
    binary main_arg0 main_v2 main_v3 ((fun l r => Host.dotGeneral dot_S4096x1024_S1024x1024_S4096x1024_1_0_0_1_n_n none l r) : (⟨S4096x1024, .f32⟩ : BufTy).Contents (Elt F) → (⟨S1024x1024, .f32⟩ : BufTy).Contents (Elt F) → (⟨S4096x1024, .f32⟩ : BufTy).Contents (Elt F)),
    unary main_arg3 main_v4 ((transpose S1024x1024 [1, 0] · transposes_S1024x1024_S1024x1024_1_0) : (⟨S1024x1024, .f32⟩ : BufTy).Contents (Elt F) → (⟨S1024x1024, .f32⟩ : BufTy).Contents (Elt F)),
    binary main_arg0 main_v4 main_v5 ((fun l r => Host.dotGeneral dot_S4096x1024_S1024x1024_S4096x1024_1_0_0_1_n_n none l r) : (⟨S4096x1024, .f32⟩ : BufTy).Contents (Elt F) → (⟨S1024x1024, .f32⟩ : BufTy).Contents (Elt F) → (⟨S4096x1024, .f32⟩ : BufTy).Contents (Elt F)),
    unary main_v5 main_v6 ((extractStridedSlice S4096x256 ![0, 0] · slices_S4096x1024_S4096x256_0_0) : (⟨S4096x1024, .f32⟩ : BufTy).Contents (Elt F) → (⟨S4096x256, .f32⟩ : BufTy).Contents (Elt F)),
    unary main_v5 main_v7 ((extractStridedSlice S4096x256 ![0, 256] · slices_S4096x1024_S4096x256_0_256) : (⟨S4096x1024, .f32⟩ : BufTy).Contents (Elt F) → (⟨S4096x256, .f32⟩ : BufTy).Contents (Elt F)),
    unary main_v5 main_v8 ((extractStridedSlice S4096x256 ![0, 512] · slices_S4096x1024_S4096x256_0_512) : (⟨S4096x1024, .f32⟩ : BufTy).Contents (Elt F) → (⟨S4096x256, .f32⟩ : BufTy).Contents (Elt F)),
    unary main_v5 main_v9 ((extractStridedSlice S4096x256 ![0, 768] · slices_S4096x1024_S4096x256_0_768) : (⟨S4096x1024, .f32⟩ : BufTy).Contents (Elt F) → (⟨S4096x256, .f32⟩ : BufTy).Contents (Elt F)),
    unary main_v1 main_v10 ((extractStridedSlice S4096x256 ![0, 0] · slices_S4096x1024_S4096x256_0_0) : (⟨S4096x1024, .f32⟩ : BufTy).Contents (Elt F) → (⟨S4096x256, .f32⟩ : BufTy).Contents (Elt F)),
    unary main_v1 main_v11 ((extractStridedSlice S4096x256 ![0, 256] · slices_S4096x1024_S4096x256_0_256) : (⟨S4096x1024, .f32⟩ : BufTy).Contents (Elt F) → (⟨S4096x256, .f32⟩ : BufTy).Contents (Elt F)),
    unary main_v1 main_v12 ((extractStridedSlice S4096x256 ![0, 512] · slices_S4096x1024_S4096x256_0_512) : (⟨S4096x1024, .f32⟩ : BufTy).Contents (Elt F) → (⟨S4096x256, .f32⟩ : BufTy).Contents (Elt F)),
    unary main_v1 main_v13 ((extractStridedSlice S4096x256 ![0, 768] · slices_S4096x1024_S4096x256_0_768) : (⟨S4096x1024, .f32⟩ : BufTy).Contents (Elt F) → (⟨S4096x256, .f32⟩ : BufTy).Contents (Elt F)),
    unary main_v3 main_v14 ((extractStridedSlice S4096x256 ![0, 0] · slices_S4096x1024_S4096x256_0_0) : (⟨S4096x1024, .f32⟩ : BufTy).Contents (Elt F) → (⟨S4096x256, .f32⟩ : BufTy).Contents (Elt F)),
    unary main_v3 main_v15 ((extractStridedSlice S4096x256 ![0, 256] · slices_S4096x1024_S4096x256_0_256) : (⟨S4096x1024, .f32⟩ : BufTy).Contents (Elt F) → (⟨S4096x256, .f32⟩ : BufTy).Contents (Elt F)),
    unary main_v3 main_v16 ((extractStridedSlice S4096x256 ![0, 512] · slices_S4096x1024_S4096x256_0_512) : (⟨S4096x1024, .f32⟩ : BufTy).Contents (Elt F) → (⟨S4096x256, .f32⟩ : BufTy).Contents (Elt F)),
    unary main_v3 main_v17 ((extractStridedSlice S4096x256 ![0, 768] · slices_S4096x1024_S4096x256_0_768) : (⟨S4096x1024, .f32⟩ : BufTy).Contents (Elt F) → (⟨S4096x256, .f32⟩ : BufTy).Contents (Elt F)) ]

/-- Operations 19 … 46 of the 107. -/
def opsB : List (HloOp τ sig (Elt F)) :=
  [ binary main_v10 main_v14 main_v18 ((fun l r => Host.dotGeneral dot_S4096x256_S4096x256_S4096x4096_1_1_0_0_n_n none l r) : (⟨S4096x256, .f32⟩ : BufTy).Contents (Elt F) → (⟨S4096x256, .f32⟩ : BufTy).Contents (Elt F) → (⟨S4096x4096, .f32⟩ : BufTy).Contents (Elt F)),
    binary main_v11 main_v15 main_v19 ((fun l r => Host.dotGeneral dot_S4096x256_S4096x256_S4096x4096_1_1_0_0_n_n none l r) : (⟨S4096x256, .f32⟩ : BufTy).Contents (Elt F) → (⟨S4096x256, .f32⟩ : BufTy).Contents (Elt F) → (⟨S4096x4096, .f32⟩ : BufTy).Contents (Elt F)),
    binary main_v18 main_v19 main_v20 (subf : (⟨S4096x4096, .f32⟩ : BufTy).Contents (Elt F) → (⟨S4096x4096, .f32⟩ : BufTy).Contents (Elt F) → (⟨S4096x4096, .f32⟩ : BufTy).Contents (Elt F)),
    binary main_v12 main_v16 main_v21 ((fun l r => Host.dotGeneral dot_S4096x256_S4096x256_S4096x4096_1_1_0_0_n_n none l r) : (⟨S4096x256, .f32⟩ : BufTy).Contents (Elt F) → (⟨S4096x256, .f32⟩ : BufTy).Contents (Elt F) → (⟨S4096x4096, .f32⟩ : BufTy).Contents (Elt F)),
    binary main_v20 main_v21 main_v22 (subf : (⟨S4096x4096, .f32⟩ : BufTy).Contents (Elt F) → (⟨S4096x4096, .f32⟩ : BufTy).Contents (Elt F) → (⟨S4096x4096, .f32⟩ : BufTy).Contents (Elt F)),
    binary main_v13 main_v17 main_v23 ((fun l r => Host.dotGeneral dot_S4096x256_S4096x256_S4096x4096_1_1_0_0_n_n none l r) : (⟨S4096x256, .f32⟩ : BufTy).Contents (Elt F) → (⟨S4096x256, .f32⟩ : BufTy).Contents (Elt F) → (⟨S4096x4096, .f32⟩ : BufTy).Contents (Elt F)),
    binary main_v22 main_v23 main_v24 (subf : (⟨S4096x4096, .f32⟩ : BufTy).Contents (Elt F) → (⟨S4096x4096, .f32⟩ : BufTy).Contents (Elt F) → (⟨S4096x4096, .f32⟩ : BufTy).Contents (Elt F)),
    binary main_v10 main_v15 main_v25 ((fun l r => Host.dotGeneral dot_S4096x256_S4096x256_S4096x4096_1_1_0_0_n_n none l r) : (⟨S4096x256, .f32⟩ : BufTy).Contents (Elt F) → (⟨S4096x256, .f32⟩ : BufTy).Contents (Elt F) → (⟨S4096x4096, .f32⟩ : BufTy).Contents (Elt F)),
    binary main_v11 main_v14 main_v26 ((fun l r => Host.dotGeneral dot_S4096x256_S4096x256_S4096x4096_1_1_0_0_n_n none l r) : (⟨S4096x256, .f32⟩ : BufTy).Contents (Elt F) → (⟨S4096x256, .f32⟩ : BufTy).Contents (Elt F) → (⟨S4096x4096, .f32⟩ : BufTy).Contents (Elt F)),
    binary main_v25 main_v26 main_v27 (addf : (⟨S4096x4096, .f32⟩ : BufTy).Contents (Elt F) → (⟨S4096x4096, .f32⟩ : BufTy).Contents (Elt F) → (⟨S4096x4096, .f32⟩ : BufTy).Contents (Elt F)),
    binary main_v12 main_v17 main_v28 ((fun l r => Host.dotGeneral dot_S4096x256_S4096x256_S4096x4096_1_1_0_0_n_n none l r) : (⟨S4096x256, .f32⟩ : BufTy).Contents (Elt F) → (⟨S4096x256, .f32⟩ : BufTy).Contents (Elt F) → (⟨S4096x4096, .f32⟩ : BufTy).Contents (Elt F)),
    binary main_v27 main_v28 main_v29 (addf : (⟨S4096x4096, .f32⟩ : BufTy).Contents (Elt F) → (⟨S4096x4096, .f32⟩ : BufTy).Contents (Elt F) → (⟨S4096x4096, .f32⟩ : BufTy).Contents (Elt F)),
    binary main_v13 main_v16 main_v30 ((fun l r => Host.dotGeneral dot_S4096x256_S4096x256_S4096x4096_1_1_0_0_n_n none l r) : (⟨S4096x256, .f32⟩ : BufTy).Contents (Elt F) → (⟨S4096x256, .f32⟩ : BufTy).Contents (Elt F) → (⟨S4096x4096, .f32⟩ : BufTy).Contents (Elt F)),
    binary main_v29 main_v30 main_v31 (subf : (⟨S4096x4096, .f32⟩ : BufTy).Contents (Elt F) → (⟨S4096x4096, .f32⟩ : BufTy).Contents (Elt F) → (⟨S4096x4096, .f32⟩ : BufTy).Contents (Elt F)),
    binary main_v10 main_v16 main_v32 ((fun l r => Host.dotGeneral dot_S4096x256_S4096x256_S4096x4096_1_1_0_0_n_n none l r) : (⟨S4096x256, .f32⟩ : BufTy).Contents (Elt F) → (⟨S4096x256, .f32⟩ : BufTy).Contents (Elt F) → (⟨S4096x4096, .f32⟩ : BufTy).Contents (Elt F)),
    binary main_v11 main_v17 main_v33 ((fun l r => Host.dotGeneral dot_S4096x256_S4096x256_S4096x4096_1_1_0_0_n_n none l r) : (⟨S4096x256, .f32⟩ : BufTy).Contents (Elt F) → (⟨S4096x256, .f32⟩ : BufTy).Contents (Elt F) → (⟨S4096x4096, .f32⟩ : BufTy).Contents (Elt F)),
    binary main_v32 main_v33 main_v34 (subf : (⟨S4096x4096, .f32⟩ : BufTy).Contents (Elt F) → (⟨S4096x4096, .f32⟩ : BufTy).Contents (Elt F) → (⟨S4096x4096, .f32⟩ : BufTy).Contents (Elt F)),
    binary main_v12 main_v14 main_v35 ((fun l r => Host.dotGeneral dot_S4096x256_S4096x256_S4096x4096_1_1_0_0_n_n none l r) : (⟨S4096x256, .f32⟩ : BufTy).Contents (Elt F) → (⟨S4096x256, .f32⟩ : BufTy).Contents (Elt F) → (⟨S4096x4096, .f32⟩ : BufTy).Contents (Elt F)),
    binary main_v34 main_v35 main_v36 (addf : (⟨S4096x4096, .f32⟩ : BufTy).Contents (Elt F) → (⟨S4096x4096, .f32⟩ : BufTy).Contents (Elt F) → (⟨S4096x4096, .f32⟩ : BufTy).Contents (Elt F)),
    binary main_v13 main_v15 main_v37 ((fun l r => Host.dotGeneral dot_S4096x256_S4096x256_S4096x4096_1_1_0_0_n_n none l r) : (⟨S4096x256, .f32⟩ : BufTy).Contents (Elt F) → (⟨S4096x256, .f32⟩ : BufTy).Contents (Elt F) → (⟨S4096x4096, .f32⟩ : BufTy).Contents (Elt F)),
    binary main_v36 main_v37 main_v38 (addf : (⟨S4096x4096, .f32⟩ : BufTy).Contents (Elt F) → (⟨S4096x4096, .f32⟩ : BufTy).Contents (Elt F) → (⟨S4096x4096, .f32⟩ : BufTy).Contents (Elt F)),
    binary main_v10 main_v17 main_v39 ((fun l r => Host.dotGeneral dot_S4096x256_S4096x256_S4096x4096_1_1_0_0_n_n none l r) : (⟨S4096x256, .f32⟩ : BufTy).Contents (Elt F) → (⟨S4096x256, .f32⟩ : BufTy).Contents (Elt F) → (⟨S4096x4096, .f32⟩ : BufTy).Contents (Elt F)),
    binary main_v11 main_v16 main_v40 ((fun l r => Host.dotGeneral dot_S4096x256_S4096x256_S4096x4096_1_1_0_0_n_n none l r) : (⟨S4096x256, .f32⟩ : BufTy).Contents (Elt F) → (⟨S4096x256, .f32⟩ : BufTy).Contents (Elt F) → (⟨S4096x4096, .f32⟩ : BufTy).Contents (Elt F)),
    binary main_v39 main_v40 main_v41 (addf : (⟨S4096x4096, .f32⟩ : BufTy).Contents (Elt F) → (⟨S4096x4096, .f32⟩ : BufTy).Contents (Elt F) → (⟨S4096x4096, .f32⟩ : BufTy).Contents (Elt F)),
    binary main_v12 main_v15 main_v42 ((fun l r => Host.dotGeneral dot_S4096x256_S4096x256_S4096x4096_1_1_0_0_n_n none l r) : (⟨S4096x256, .f32⟩ : BufTy).Contents (Elt F) → (⟨S4096x256, .f32⟩ : BufTy).Contents (Elt F) → (⟨S4096x4096, .f32⟩ : BufTy).Contents (Elt F)),
    binary main_v41 main_v42 main_v43 (subf : (⟨S4096x4096, .f32⟩ : BufTy).Contents (Elt F) → (⟨S4096x4096, .f32⟩ : BufTy).Contents (Elt F) → (⟨S4096x4096, .f32⟩ : BufTy).Contents (Elt F)),
    binary main_v13 main_v14 main_v44 ((fun l r => Host.dotGeneral dot_S4096x256_S4096x256_S4096x4096_1_1_0_0_n_n none l r) : (⟨S4096x256, .f32⟩ : BufTy).Contents (Elt F) → (⟨S4096x256, .f32⟩ : BufTy).Contents (Elt F) → (⟨S4096x4096, .f32⟩ : BufTy).Contents (Elt F)),
    binary main_v43 main_v44 main_v45 (addf : (⟨S4096x4096, .f32⟩ : BufTy).Contents (Elt F) → (⟨S4096x4096, .f32⟩ : BufTy).Contents (Elt F) → (⟨S4096x4096, .f32⟩ : BufTy).Contents (Elt F)) ]

/-- Operations 47 … 61 of the 107. -/
def opsS1 : List (HloOp τ sig (Elt F)) :=
  [ nullary main_cst (constant S_ .f32 0xFF800000#32),
    binary main_v24 main_cst main_v46 ((fun x v => Host.reduce FloatOps.maximumf x v reducesTo_S4096x4096_S4096_d1 h_S_) : (⟨S4096x4096, .f32⟩ : BufTy).Contents (Elt F) → (⟨S_, .f32⟩ : BufTy).Contents (Elt F) → (⟨S4096, .f32⟩ : BufTy).Contents (Elt F)),
    nullary main_cst_0 (constant S_ .f32 0xFF800000#32),
    unary main_cst_0 main_v47 (broadcastInDim S4096 ![] bcast_S_S4096 : (⟨S_, .f32⟩ : BufTy).Contents (Elt F) → (⟨S4096, .f32⟩ : BufTy).Contents (Elt F)),
    binary main_v47 main_v46 main_v48 (maximumf : (⟨S4096, .f32⟩ : BufTy).Contents (Elt F) → (⟨S4096, .f32⟩ : BufTy).Contents (Elt F) → (⟨S4096, .f32⟩ : BufTy).Contents (Elt F)),
    unary main_v48 main_v49 (broadcastInDim S4096x1 ![0] bcast_S4096_S4096x1_0 : (⟨S4096, .f32⟩ : BufTy).Contents (Elt F) → (⟨S4096x1, .f32⟩ : BufTy).Contents (Elt F)),
    unary main_v49 main_v50 (broadcastInDim S4096x4096 ![0, 1] bcast_S4096x1_S4096x4096_0_1 : (⟨S4096x1, .f32⟩ : BufTy).Contents (Elt F) → (⟨S4096x4096, .f32⟩ : BufTy).Contents (Elt F)),
    binary main_v24 main_v50 main_v51 (subf : (⟨S4096x4096, .f32⟩ : BufTy).Contents (Elt F) → (⟨S4096x4096, .f32⟩ : BufTy).Contents (Elt F) → (⟨S4096x4096, .f32⟩ : BufTy).Contents (Elt F)),
    unary main_v51 main_v52 (Host.exp : (⟨S4096x4096, .f32⟩ : BufTy).Contents (Elt F) → (⟨S4096x4096, .f32⟩ : BufTy).Contents (Elt F)),
    nullary main_cst_1 (constant S_ .f32 0x00000000#32),
    binary main_v52 main_cst_1 main_v53 ((fun x v => Host.reduceAdd x v reducesTo_S4096x4096_S4096_d1 h_S_) : (⟨S4096x4096, .f32⟩ : BufTy).Contents (Elt F) → (⟨S_, .f32⟩ : BufTy).Contents (Elt F) → (⟨S4096, .f32⟩ : BufTy).Contents (Elt F)),
    unary main_v53 main_v54 (broadcastInDim S4096x1 ![0] bcast_S4096_S4096x1_0 : (⟨S4096, .f32⟩ : BufTy).Contents (Elt F) → (⟨S4096x1, .f32⟩ : BufTy).Contents (Elt F)),
    unary main_v54 main_v55 (broadcastInDim S4096x4096 ![0, 1] bcast_S4096x1_S4096x4096_0_1 : (⟨S4096x1, .f32⟩ : BufTy).Contents (Elt F) → (⟨S4096x4096, .f32⟩ : BufTy).Contents (Elt F)),
    binary main_v52 main_v55 main_v56 (Host.divf : (⟨S4096x4096, .f32⟩ : BufTy).Contents (Elt F) → (⟨S4096x4096, .f32⟩ : BufTy).Contents (Elt F) → (⟨S4096x4096, .f32⟩ : BufTy).Contents (Elt F)),
    binary main_v56 main_v6 main_v57 ((fun l r => Host.dotGeneral dot_S4096x4096_S4096x256_S4096x256_1_0_0_1_n_n none l r) : (⟨S4096x4096, .f32⟩ : BufTy).Contents (Elt F) → (⟨S4096x256, .f32⟩ : BufTy).Contents (Elt F) → (⟨S4096x256, .f32⟩ : BufTy).Contents (Elt F)) ]

/-- Operations 62 … 76 of the 107. -/
def opsS2 : List (HloOp τ sig (Elt F)) :=
  [ nullary main_cst_2 (constant S_ .f32 0xFF800000#32),
    binary main_v31 main_cst_2 main_v58 ((fun x v => Host.reduce FloatOps.maximumf x v reducesTo_S4096x4096_S4096_d1 h_S_) : (⟨S4096x4096, .f32⟩ : BufTy).Contents (Elt F) → (⟨S_, .f32⟩ : BufTy).Contents (Elt F) → (⟨S4096, .f32⟩ : BufTy).Contents (Elt F)),
    nullary main_cst_3 (constant S_ .f32 0xFF800000#32),
    unary main_cst_3 main_v59 (broadcastInDim S4096 ![] bcast_S_S4096 : (⟨S_, .f32⟩ : BufTy).Contents (Elt F) → (⟨S4096, .f32⟩ : BufTy).Contents (Elt F)),
    binary main_v59 main_v58 main_v60 (maximumf : (⟨S4096, .f32⟩ : BufTy).Contents (Elt F) → (⟨S4096, .f32⟩ : BufTy).Contents (Elt F) → (⟨S4096, .f32⟩ : BufTy).Contents (Elt F)),
    unary main_v60 main_v61 (broadcastInDim S4096x1 ![0] bcast_S4096_S4096x1_0 : (⟨S4096, .f32⟩ : BufTy).Contents (Elt F) → (⟨S4096x1, .f32⟩ : BufTy).Contents (Elt F)),
    unary main_v61 main_v62 (broadcastInDim S4096x4096 ![0, 1] bcast_S4096x1_S4096x4096_0_1 : (⟨S4096x1, .f32⟩ : BufTy).Contents (Elt F) → (⟨S4096x4096, .f32⟩ : BufTy).Contents (Elt F)),
    binary main_v31 main_v62 main_v63 (subf : (⟨S4096x4096, .f32⟩ : BufTy).Contents (Elt F) → (⟨S4096x4096, .f32⟩ : BufTy).Contents (Elt F) → (⟨S4096x4096, .f32⟩ : BufTy).Contents (Elt F)),
    unary main_v63 main_v64 (Host.exp : (⟨S4096x4096, .f32⟩ : BufTy).Contents (Elt F) → (⟨S4096x4096, .f32⟩ : BufTy).Contents (Elt F)),
    nullary main_cst_4 (constant S_ .f32 0x00000000#32),
    binary main_v64 main_cst_4 main_v65 ((fun x v => Host.reduceAdd x v reducesTo_S4096x4096_S4096_d1 h_S_) : (⟨S4096x4096, .f32⟩ : BufTy).Contents (Elt F) → (⟨S_, .f32⟩ : BufTy).Contents (Elt F) → (⟨S4096, .f32⟩ : BufTy).Contents (Elt F)),
    unary main_v65 main_v66 (broadcastInDim S4096x1 ![0] bcast_S4096_S4096x1_0 : (⟨S4096, .f32⟩ : BufTy).Contents (Elt F) → (⟨S4096x1, .f32⟩ : BufTy).Contents (Elt F)),
    unary main_v66 main_v67 (broadcastInDim S4096x4096 ![0, 1] bcast_S4096x1_S4096x4096_0_1 : (⟨S4096x1, .f32⟩ : BufTy).Contents (Elt F) → (⟨S4096x4096, .f32⟩ : BufTy).Contents (Elt F)),
    binary main_v64 main_v67 main_v68 (Host.divf : (⟨S4096x4096, .f32⟩ : BufTy).Contents (Elt F) → (⟨S4096x4096, .f32⟩ : BufTy).Contents (Elt F) → (⟨S4096x4096, .f32⟩ : BufTy).Contents (Elt F)),
    binary main_v68 main_v7 main_v69 ((fun l r => Host.dotGeneral dot_S4096x4096_S4096x256_S4096x256_1_0_0_1_n_n none l r) : (⟨S4096x4096, .f32⟩ : BufTy).Contents (Elt F) → (⟨S4096x256, .f32⟩ : BufTy).Contents (Elt F) → (⟨S4096x256, .f32⟩ : BufTy).Contents (Elt F)) ]

/-- Operations 77 … 91 of the 107. -/
def opsS3 : List (HloOp τ sig (Elt F)) :=
  [ nullary main_cst_5 (constant S_ .f32 0xFF800000#32),
    binary main_v38 main_cst_5 main_v70 ((fun x v => Host.reduce FloatOps.maximumf x v reducesTo_S4096x4096_S4096_d1 h_S_) : (⟨S4096x4096, .f32⟩ : BufTy).Contents (Elt F) → (⟨S_, .f32⟩ : BufTy).Contents (Elt F) → (⟨S4096, .f32⟩ : BufTy).Contents (Elt F)),
    nullary main_cst_6 (constant S_ .f32 0xFF800000#32),
    unary main_cst_6 main_v71 (broadcastInDim S4096 ![] bcast_S_S4096 : (⟨S_, .f32⟩ : BufTy).Contents (Elt F) → (⟨S4096, .f32⟩ : BufTy).Contents (Elt F)),
    binary main_v71 main_v70 main_v72 (maximumf : (⟨S4096, .f32⟩ : BufTy).Contents (Elt F) → (⟨S4096, .f32⟩ : BufTy).Contents (Elt F) → (⟨S4096, .f32⟩ : BufTy).Contents (Elt F)),
    unary main_v72 main_v73 (broadcastInDim S4096x1 ![0] bcast_S4096_S4096x1_0 : (⟨S4096, .f32⟩ : BufTy).Contents (Elt F) → (⟨S4096x1, .f32⟩ : BufTy).Contents (Elt F)),
    unary main_v73 main_v74 (broadcastInDim S4096x4096 ![0, 1] bcast_S4096x1_S4096x4096_0_1 : (⟨S4096x1, .f32⟩ : BufTy).Contents (Elt F) → (⟨S4096x4096, .f32⟩ : BufTy).Contents (Elt F)),
    binary main_v38 main_v74 main_v75 (subf : (⟨S4096x4096, .f32⟩ : BufTy).Contents (Elt F) → (⟨S4096x4096, .f32⟩ : BufTy).Contents (Elt F) → (⟨S4096x4096, .f32⟩ : BufTy).Contents (Elt F)),
    unary main_v75 main_v76 (Host.exp : (⟨S4096x4096, .f32⟩ : BufTy).Contents (Elt F) → (⟨S4096x4096, .f32⟩ : BufTy).Contents (Elt F)),
    nullary main_cst_7 (constant S_ .f32 0x00000000#32),
    binary main_v76 main_cst_7 main_v77 ((fun x v => Host.reduceAdd x v reducesTo_S4096x4096_S4096_d1 h_S_) : (⟨S4096x4096, .f32⟩ : BufTy).Contents (Elt F) → (⟨S_, .f32⟩ : BufTy).Contents (Elt F) → (⟨S4096, .f32⟩ : BufTy).Contents (Elt F)),
    unary main_v77 main_v78 (broadcastInDim S4096x1 ![0] bcast_S4096_S4096x1_0 : (⟨S4096, .f32⟩ : BufTy).Contents (Elt F) → (⟨S4096x1, .f32⟩ : BufTy).Contents (Elt F)),
    unary main_v78 main_v79 (broadcastInDim S4096x4096 ![0, 1] bcast_S4096x1_S4096x4096_0_1 : (⟨S4096x1, .f32⟩ : BufTy).Contents (Elt F) → (⟨S4096x4096, .f32⟩ : BufTy).Contents (Elt F)),
    binary main_v76 main_v79 main_v80 (Host.divf : (⟨S4096x4096, .f32⟩ : BufTy).Contents (Elt F) → (⟨S4096x4096, .f32⟩ : BufTy).Contents (Elt F) → (⟨S4096x4096, .f32⟩ : BufTy).Contents (Elt F)),
    binary main_v80 main_v8 main_v81 ((fun l r => Host.dotGeneral dot_S4096x4096_S4096x256_S4096x256_1_0_0_1_n_n none l r) : (⟨S4096x4096, .f32⟩ : BufTy).Contents (Elt F) → (⟨S4096x256, .f32⟩ : BufTy).Contents (Elt F) → (⟨S4096x256, .f32⟩ : BufTy).Contents (Elt F)) ]

/-- Operations 92 … 106 of the 107. -/
def opsS4 : List (HloOp τ sig (Elt F)) :=
  [ nullary main_cst_8 (constant S_ .f32 0xFF800000#32),
    binary main_v45 main_cst_8 main_v82 ((fun x v => Host.reduce FloatOps.maximumf x v reducesTo_S4096x4096_S4096_d1 h_S_) : (⟨S4096x4096, .f32⟩ : BufTy).Contents (Elt F) → (⟨S_, .f32⟩ : BufTy).Contents (Elt F) → (⟨S4096, .f32⟩ : BufTy).Contents (Elt F)),
    nullary main_cst_9 (constant S_ .f32 0xFF800000#32),
    unary main_cst_9 main_v83 (broadcastInDim S4096 ![] bcast_S_S4096 : (⟨S_, .f32⟩ : BufTy).Contents (Elt F) → (⟨S4096, .f32⟩ : BufTy).Contents (Elt F)),
    binary main_v83 main_v82 main_v84 (maximumf : (⟨S4096, .f32⟩ : BufTy).Contents (Elt F) → (⟨S4096, .f32⟩ : BufTy).Contents (Elt F) → (⟨S4096, .f32⟩ : BufTy).Contents (Elt F)),
    unary main_v84 main_v85 (broadcastInDim S4096x1 ![0] bcast_S4096_S4096x1_0 : (⟨S4096, .f32⟩ : BufTy).Contents (Elt F) → (⟨S4096x1, .f32⟩ : BufTy).Contents (Elt F)),
    unary main_v85 main_v86 (broadcastInDim S4096x4096 ![0, 1] bcast_S4096x1_S4096x4096_0_1 : (⟨S4096x1, .f32⟩ : BufTy).Contents (Elt F) → (⟨S4096x4096, .f32⟩ : BufTy).Contents (Elt F)),
    binary main_v45 main_v86 main_v87 (subf : (⟨S4096x4096, .f32⟩ : BufTy).Contents (Elt F) → (⟨S4096x4096, .f32⟩ : BufTy).Contents (Elt F) → (⟨S4096x4096, .f32⟩ : BufTy).Contents (Elt F)),
    unary main_v87 main_v88 (Host.exp : (⟨S4096x4096, .f32⟩ : BufTy).Contents (Elt F) → (⟨S4096x4096, .f32⟩ : BufTy).Contents (Elt F)),
    nullary main_cst_10 (constant S_ .f32 0x00000000#32),
    binary main_v88 main_cst_10 main_v89 ((fun x v => Host.reduceAdd x v reducesTo_S4096x4096_S4096_d1 h_S_) : (⟨S4096x4096, .f32⟩ : BufTy).Contents (Elt F) → (⟨S_, .f32⟩ : BufTy).Contents (Elt F) → (⟨S4096, .f32⟩ : BufTy).Contents (Elt F)),
    unary main_v89 main_v90 (broadcastInDim S4096x1 ![0] bcast_S4096_S4096x1_0 : (⟨S4096, .f32⟩ : BufTy).Contents (Elt F) → (⟨S4096x1, .f32⟩ : BufTy).Contents (Elt F)),
    unary main_v90 main_v91 (broadcastInDim S4096x4096 ![0, 1] bcast_S4096x1_S4096x4096_0_1 : (⟨S4096x1, .f32⟩ : BufTy).Contents (Elt F) → (⟨S4096x4096, .f32⟩ : BufTy).Contents (Elt F)),
    binary main_v88 main_v91 main_v92 (Host.divf : (⟨S4096x4096, .f32⟩ : BufTy).Contents (Elt F) → (⟨S4096x4096, .f32⟩ : BufTy).Contents (Elt F) → (⟨S4096x4096, .f32⟩ : BufTy).Contents (Elt F)),
    binary main_v92 main_v9 main_v93 ((fun l r => Host.dotGeneral dot_S4096x4096_S4096x256_S4096x256_1_0_0_1_n_n none l r) : (⟨S4096x4096, .f32⟩ : BufTy).Contents (Elt F) → (⟨S4096x256, .f32⟩ : BufTy).Contents (Elt F) → (⟨S4096x256, .f32⟩ : BufTy).Contents (Elt F)) ]

/-- Operations 107 … 107 of the 107. -/
def opsC : List (HloOp τ sig (Elt F)) :=
  [ nary ![main_v57, main_v69, main_v81, main_v93] main_v94 (fun u => concatenate S4096x1024 1 [⟨S4096x256, u 0⟩, ⟨S4096x256, u 1⟩, ⟨S4096x256, u 2⟩, ⟨S4096x256, u 3⟩] concatenates_S4096x256_S4096x256_S4096x256_S4096x256_S4096x1024_d1) ]

end Stretches

set_option maxRecDepth 8192 in
/-- The program's list is the seven stretches in order. -/
theorem ops_split : (Cert.ReferenceIdeal.ValueP.ops (F := Ideal)) = (opsA (F := Ideal)) ++ ((opsB (F := Ideal)) ++ ((opsS1 (F := Ideal)) ++ ((opsS2 (F := Ideal)) ++ ((opsS3 (F := Ideal)) ++ ((opsS4 (F := Ideal)) ++ (opsC (F := Ideal))))))) := rfl

/-! ## What each stretch writes, and that it leaves the rest -/

/-- The buffers `opsA` writes. -/
abbrev opsA_W : List (Ref sig .tc) := [main_v0, main_v1, main_v2, main_v3, main_v4, main_v5, main_v6, main_v7, main_v8, main_v9, main_v10, main_v11, main_v12, main_v13, main_v14, main_v15, main_v16, main_v17]
theorem opsA_writes : (opsA (F := Ideal)).Forall fun op => op.writes ⊆ (opsA_W.map (Proc.devRef (τ := τ) .tc)).toFinset := by
  unfold opsA
  simp only [List.Forall]; exact ⟨by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide)⟩
theorem opsA_keep (W : Vals) (r : Ref sig .tc) (h : r ∉ opsA_W) : after (opsA (F := Ideal)) W (Proc.devRef .tc r) = W (Proc.devRef .tc r) :=
  after_of_writes_sub (opsA (F := Ideal)) _ opsA_writes h

/-- The buffers `opsB` writes. -/
abbrev opsB_W : List (Ref sig .tc) := [main_v18, main_v19, main_v20, main_v21, main_v22, main_v23, main_v24, main_v25, main_v26, main_v27, main_v28, main_v29, main_v30, main_v31, main_v32, main_v33, main_v34, main_v35, main_v36, main_v37, main_v38, main_v39, main_v40, main_v41, main_v42, main_v43, main_v44, main_v45]
theorem opsB_writes : (opsB (F := Ideal)).Forall fun op => op.writes ⊆ (opsB_W.map (Proc.devRef (τ := τ) .tc)).toFinset := by
  unfold opsB
  simp only [List.Forall]; exact ⟨by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide)⟩
theorem opsB_keep (W : Vals) (r : Ref sig .tc) (h : r ∉ opsB_W) : after (opsB (F := Ideal)) W (Proc.devRef .tc r) = W (Proc.devRef .tc r) :=
  after_of_writes_sub (opsB (F := Ideal)) _ opsB_writes h

/-- The buffers `opsS1` writes. -/
abbrev opsS1_W : List (Ref sig .tc) := [main_cst, main_v46, main_cst_0, main_v47, main_v48, main_v49, main_v50, main_v51, main_v52, main_cst_1, main_v53, main_v54, main_v55, main_v56, main_v57]
theorem opsS1_writes : (opsS1 (F := Ideal)).Forall fun op => op.writes ⊆ (opsS1_W.map (Proc.devRef (τ := τ) .tc)).toFinset := by
  unfold opsS1
  simp only [List.Forall]; exact ⟨by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide)⟩
theorem opsS1_keep (W : Vals) (r : Ref sig .tc) (h : r ∉ opsS1_W) : after (opsS1 (F := Ideal)) W (Proc.devRef .tc r) = W (Proc.devRef .tc r) :=
  after_of_writes_sub (opsS1 (F := Ideal)) _ opsS1_writes h

/-- The buffers `opsS2` writes. -/
abbrev opsS2_W : List (Ref sig .tc) := [main_cst_2, main_v58, main_cst_3, main_v59, main_v60, main_v61, main_v62, main_v63, main_v64, main_cst_4, main_v65, main_v66, main_v67, main_v68, main_v69]
theorem opsS2_writes : (opsS2 (F := Ideal)).Forall fun op => op.writes ⊆ (opsS2_W.map (Proc.devRef (τ := τ) .tc)).toFinset := by
  unfold opsS2
  simp only [List.Forall]; exact ⟨by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide)⟩
theorem opsS2_keep (W : Vals) (r : Ref sig .tc) (h : r ∉ opsS2_W) : after (opsS2 (F := Ideal)) W (Proc.devRef .tc r) = W (Proc.devRef .tc r) :=
  after_of_writes_sub (opsS2 (F := Ideal)) _ opsS2_writes h

/-- The buffers `opsS3` writes. -/
abbrev opsS3_W : List (Ref sig .tc) := [main_cst_5, main_v70, main_cst_6, main_v71, main_v72, main_v73, main_v74, main_v75, main_v76, main_cst_7, main_v77, main_v78, main_v79, main_v80, main_v81]
theorem opsS3_writes : (opsS3 (F := Ideal)).Forall fun op => op.writes ⊆ (opsS3_W.map (Proc.devRef (τ := τ) .tc)).toFinset := by
  unfold opsS3
  simp only [List.Forall]; exact ⟨by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide)⟩
theorem opsS3_keep (W : Vals) (r : Ref sig .tc) (h : r ∉ opsS3_W) : after (opsS3 (F := Ideal)) W (Proc.devRef .tc r) = W (Proc.devRef .tc r) :=
  after_of_writes_sub (opsS3 (F := Ideal)) _ opsS3_writes h

/-- The buffers `opsS4` writes. -/
abbrev opsS4_W : List (Ref sig .tc) := [main_cst_8, main_v82, main_cst_9, main_v83, main_v84, main_v85, main_v86, main_v87, main_v88, main_cst_10, main_v89, main_v90, main_v91, main_v92, main_v93]
theorem opsS4_writes : (opsS4 (F := Ideal)).Forall fun op => op.writes ⊆ (opsS4_W.map (Proc.devRef (τ := τ) .tc)).toFinset := by
  unfold opsS4
  simp only [List.Forall]; exact ⟨by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide)⟩
theorem opsS4_keep (W : Vals) (r : Ref sig .tc) (h : r ∉ opsS4_W) : after (opsS4 (F := Ideal)) W (Proc.devRef .tc r) = W (Proc.devRef .tc r) :=
  after_of_writes_sub (opsS4 (F := Ideal)) _ opsS4_writes h

/-- The buffers `opsC` writes. -/
abbrev opsC_W : List (Ref sig .tc) := [main_v94]
theorem opsC_writes : (opsC (F := Ideal)).Forall fun op => op.writes ⊆ (opsC_W.map (Proc.devRef (τ := τ) .tc)).toFinset := by
  unfold opsC
  simp only [List.Forall]; exact (by simp only [nullary_writes, unary_writes, binary_writes, ternary_writes, quaternary_writes, reshape_writes, binaryIndexed_writes, unaryIndexed_writes, nary_writes, Finset.singleton_subset_iff, List.mem_toFinset]; exact List.mem_map_of_mem (by decide))
theorem opsC_keep (W : Vals) (r : Ref sig .tc) (h : r ∉ opsC_W) : after (opsC (F := Ideal)) W (Proc.devRef .tc r) = W (Proc.devRef .tc r) :=
  after_of_writes_sub (opsC (F := Ideal)) _ opsC_writes h

/-! ## What each stretch computes -/
theorem opsA_v6 (W : Vals) : after (opsA (F := Ideal)) W (Proc.devRef .tc main_v6) = part0 (projArr (W (Proc.devRef .tc main_arg0)) (W (Proc.devRef .tc main_arg3))) := by
  unfold opsA; after_results; rfl
theorem opsA_v7 (W : Vals) : after (opsA (F := Ideal)) W (Proc.devRef .tc main_v7) = part1 (projArr (W (Proc.devRef .tc main_arg0)) (W (Proc.devRef .tc main_arg3))) := by
  unfold opsA; after_results; rfl
theorem opsA_v8 (W : Vals) : after (opsA (F := Ideal)) W (Proc.devRef .tc main_v8) = part2 (projArr (W (Proc.devRef .tc main_arg0)) (W (Proc.devRef .tc main_arg3))) := by
  unfold opsA; after_results; rfl
theorem opsA_v9 (W : Vals) : after (opsA (F := Ideal)) W (Proc.devRef .tc main_v9) = part3 (projArr (W (Proc.devRef .tc main_arg0)) (W (Proc.devRef .tc main_arg3))) := by
  unfold opsA; after_results; rfl
theorem opsA_v10 (W : Vals) : after (opsA (F := Ideal)) W (Proc.devRef .tc main_v10) = part0 (projArr (W (Proc.devRef .tc main_arg0)) (W (Proc.devRef .tc main_arg1))) := by
  unfold opsA; after_results; rfl
theorem opsA_v11 (W : Vals) : after (opsA (F := Ideal)) W (Proc.devRef .tc main_v11) = part1 (projArr (W (Proc.devRef .tc main_arg0)) (W (Proc.devRef .tc main_arg1))) := by
  unfold opsA; after_results; rfl
theorem opsA_v12 (W : Vals) : after (opsA (F := Ideal)) W (Proc.devRef .tc main_v12) = part2 (projArr (W (Proc.devRef .tc main_arg0)) (W (Proc.devRef .tc main_arg1))) := by
  unfold opsA; after_results; rfl
theorem opsA_v13 (W : Vals) : after (opsA (F := Ideal)) W (Proc.devRef .tc main_v13) = part3 (projArr (W (Proc.devRef .tc main_arg0)) (W (Proc.devRef .tc main_arg1))) := by
  unfold opsA; after_results; rfl
theorem opsA_v14 (W : Vals) : after (opsA (F := Ideal)) W (Proc.devRef .tc main_v14) = part0 (projArr (W (Proc.devRef .tc main_arg0)) (W (Proc.devRef .tc main_arg2))) := by
  unfold opsA; after_results; rfl
theorem opsA_v15 (W : Vals) : after (opsA (F := Ideal)) W (Proc.devRef .tc main_v15) = part1 (projArr (W (Proc.devRef .tc main_arg0)) (W (Proc.devRef .tc main_arg2))) := by
  unfold opsA; after_results; rfl
theorem opsA_v16 (W : Vals) : after (opsA (F := Ideal)) W (Proc.devRef .tc main_v16) = part2 (projArr (W (Proc.devRef .tc main_arg0)) (W (Proc.devRef .tc main_arg2))) := by
  unfold opsA; after_results; rfl
theorem opsA_v17 (W : Vals) : after (opsA (F := Ideal)) W (Proc.devRef .tc main_v17) = part3 (projArr (W (Proc.devRef .tc main_arg0)) (W (Proc.devRef .tc main_arg2))) := by
  unfold opsA; after_results; rfl
set_option maxHeartbeats 2000000 in
theorem opsB_v24 (W : Vals) : after (opsB (F := Ideal)) W (Proc.devRef .tc main_v24) = lgR4 (W (Proc.devRef .tc main_v10)) (W (Proc.devRef .tc main_v11)) (W (Proc.devRef .tc main_v12)) (W (Proc.devRef .tc main_v13)) (W (Proc.devRef .tc main_v14)) (W (Proc.devRef .tc main_v15)) (W (Proc.devRef .tc main_v16)) (W (Proc.devRef .tc main_v17)) := by
  unfold opsB; after_results_simp <;> rfl
set_option maxHeartbeats 2000000 in
theorem opsB_v31 (W : Vals) : after (opsB (F := Ideal)) W (Proc.devRef .tc main_v31) = lgI4 (W (Proc.devRef .tc main_v10)) (W (Proc.devRef .tc main_v11)) (W (Proc.devRef .tc main_v12)) (W (Proc.devRef .tc main_v13)) (W (Proc.devRef .tc main_v14)) (W (Proc.devRef .tc main_v15)) (W (Proc.devRef .tc main_v16)) (W (Proc.devRef .tc main_v17)) := by
  unfold opsB; after_results_simp <;> rfl
set_option maxHeartbeats 2000000 in
theorem opsB_v38 (W : Vals) : after (opsB (F := Ideal)) W (Proc.devRef .tc main_v38) = lgJ4 (W (Proc.devRef .tc main_v10)) (W (Proc.devRef .tc main_v11)) (W (Proc.devRef .tc main_v12)) (W (Proc.devRef .tc main_v13)) (W (Proc.devRef .tc main_v14)) (W (Proc.devRef .tc main_v15)) (W (Proc.devRef .tc main_v16)) (W (Proc.devRef .tc main_v17)) := by
  unfold opsB; after_results_simp <;> rfl
set_option maxHeartbeats 2000000 in
theorem opsB_v45 (W : Vals) : after (opsB (F := Ideal)) W (Proc.devRef .tc main_v45) = lgK4 (W (Proc.devRef .tc main_v10)) (W (Proc.devRef .tc main_v11)) (W (Proc.devRef .tc main_v12)) (W (Proc.devRef .tc main_v13)) (W (Proc.devRef .tc main_v14)) (W (Proc.devRef .tc main_v15)) (W (Proc.devRef .tc main_v16)) (W (Proc.devRef .tc main_v17)) := by
  unfold opsB; after_results_simp <;> rfl
set_option maxHeartbeats 2000000 in
theorem opsS1_v57 (W : Vals) : after (opsS1 (F := Ideal)) W (Proc.devRef .tc main_v57) = mixArr (W (Proc.devRef .tc main_v24)) (W (Proc.devRef .tc main_v6)) := by
  unfold opsS1; after_results_simp <;> rfl
set_option maxHeartbeats 2000000 in
theorem opsS2_v69 (W : Vals) : after (opsS2 (F := Ideal)) W (Proc.devRef .tc main_v69) = mixArr (W (Proc.devRef .tc main_v31)) (W (Proc.devRef .tc main_v7)) := by
  unfold opsS2; after_results_simp <;> rfl
set_option maxHeartbeats 2000000 in
theorem opsS3_v81 (W : Vals) : after (opsS3 (F := Ideal)) W (Proc.devRef .tc main_v81) = mixArr (W (Proc.devRef .tc main_v38)) (W (Proc.devRef .tc main_v8)) := by
  unfold opsS3; after_results_simp <;> rfl
set_option maxHeartbeats 2000000 in
theorem opsS4_v93 (W : Vals) : after (opsS4 (F := Ideal)) W (Proc.devRef .tc main_v93) = mixArr (W (Proc.devRef .tc main_v45)) (W (Proc.devRef .tc main_v9)) := by
  unfold opsS4; after_results_simp <;> rfl
set_option maxHeartbeats 2000000 in
theorem opsS4_v92 (W : Vals) : after (opsS4 (F := Ideal)) W (Proc.devRef .tc main_v92) = softArr (W (Proc.devRef .tc main_v45)) := by
  unfold opsS4; after_results_simp <;> rfl
set_option maxHeartbeats 2000000 in
theorem opsC_v94 (W : Vals) : after (opsC (F := Ideal)) W (Proc.devRef .tc main_v94) = cat4 (W (Proc.devRef .tc main_v57)) (W (Proc.devRef .tc main_v69)) (W (Proc.devRef .tc main_v81)) (W (Proc.devRef .tc main_v93)) := by
  unfold opsC; after_results_simp <;> rfl

end Cert.RefSide

end
-- ==== Proof.RefSide.lean ====
/-
  The reference's run: every weakly fair execution terminates with the first result the array `Cert.Quat.yArr` of the
  arguments, the second `Cert.Quat.wArr`, and the arguments unchanged.

  The program is a straight line of 107 host operations, so its run ends with every buffer at the fold of the
  operations' results over the launch contents. The fold is taken stretch by stretch (RefChunks.lean): after each
  stretch, the buffers still to be read hold named arrays of the arguments (RefArrays.lean), so that the two result
  buffers end at `yRef` and `wRef` of the arguments, which are the specification's arrays index by index.
-/
import proofs.«113951_j57140244906512_2_alg».proof.Proof.RefChunks

noncomputable section

namespace Cert.RefSide

open Cert.ReferenceIdeal Cert.ReferenceIdeal.Gen Idealize.ShloMosaic Idealize.ShloMosaic.TcCoe Idealize.SL.Sem Idealize.ShloMosaic.StableHlo

/-- The contents after the seven stretches, in order. -/
def final (V0 : Vals) : Vals := after opsC (after opsS4 (after opsS3 (after opsS2 (after opsS1 (after opsB (after opsA V0))))))

/-- The contents after the whole program. -/
theorem after_ops (V0 : Vals) : after (Cert.ReferenceIdeal.ValueP.ops (F := Ideal)) V0 = final V0 := by
  rw [ops_split]
  simp only [after_append]
  rfl

/-- From any contents `V0` holding `a0 … a3` in the argument buffers: the result buffers end at the named arrays of
    `a0 … a3`, the argument buffers as they were. After each stretch the facts list what the buffers still to be read
    hold; the contents before the stretch are then forgotten. -/
theorem final_spec (V0 : Vals) (a0 : Arr S4096x1024) (a1 a2 a3 : Arr S1024x1024)
    (e0 : V0 (Proc.devRef .tc main_arg0) = a0) (e1 : V0 (Proc.devRef .tc main_arg1) = a1)
    (e2 : V0 (Proc.devRef .tc main_arg2) = a2) (e3 : V0 (Proc.devRef .tc main_arg3) = a3) :
    final V0 (Proc.devRef .tc main_v94) = yRef a0 a1 a2 a3
    ∧ final V0 (Proc.devRef .tc main_v92) = wRef a0 a1 a2
    ∧ final V0 (Proc.devRef .tc main_arg0) = a0 ∧ final V0 (Proc.devRef .tc main_arg1) = a1
    ∧ final V0 (Proc.devRef .tc main_arg2) = a2 ∧ final V0 (Proc.devRef .tc main_arg3) = a3 := by
  unfold final
  -- the stretch opsA
  have h0_v6 : after opsA V0 (Proc.devRef .tc main_v6) = (part0 (projArr a0 a3)) := (opsA_v6 V0).trans (by rw [e0, e3])
  have h0_v7 : after opsA V0 (Proc.devRef .tc main_v7) = (part1 (projArr a0 a3)) := (opsA_v7 V0).trans (by rw [e0, e3])
  have h0_v8 : after opsA V0 (Proc.devRef .tc main_v8) = (part2 (projArr a0 a3)) := (opsA_v8 V0).trans (by rw [e0, e3])
  have h0_v9 : after opsA V0 (Proc.devRef .tc main_v9) = (part3 (projArr a0 a3)) := (opsA_v9 V0).trans (by rw [e0, e3])
  have h0_v10 : after opsA V0 (Proc.devRef .tc main_v10) = (part0 (projArr a0 a1)) := (opsA_v10 V0).trans (by rw [e0, e1])
  have h0_v11 : after opsA V0 (Proc.devRef .tc main_v11) = (part1 (projArr a0 a1)) := (opsA_v11 V0).trans (by rw [e0, e1])
  have h0_v12 : after opsA V0 (Proc.devRef .tc main_v12) = (part2 (projArr a0 a1)) := (opsA_v12 V0).trans (by rw [e0, e1])
  have h0_v13 : after opsA V0 (Proc.devRef .tc main_v13) = (part3 (projArr a0 a1)) := (opsA_v13 V0).trans (by rw [e0, e1])
  have h0_v14 : after opsA V0 (Proc.devRef .tc main_v14) = (part0 (projArr a0 a2)) := (opsA_v14 V0).trans (by rw [e0, e2])
  have h0_v15 : after opsA V0 (Proc.devRef .tc main_v15) = (part1 (projArr a0 a2)) := (opsA_v15 V0).trans (by rw [e0, e2])
  have h0_v16 : after opsA V0 (Proc.devRef .tc main_v16) = (part2 (projArr a0 a2)) := (opsA_v16 V0).trans (by rw [e0, e2])
  have h0_v17 : after opsA V0 (Proc.devRef .tc main_v17) = (part3 (projArr a0 a2)) := (opsA_v17 V0).trans (by rw [e0, e2])
  have h0_arg0 : after opsA V0 (Proc.devRef .tc main_arg0) = a0 := (opsA_keep V0 main_arg0 (by decide)).trans e0
  have h0_arg1 : after opsA V0 (Proc.devRef .tc main_arg1) = a1 := (opsA_keep V0 main_arg1 (by decide)).trans e1
  have h0_arg2 : after opsA V0 (Proc.devRef .tc main_arg2) = a2 := (opsA_keep V0 main_arg2 (by decide)).trans e2
  have h0_arg3 : after opsA V0 (Proc.devRef .tc main_arg3) = a3 := (opsA_keep V0 main_arg3 (by decide)).trans e3
  clear e0 e1 e2 e3
  generalize after opsA V0 = V1 at *
  -- the stretch opsB
  have h1_v24 : after opsB V1 (Proc.devRef .tc main_v24) = (lgR (projArr a0 a1) (projArr a0 a2)) :=
    (opsB_v24 V1).trans (by rw [h0_v10, h0_v11, h0_v12, h0_v13, h0_v14, h0_v15, h0_v16, h0_v17] <;> rfl)
  have h1_v31 : after opsB V1 (Proc.devRef .tc main_v31) = (lgI (projArr a0 a1) (projArr a0 a2)) :=
    (opsB_v31 V1).trans (by rw [h0_v10, h0_v11, h0_v12, h0_v13, h0_v14, h0_v15, h0_v16, h0_v17] <;> rfl)
  have h1_v38 : after opsB V1 (Proc.devRef .tc main_v38) = (lgJ (projArr a0 a1) (projArr a0 a2)) :=
    (opsB_v38 V1).trans (by rw [h0_v10, h0_v11, h0_v12, h0_v13, h0_v14, h0_v15, h0_v16, h0_v17] <;> rfl)
  have h1_v45 : after opsB V1 (Proc.devRef .tc main_v45) = (lgK (projArr a0 a1) (projArr a0 a2)) :=
    (opsB_v45 V1).trans (by rw [h0_v10, h0_v11, h0_v12, h0_v13, h0_v14, h0_v15, h0_v16, h0_v17] <;> rfl)
  have h1_v6 : after opsB V1 (Proc.devRef .tc main_v6) = (part0 (projArr a0 a3)) := (opsB_keep V1 main_v6 (by decide)).trans h0_v6
  have h1_v7 : after opsB V1 (Proc.devRef .tc main_v7) = (part1 (projArr a0 a3)) := (opsB_keep V1 main_v7 (by decide)).trans h0_v7
  have h1_v8 : after opsB V1 (Proc.devRef .tc main_v8) = (part2 (projArr a0 a3)) := (opsB_keep V1 main_v8 (by decide)).trans h0_v8
  have h1_v9 : after opsB V1 (Proc.devRef .tc main_v9) = (part3 (projArr a0 a3)) := (opsB_keep V1 main_v9 (by decide)).trans h0_v9
  have h1_arg0 : after opsB V1 (Proc.devRef .tc main_arg0) = a0 := (opsB_keep V1 main_arg0 (by decide)).trans h0_arg0
  have h1_arg1 : after opsB V1 (Proc.devRef .tc main_arg1) = a1 := (opsB_keep V1 main_arg1 (by decide)).trans h0_arg1
  have h1_arg2 : after opsB V1 (Proc.devRef .tc main_arg2) = a2 := (opsB_keep V1 main_arg2 (by decide)).trans h0_arg2
  have h1_arg3 : after opsB V1 (Proc.devRef .tc main_arg3) = a3 := (opsB_keep V1 main_arg3 (by decide)).trans h0_arg3
  clear h0_v6 h0_v7 h0_v8 h0_v9 h0_v10 h0_v11 h0_v12 h0_v13 h0_v14 h0_v15 h0_v16 h0_v17 h0_arg0 h0_arg1 h0_arg2 h0_arg3
  generalize after opsB V1 = V2 at *
  -- the stretch opsS1
  have h2_v57 : after opsS1 V2 (Proc.devRef .tc main_v57) = (mixArr (lgR (projArr a0 a1) (projArr a0 a2)) (part0 (projArr a0 a3))) :=
    (opsS1_v57 V2).trans (by rw [h1_v24, h1_v6] <;> rfl)
  have h2_v31 : after opsS1 V2 (Proc.devRef .tc main_v31) = (lgI (projArr a0 a1) (projArr a0 a2)) := (opsS1_keep V2 main_v31 (by decide)).trans h1_v31
  have h2_v38 : after opsS1 V2 (Proc.devRef .tc main_v38) = (lgJ (projArr a0 a1) (projArr a0 a2)) := (opsS1_keep V2 main_v38 (by decide)).trans h1_v38
  have h2_v45 : after opsS1 V2 (Proc.devRef .tc main_v45) = (lgK (projArr a0 a1) (projArr a0 a2)) := (opsS1_keep V2 main_v45 (by decide)).trans h1_v45
  have h2_v7 : after opsS1 V2 (Proc.devRef .tc main_v7) = (part1 (projArr a0 a3)) := (opsS1_keep V2 main_v7 (by decide)).trans h1_v7
  have h2_v8 : after opsS1 V2 (Proc.devRef .tc main_v8) = (part2 (projArr a0 a3)) := (opsS1_keep V2 main_v8 (by decide)).trans h1_v8
  have h2_v9 : after opsS1 V2 (Proc.devRef .tc main_v9) = (part3 (projArr a0 a3)) := (opsS1_keep V2 main_v9 (by decide)).trans h1_v9
  have h2_arg0 : after opsS1 V2 (Proc.devRef .tc main_arg0) = a0 := (opsS1_keep V2 main_arg0 (by decide)).trans h1_arg0
  have h2_arg1 : after opsS1 V2 (Proc.devRef .tc main_arg1) = a1 := (opsS1_keep V2 main_arg1 (by decide)).trans h1_arg1
  have h2_arg2 : after opsS1 V2 (Proc.devRef .tc main_arg2) = a2 := (opsS1_keep V2 main_arg2 (by decide)).trans h1_arg2
  have h2_arg3 : after opsS1 V2 (Proc.devRef .tc main_arg3) = a3 := (opsS1_keep V2 main_arg3 (by decide)).trans h1_arg3
  clear h1_v24 h1_v31 h1_v38 h1_v45 h1_v6 h1_v7 h1_v8 h1_v9 h1_arg0 h1_arg1 h1_arg2 h1_arg3
  generalize after opsS1 V2 = V3 at *
  -- the stretch opsS2
  have h3_v69 : after opsS2 V3 (Proc.devRef .tc main_v69) = (mixArr (lgI (projArr a0 a1) (projArr a0 a2)) (part1 (projArr a0 a3))) :=
    (opsS2_v69 V3).trans (by rw [h2_v31, h2_v7] <;> rfl)
  have h3_v57 : after opsS2 V3 (Proc.devRef .tc main_v57) = (mixArr (lgR (projArr a0 a1) (projArr a0 a2)) (part0 (projArr a0 a3))) := (opsS2_keep V3 main_v57 (by decide)).trans h2_v57
  have h3_v38 : after opsS2 V3 (Proc.devRef .tc main_v38) = (lgJ (projArr a0 a1) (projArr a0 a2)) := (opsS2_keep V3 main_v38 (by decide)).trans h2_v38
  have h3_v45 : after opsS2 V3 (Proc.devRef .tc main_v45) = (lgK (projArr a0 a1) (projArr a0 a2)) := (opsS2_keep V3 main_v45 (by decide)).trans h2_v45
  have h3_v8 : after opsS2 V3 (Proc.devRef .tc main_v8) = (part2 (projArr a0 a3)) := (opsS2_keep V3 main_v8 (by decide)).trans h2_v8
  have h3_v9 : after opsS2 V3 (Proc.devRef .tc main_v9) = (part3 (projArr a0 a3)) := (opsS2_keep V3 main_v9 (by decide)).trans h2_v9
  have h3_arg0 : after opsS2 V3 (Proc.devRef .tc main_arg0) = a0 := (opsS2_keep V3 main_arg0 (by decide)).trans h2_arg0
  have h3_arg1 : after opsS2 V3 (Proc.devRef .tc main_arg1) = a1 := (opsS2_keep V3 main_arg1 (by decide)).trans h2_arg1
  have h3_arg2 : after opsS2 V3 (Proc.devRef .tc main_arg2) = a2 := (opsS2_keep V3 main_arg2 (by decide)).trans h2_arg2
  have h3_arg3 : after opsS2 V3 (Proc.devRef .tc main_arg3) = a3 := (opsS2_keep V3 main_arg3 (by decide)).trans h2_arg3
  clear h2_v57 h2_v31 h2_v38 h2_v45 h2_v7 h2_v8 h2_v9 h2_arg0 h2_arg1 h2_arg2 h2_arg3
  generalize after opsS2 V3 = V4 at *
  -- the stretch opsS3
  have h4_v81 : after opsS3 V4 (Proc.devRef .tc main_v81) = (mixArr (lgJ (projArr a0 a1) (projArr a0 a2)) (part2 (projArr a0 a3))) :=
    (opsS3_v81 V4).trans (by rw [h3_v38, h3_v8] <;> rfl)
  have h4_v57 : after opsS3 V4 (Proc.devRef .tc main_v57) = (mixArr (lgR (projArr a0 a1) (projArr a0 a2)) (part0 (projArr a0 a3))) := (opsS3_keep V4 main_v57 (by decide)).trans h3_v57
  have h4_v69 : after opsS3 V4 (Proc.devRef .tc main_v69) = (mixArr (lgI (projArr a0 a1) (projArr a0 a2)) (part1 (projArr a0 a3))) := (opsS3_keep V4 main_v69 (by decide)).trans h3_v69
  have h4_v45 : after opsS3 V4 (Proc.devRef .tc main_v45) = (lgK (projArr a0 a1) (projArr a0 a2)) := (opsS3_keep V4 main_v45 (by decide)).trans h3_v45
  have h4_v9 : after opsS3 V4 (Proc.devRef .tc main_v9) = (part3 (projArr a0 a3)) := (opsS3_keep V4 main_v9 (by decide)).trans h3_v9
  have h4_arg0 : after opsS3 V4 (Proc.devRef .tc main_arg0) = a0 := (opsS3_keep V4 main_arg0 (by decide)).trans h3_arg0
  have h4_arg1 : after opsS3 V4 (Proc.devRef .tc main_arg1) = a1 := (opsS3_keep V4 main_arg1 (by decide)).trans h3_arg1
  have h4_arg2 : after opsS3 V4 (Proc.devRef .tc main_arg2) = a2 := (opsS3_keep V4 main_arg2 (by decide)).trans h3_arg2
  have h4_arg3 : after opsS3 V4 (Proc.devRef .tc main_arg3) = a3 := (opsS3_keep V4 main_arg3 (by decide)).trans h3_arg3
  clear h3_v69 h3_v57 h3_v38 h3_v45 h3_v8 h3_v9 h3_arg0 h3_arg1 h3_arg2 h3_arg3
  generalize after opsS3 V4 = V5 at *
  -- the stretch opsS4
  have h5_v93 : after opsS4 V5 (Proc.devRef .tc main_v93) = (mixArr (lgK (projArr a0 a1) (projArr a0 a2)) (part3 (projArr a0 a3))) :=
    (opsS4_v93 V5).trans (by rw [h4_v45, h4_v9] <;> rfl)
  have h5_v92 : after opsS4 V5 (Proc.devRef .tc main_v92) = (wRef a0 a1 a2) :=
    (opsS4_v92 V5).trans (by rw [h4_v45] <;> rfl)
  have h5_v57 : after opsS4 V5 (Proc.devRef .tc main_v57) = (mixArr (lgR (projArr a0 a1) (projArr a0 a2)) (part0 (projArr a0 a3))) := (opsS4_keep V5 main_v57 (by decide)).trans h4_v57
  have h5_v69 : after opsS4 V5 (Proc.devRef .tc main_v69) = (mixArr (lgI (projArr a0 a1) (projArr a0 a2)) (part1 (projArr a0 a3))) := (opsS4_keep V5 main_v69 (by decide)).trans h4_v69
  have h5_v81 : after opsS4 V5 (Proc.devRef .tc main_v81) = (mixArr (lgJ (projArr a0 a1) (projArr a0 a2)) (part2 (projArr a0 a3))) := (opsS4_keep V5 main_v81 (by decide)).trans h4_v81
  have h5_arg0 : after opsS4 V5 (Proc.devRef .tc main_arg0) = a0 := (opsS4_keep V5 main_arg0 (by decide)).trans h4_arg0
  have h5_arg1 : after opsS4 V5 (Proc.devRef .tc main_arg1) = a1 := (opsS4_keep V5 main_arg1 (by decide)).trans h4_arg1
  have h5_arg2 : after opsS4 V5 (Proc.devRef .tc main_arg2) = a2 := (opsS4_keep V5 main_arg2 (by decide)).trans h4_arg2
  have h5_arg3 : after opsS4 V5 (Proc.devRef .tc main_arg3) = a3 := (opsS4_keep V5 main_arg3 (by decide)).trans h4_arg3
  clear h4_v81 h4_v57 h4_v69 h4_v45 h4_v9 h4_arg0 h4_arg1 h4_arg2 h4_arg3
  generalize after opsS4 V5 = V6 at *
  -- the stretch opsC
  have h6_v94 : after opsC V6 (Proc.devRef .tc main_v94) = (yRef a0 a1 a2 a3) :=
    (opsC_v94 V6).trans (by rw [h5_v57, h5_v69, h5_v81, h5_v93] <;> rfl)
  have h6_v92 : after opsC V6 (Proc.devRef .tc main_v92) = (wRef a0 a1 a2) := (opsC_keep V6 main_v92 (by decide)).trans h5_v92
  have h6_arg0 : after opsC V6 (Proc.devRef .tc main_arg0) = a0 := (opsC_keep V6 main_arg0 (by decide)).trans h5_arg0
  have h6_arg1 : after opsC V6 (Proc.devRef .tc main_arg1) = a1 := (opsC_keep V6 main_arg1 (by decide)).trans h5_arg1
  have h6_arg2 : after opsC V6 (Proc.devRef .tc main_arg2) = a2 := (opsC_keep V6 main_arg2 (by decide)).trans h5_arg2
  have h6_arg3 : after opsC V6 (Proc.devRef .tc main_arg3) = a3 := (opsC_keep V6 main_arg3 (by decide)).trans h5_arg3
  exact ⟨h6_v94, h6_v92, h6_arg0, h6_arg1, h6_arg2, h6_arg3⟩

/-- On every device, from any memory with zero counters: every weakly fair execution of the reference terminates with
    its first result the specification's output array of the arguments, its second the specification's weights of the
    last component, and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v94) = Cert.Quat.yArr (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v92) = Cert.Quat.wArr (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => by
      have hs := final_spec (launchContents m c) (m ((c.tc : Thread nD τ).loc main_arg0)) (m ((c.tc : Thread nD τ).loc main_arg1)) (m ((c.tc : Thread nD τ).loc main_arg2)) (m ((c.tc : Thread nD τ).loc main_arg3)) rfl rfl rfl rfl
      rw [← after_ops, yRef_eq, wRef_eq] at hs
      exact ⟨(h c main_v94).trans hs.1, (h c main_v92).trans hs.2.1, (h c main_arg0).trans hs.2.2.1,
        (h c main_arg1).trans hs.2.2.2.1, (h c main_arg2).trans hs.2.2.2.2.1, (h c main_arg3).trans hs.2.2.2.2.2⟩)
    (run_seq Cert.ReferenceIdeal.ValueP.scopedRefs_eq Cert.ReferenceIdeal.ValueP.scopedSems_eq defs main
      (fun _ => Cert.ReferenceIdeal.ValueP.ops) Cert.ReferenceIdeal.ValueP.main_eq (fun _ => Cert.ReferenceIdeal.ValueP.ops_sub) m ρ)

end Cert.RefSide

end
-- ==== Proof.lean ====
/-
  The certificate of a quaternion attention kernel against its reference.

  The kernel program is a stretch of host operations (the three weight matrices stacked, transposed and narrowed; the
  rows narrowed), a first region that multiplies the rows by the stacked weights block by block, and a second region
  that, for each block of 256 query rows, forms the four components of the Hamilton product of the query with every key,
  normalises each component over the keys by the shifted exponential, and mixes one quarter of the value rows with each.
  The reference does the same with three separate projections on whole arrays. On the extended reals a change of
  format is the identity and both programs apply the same operations in the same order to the same numbers, so the
  results agree entry by entry with no hypothesis on the inputs: the one step the reference has that the kernel lacks,
  a maximum with −∞ before the shift, changes nothing.

  The frames of the two kernel programs are the same argument at two interpretations of the floats: every weakly fair
  execution runs the three items in order, each region entered from and left at every unscoped buffer held whole, and
  no item writes an argument. The reference's frame is its run with the results dropped. The idealization rewrote no
  operation, so there is nothing to preserve.
-/
import proofs.«113951_j57140244906512_2_alg».proof.Defs
import proofs.«113951_j57140244906512_2_alg».proof.Proof.Gen.Kernel
import proofs.«113951_j57140244906512_2_alg».proof.Proof.Gen.KernelIdeal
import proofs.«113951_j57140244906512_2_alg».proof.Proof.Gen.ReferenceIdeal
import proofs.«113951_j57140244906512_2_alg».proof.Proof.Gen.Pre_finite_inputs
import proofs.«113951_j57140244906512_2_alg».proof.Proof.RunB
import proofs.«113951_j57140244906512_2_alg».proof.Proof.KernelValue
import proofs.«113951_j57140244906512_2_alg».proof.Proof.RefSide
import Idealize.ShloMosaic.Adequacy
import Idealize.ShloMosaic.Init

noncomputable section

namespace Cert.Proof

open Idealize.ShloMosaic Idealize.SL.Sem

/-- The word-level kernel program runs and leaves its arguments as launched. -/
theorem frame_word : @Cert.frame_Kernel Cert.Kernel.Gen.facts Cert.Pre_finite_inputs.Gen.facts :=
  fun m ρ _ => Cert.Kernel.Regions.frame (F := Bits) m ρ

/-- So does the idealized one. -/
theorem frame_ideal : @Cert.frame_KernelIdeal Cert.KernelIdeal.Gen.facts Cert.Pre_finite_inputs.Gen.facts :=
  fun m ρ _ => Cert.KernelIdeal.Regions.frame (F := Ideal) m ρ

/-- The reference runs and leaves its arguments as launched: its run, the results dropped. -/
theorem frame_ref : @Cert.frame_ReferenceIdeal Cert.ReferenceIdeal.Gen.facts Cert.Pre_finite_inputs.Gen.facts :=
  fun m ρ _ => (θ_run Cert.ReferenceIdeal.defs _ _).mono (fun _ h c => (h c).2.2) (Cert.RefSide.run m ρ)

/-- From memories that agree on the arguments the two idealized programs end with the same two arrays: both are the
    specification's arrays of the arguments. -/
theorem algebraic : @Cert.algebraic_KernelIdeal_ReferenceIdeal Cert.KernelIdeal.Gen.facts Cert.ReferenceIdeal.Gen.facts Cert.Pre_finite_inputs.Gen.facts := by
  intro m ρ m' ρ' _ hagree
  refine ⟨_, _, Cert.KernelValue.run m ρ, ?_⟩
  refine (θ_run Cert.ReferenceIdeal.defs _ _).mono (fun _ h c => ⟨(h c).1.trans ?_, (h c).2.1.trans ?_, (h c).2.2⟩)
    (Cert.RefSide.run m' ρ')
  · rw [(hagree c).1, (hagree c).2.1, (hagree c).2.2.1, (hagree c).2.2.2]
  · rw [(hagree c).1, (hagree c).2.1, (hagree c).2.2.1]

theorem claim : Cert.Claim :=
  ⟨Cert.Kernel.Gen.facts, Cert.KernelIdeal.Gen.facts, Cert.ReferenceIdeal.Gen.facts, Cert.Pre_finite_inputs.Gen.facts,
    frame_word, frame_ideal, frame_ref, trivial, algebraic⟩

end Cert.Proof

end
